-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S800000 32) (main_arg2 : IVec S800000 32) (main_arg3 : FVec F S64x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S10000 : Shape := ⟨1, ![10000]⟩
abbrev S5000x64 : Shape := ⟨2, ![5000, 64]⟩
abbrev S10000x1 : Shape := ⟨2, ![10000, 1]⟩
abbrev S800000x64 : Shape := ⟨2, ![800000, 64]⟩
abbrev S10000x64 : Shape := ⟨2, ![10000, 64]⟩
abbrev S50000x1 : Shape := ⟨2, ![50000, 1]⟩
abbrev S1x64 : Shape := ⟨2, ![1, 64]⟩

abbrev nBuf : Space → Nat
  | .hbm => 157
  | .vmem => 30
  | .smem => 0
  | _ => 0

abbrev hbmTy0_0 (i : Nat) : BufTy := match i % 128 with
  | 0 => ⟨S50000x64, .f32⟩
  | 1 => ⟨S800000, .i32⟩
  | 2 => ⟨S800000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S_, .f32⟩
  | 10 => ⟨S800000, .f32⟩
  | 11 => ⟨S_, .f32⟩
  | 12 => ⟨S50000, .f32⟩
  | 13 => ⟨S800000x1, .i32⟩
  | 14 => ⟨S50000, .f32⟩
  | 15 => ⟨S_, .f32⟩
  | 16 => ⟨S50000, .f32⟩
  | 17 => ⟨S50000, .i1⟩
  | 18 => ⟨S_, .f32⟩
  | 19 => ⟨S50000, .f32⟩
  | 20 => ⟨S50000, .f32⟩
  | 21 => ⟨S_, .f32⟩
  | 22 => ⟨S_, .f32⟩
  | 23 => ⟨S50000, .f32⟩
  | 24 => ⟨S50000, .f32⟩
  | 25 => ⟨S_, .f32⟩
  | 26 => ⟨S10000, .f32⟩
  | 27 => ⟨S800000x1, .i32⟩
  | 28 => ⟨S10000, .f32⟩
  | 29 => ⟨S_, .f32⟩
  | 30 => ⟨S10000, .f32⟩
  | 31 => ⟨S10000, .i1⟩
  | 32 => ⟨S_, .f32⟩
  | 33 => ⟨S10000, .f32⟩
  | 34 => ⟨S10000, .f32⟩
  | 35 => ⟨S_, .f32⟩
  | 36 => ⟨S_, .f32⟩
  | 37 => ⟨S10000, .f32⟩
  | 38 => ⟨S10000, .f32⟩
  | 39 => ⟨S50000x64, .f32⟩
  | 40 => ⟨S10000x1, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x64, .f32⟩
  | 50 => ⟨S_, .f32⟩
  | 51 => ⟨S10000x64, .f32⟩
  | 52 => ⟨S800000x1, .i32⟩
  | 53 => ⟨S10000x64, .f32⟩
  | 54 => ⟨S10000x64, .f32⟩
  | 55 => ⟨S10000x64, .f32⟩
  | 56 => ⟨S50000x1, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x64, .f32⟩
  | 66 => ⟨S_, .f32⟩
  | 67 => ⟨S50000x64, .f32⟩
  | 68 => ⟨S800000x1, .i32⟩
  | 69 => ⟨S50000x64, .f32⟩
  | 70 => ⟨S50000x64, .f32⟩
  | 71 => ⟨S50000x64, .f32⟩
  | 72 => ⟨S1x64, .f32⟩
  | 73 => ⟨S50000x64, .f32⟩
  | 74 => ⟨S50000x64, .f32⟩
  | 75 => ⟨S10000x1, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x64, .f32⟩
  | 85 => ⟨S_, .f32⟩
  | 86 => ⟨S10000x64, .f32⟩
  | 87 => ⟨S800000x1, .i32⟩
  | 88 => ⟨S10000x64, .f32⟩
  | 89 => ⟨S10000x64, .f32⟩
  | 90 => ⟨S10000x64, .f32⟩
  | 91 => ⟨S50000x1, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x64, .f32⟩
  | 101 => ⟨S_, .f32⟩
  | 102 => ⟨S50000x64, .f32⟩
  | 103 => ⟨S800000x1, .i32⟩
  | 104 => ⟨S50000x64, .f32⟩
  | 105 => ⟨S50000x64, .f32⟩
  | 106 => ⟨S50000x64, .f32⟩
  | 107 => ⟨S1x64, .f32⟩
  | 108 => ⟨S50000x64, .f32⟩
  | 109 => ⟨S50000x64, .f32⟩
  | 110 => ⟨S10000x1, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x64, .f32⟩
  | 120 => ⟨S_, .f32⟩
  | 121 => ⟨S10000x64, .f32⟩
  | 122 => ⟨S800000x1, .i32⟩
  | 123 => ⟨S10000x64, .f32⟩
  | 124 => ⟨S10000x64, .f32⟩
  | 125 => ⟨S10000x64, .f32⟩
  | 126 => ⟨S50000x1, .f32⟩
  | 127 => ⟨S_, .i32⟩
  | _ => ⟨S50000x64, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x64, .f32⟩
  | 8 => ⟨S_, .f32⟩
  | 9 => ⟨S50000x64, .f32⟩
  | 10 => ⟨S800000x1, .i32⟩
  | 11 => ⟨S50000x64, .f32⟩
  | 12 => ⟨S50000x64, .f32⟩
  | 13 => ⟨S50000x64, .f32⟩
  | 14 => ⟨S1x64, .f32⟩
  | 15 => ⟨S50000x64, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x64, .f32⟩
  | 25 => ⟨S_, .f32⟩
  | 26 => ⟨S10000x64, .f32⟩
  | 27 => ⟨S800000x1, .i32⟩
  | 28 => ⟨S10000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_v15 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_8 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_9 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_10 : Ref sig .tc := ⟨.hbm, 57, rfl⟩
abbrev main_v32 : Ref sig .tc := ⟨.hbm, 58, rfl⟩
abbrev main_v33 : Ref sig .tc := ⟨.hbm, 59, rfl⟩
abbrev main_c_11 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_12 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_13 : Ref sig .tc := ⟨.hbm, 76, rfl⟩
abbrev main_v48 : Ref sig .tc := ⟨.hbm, 77, rfl⟩
abbrev main_v49 : Ref sig .tc := ⟨.hbm, 78, rfl⟩
abbrev main_c_14 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_15 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_16 : Ref sig .tc := ⟨.hbm, 92, rfl⟩
abbrev main_v61 : Ref sig .tc := ⟨.hbm, 93, rfl⟩
abbrev main_v62 : Ref sig .tc := ⟨.hbm, 94, rfl⟩
abbrev main_c_17 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_18 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_19 : Ref sig .tc := ⟨.hbm, 111, rfl⟩
abbrev main_v77 : Ref sig .tc := ⟨.hbm, 112, rfl⟩
abbrev main_v78 : Ref sig .tc := ⟨.hbm, 113, rfl⟩
abbrev main_c_20 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_21 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_c_22 : Ref sig .tc := ⟨.hbm, 127, rfl⟩
abbrev main_v90 : Ref sig .tc := ⟨.hbm, 128, rfl⟩
abbrev main_v91 : Ref sig .tc := ⟨.hbm, 129, rfl⟩
abbrev main_c_23 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_24 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_25 : Ref sig .tc := ⟨.hbm, 144, rfl⟩
abbrev main_v104 : Ref sig .tc := ⟨.hbm, 145, rfl⟩
abbrev main_v105 : Ref sig .tc := ⟨.hbm, 146, rfl⟩
abbrev main_c_26 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_27 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S10000 : S_.BroadcastsInDim S10000 (![] : Fin 0 → Fin S10000.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S10000_S10000x1_0 : S10000.BroadcastsInDim S10000x1 (![0] : Fin 1 → Fin S10000x1.rank)
  bcast_S_S10000x64 : S_.BroadcastsInDim S10000x64 (![] : Fin 0 → Fin S10000x64.rank)
  bcast_S10000x1_S10000x64_0_1 : S10000x1.BroadcastsInDim S10000x64 (![0, 1] : Fin 2 → Fin S10000x64.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  scatter_S10000_S800000x1_S800000_n_0_0_1_wf : ScatterDims.WF S10000 S800000x1 S800000 [] [0] [0] 1
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S10000x64_S800000x1_S800000x64_1_0_0_1_wf : ScatterDims.WF S10000x64 S800000x1 S800000x64 [1] [0] [0] 1
  gather_S10000x64_S800000x1_S800000x64_1_0_n_n_0_1_164_wf : GatherDims.WF S10000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S10000_S800000x1_S800000_n_0_0_1 : ScatterDims S10000 S800000x1 S800000 where
  updateWindowDims := []
  insertedWindowDims := [0]
  scatterDimsToOperandDims := [0]
  indexVectorDim := 1
  wf := scatter_S10000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S10000x64_S800000x1_S800000x64_1_0_0_1 : ScatterDims S10000x64 S800000x1 S800000x64 where
  updateWindowDims := [1]
  insertedWindowDims := [0]
  scatterDimsToOperandDims := [0]
  indexVectorDim := 1
  wf := scatter_S10000x64_S800000x1_S800000x64_1_0_0_1_wf
def gather_S10000x64_S800000x1_S800000x64_1_0_n_n_0_1_164 : GatherDims S10000x64 S800000x1 S800000x64 where
  offsetDims := [1]
  collapsedSliceDims := [0]
  operandBatchingDims := []
  startIndicesBatchingDims := []
  startIndexMap := [0]
  indexVectorDim := 1
  sliceSizes := ![1, 64]
  wf := gather_S10000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v74) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v101) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v102) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v103) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S10000 : Shape := ⟨1, ![10000]⟩
abbrev S10000x1 : Shape := ⟨2, ![10000, 1]⟩
abbrev S800000x64 : Shape := ⟨2, ![800000, 64]⟩
abbrev S10000x64 : Shape := ⟨2, ![10000, 64]⟩
abbrev S50000x1 : Shape := ⟨2, ![50000, 1]⟩
abbrev S1x64 : Shape := ⟨2, ![1, 64]⟩

abbrev nBuf : Space → Nat
  | .hbm => 236
  | .vmem => 0
  | .smem => 0
  | _ => 0

abbrev hbmTy0_0 (i : Nat) : BufTy := match i % 128 with
  | 0 => ⟨S50000x64, .f32⟩
  | 1 => ⟨S800000, .i32⟩
  | 2 => ⟨S800000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S50000x64, .f32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .i1⟩
  | 19 => ⟨S_, .f32⟩
  | 20 => ⟨S50000, .f32⟩
  | 21 => ⟨S50000, .f32⟩
  | 22 => ⟨S_, .f32⟩
  | 23 => ⟨S_, .f32⟩
  | 24 => ⟨S50000, .f32⟩
  | 25 => ⟨S50000, .f32⟩
  | 26 => ⟨S_, .f32⟩
  | 27 => ⟨S10000, .f32⟩
  | 28 => ⟨S800000x1, .i32⟩
  | 29 => ⟨S10000, .f32⟩
  | 30 => ⟨S_, .f32⟩
  | 31 => ⟨S10000, .f32⟩
  | 32 => ⟨S10000, .i1⟩
  | 33 => ⟨S_, .f32⟩
  | 34 => ⟨S10000, .f32⟩
  | 35 => ⟨S10000, .f32⟩
  | 36 => ⟨S_, .f32⟩
  | 37 => ⟨S_, .f32⟩
  | 38 => ⟨S10000, .f32⟩
  | 39 => ⟨S10000, .f32⟩
  | 40 => ⟨S10000x1, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x64, .f32⟩
  | 50 => ⟨S_, .f32⟩
  | 51 => ⟨S10000x64, .f32⟩
  | 52 => ⟨S800000x1, .i32⟩
  | 53 => ⟨S10000x64, .f32⟩
  | 54 => ⟨S10000x64, .f32⟩
  | 55 => ⟨S10000x64, .f32⟩
  | 56 => ⟨S50000x1, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x64, .f32⟩
  | 66 => ⟨S_, .f32⟩
  | 67 => ⟨S50000x64, .f32⟩
  | 68 => ⟨S800000x1, .i32⟩
  | 69 => ⟨S50000x64, .f32⟩
  | 70 => ⟨S50000x64, .f32⟩
  | 71 => ⟨S50000x64, .f32⟩
  | 72 => ⟨S1x64, .f32⟩
  | 73 => ⟨S50000x64, .f32⟩
  | 74 => ⟨S50000x64, .f32⟩
  | 75 => ⟨S_, .f32⟩
  | 76 => ⟨S_, .f32⟩
  | 77 => ⟨S50000x64, .f32⟩
  | 78 => ⟨S50000x64, .i1⟩
  | 79 => ⟨S_, .f32⟩
  | 80 => ⟨S50000x64, .f32⟩
  | 81 => ⟨S50000x64, .f32⟩
  | 82 => ⟨S50000x64, .f32⟩
  | 83 => ⟨S50000x64, .f32⟩
  | 84 => ⟨S_, .f32⟩
  | 85 => ⟨S800000, .f32⟩
  | 86 => ⟨S_, .f32⟩
  | 87 => ⟨S50000, .f32⟩
  | 88 => ⟨S800000x1, .i32⟩
  | 89 => ⟨S50000, .f32⟩
  | 90 => ⟨S_, .f32⟩
  | 91 => ⟨S50000, .f32⟩
  | 92 => ⟨S50000, .i1⟩
  | 93 => ⟨S_, .f32⟩
  | 94 => ⟨S50000, .f32⟩
  | 95 => ⟨S50000, .f32⟩
  | 96 => ⟨S_, .f32⟩
  | 97 => ⟨S_, .f32⟩
  | 98 => ⟨S50000, .f32⟩
  | 99 => ⟨S50000, .f32⟩
  | 100 => ⟨S_, .f32⟩
  | 101 => ⟨S10000, .f32⟩
  | 102 => ⟨S800000x1, .i32⟩
  | 103 => ⟨S10000, .f32⟩
  | 104 => ⟨S_, .f32⟩
  | 105 => ⟨S10000, .f32⟩
  | 106 => ⟨S10000, .i1⟩
  | 107 => ⟨S_, .f32⟩
  | 108 => ⟨S10000, .f32⟩
  | 109 => ⟨S10000, .f32⟩
  | 110 => ⟨S_, .f32⟩
  | 111 => ⟨S_, .f32⟩
  | 112 => ⟨S10000, .f32⟩
  | 113 => ⟨S10000, .f32⟩
  | 114 => ⟨S10000x1, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x64, .f32⟩
  | 124 => ⟨S_, .f32⟩
  | 125 => ⟨S10000x64, .f32⟩
  | 126 => ⟨S800000x1, .i32⟩
  | 127 => ⟨S10000x64, .f32⟩
  | _ => ⟨S50000x64, .f32⟩

abbrev hbmTy0_1 (i : Nat) : BufTy := match i % 128 with
  | 0 => ⟨S10000x64, .f32⟩
  | 1 => ⟨S10000x64, .f32⟩
  | 2 => ⟨S50000x1, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x64, .f32⟩
  | 12 => ⟨S_, .f32⟩
  | 13 => ⟨S50000x64, .f32⟩
  | 14 => ⟨S800000x1, .i32⟩
  | 15 => ⟨S50000x64, .f32⟩
  | 16 => ⟨S50000x64, .f32⟩
  | 17 => ⟨S50000x64, .f32⟩
  | 18 => ⟨S1x64, .f32⟩
  | 19 => ⟨S50000x64, .f32⟩
  | 20 => ⟨S50000x64, .f32⟩
  | 21 => ⟨S_, .f32⟩
  | 22 => ⟨S_, .f32⟩
  | 23 => ⟨S50000x64, .f32⟩
  | 24 => ⟨S50000x64, .i1⟩
  | 25 => ⟨S_, .f32⟩
  | 26 => ⟨S50000x64, .f32⟩
  | 27 => ⟨S50000x64, .f32⟩
  | 28 => ⟨S50000x64, .f32⟩
  | 29 => ⟨S50000x64, .f32⟩
  | 30 => ⟨S_, .f32⟩
  | 31 => ⟨S800000, .f32⟩
  | 32 => ⟨S_, .f32⟩
  | 33 => ⟨S50000, .f32⟩
  | 34 => ⟨S800000x1, .i32⟩
  | 35 => ⟨S50000, .f32⟩
  | 36 => ⟨S_, .f32⟩
  | 37 => ⟨S50000, .f32⟩
  | 38 => ⟨S50000, .i1⟩
  | 39 => ⟨S_, .f32⟩
  | 40 => ⟨S50000, .f32⟩
  | 41 => ⟨S50000, .f32⟩
  | 42 => ⟨S_, .f32⟩
  | 43 => ⟨S_, .f32⟩
  | 44 => ⟨S50000, .f32⟩
  | 45 => ⟨S50000, .f32⟩
  | 46 => ⟨S_, .f32⟩
  | 47 => ⟨S10000, .f32⟩
  | 48 => ⟨S800000x1, .i32⟩
  | 49 => ⟨S10000, .f32⟩
  | 50 => ⟨S_, .f32⟩
  | 51 => ⟨S10000, .f32⟩
  | 52 => ⟨S10000, .i1⟩
  | 53 => ⟨S_, .f32⟩
  | 54 => ⟨S10000, .f32⟩
  | 55 => ⟨S10000, .f32⟩
  | 56 => ⟨S_, .f32⟩
  | 57 => ⟨S_, .f32⟩
  | 58 => ⟨S10000, .f32⟩
  | 59 => ⟨S10000, .f32⟩
  | 60 => ⟨S10000x1, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x64, .f32⟩
  | 70 => ⟨S_, .f32⟩
  | 71 => ⟨S10000x64, .f32⟩
  | 72 => ⟨S800000x1, .i32⟩
  | 73 => ⟨S10000x64, .f32⟩
  | 74 => ⟨S10000x64, .f32⟩
  | 75 => ⟨S10000x64, .f32⟩
  | 76 => ⟨S50000x1, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x64, .f32⟩
  | 86 => ⟨S_, .f32⟩
  | 87 => ⟨S50000x64, .f32⟩
  | 88 => ⟨S800000x1, .i32⟩
  | 89 => ⟨S50000x64, .f32⟩
  | 90 => ⟨S50000x64, .f32⟩
  | 91 => ⟨S50000x64, .f32⟩
  | 92 => ⟨S1x64, .f32⟩
  | 93 => ⟨S50000x64, .f32⟩
  | 94 => ⟨S50000x64, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x64, .f32⟩
  | 104 => ⟨S_, .f32⟩
  | 105 => ⟨S10000x64, .f32⟩
  | 106 => ⟨S800000x1, .i32⟩
  | 107 => ⟨S10000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_cst_6 : Ref sig .tc := ⟨.hbm, 33, rfl⟩
abbrev main_v15 : Ref sig .tc := ⟨.hbm, 34, rfl⟩
abbrev main_v16 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v17 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_8 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_9 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_10 : Ref sig .tc := ⟨.hbm, 57, rfl⟩
abbrev main_v32 : Ref sig .tc := ⟨.hbm, 58, rfl⟩
abbrev main_v33 : Ref sig .tc := ⟨.hbm, 59, rfl⟩
abbrev main_c_11 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_12 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_call2_cst : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_v47 : Ref sig .tc := ⟨.hbm, 82, rfl⟩
abbrev main_v48 : Ref sig .tc := ⟨.hbm, 83, rfl⟩
abbrev main_cst_14 : Ref sig .tc := ⟨.hbm, 84, rfl⟩
abbrev main_v49 : Ref sig .tc := ⟨.hbm, 85, rfl⟩
abbrev main_cst_15 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_16 : Ref sig .tc := ⟨.hbm, 90, rfl⟩
abbrev main_v53 : Ref sig .tc := ⟨.hbm, 91, rfl⟩
abbrev main_v54 : Ref sig .tc := ⟨.hbm, 92, rfl⟩
abbrev main_cst_17 : Ref sig .tc := ⟨.hbm, 93, rfl⟩
abbrev main_v55 : Ref sig .tc := ⟨.hbm, 94, rfl⟩
abbrev main_v56 : Ref sig .tc := ⟨.hbm, 95, rfl⟩
abbrev main_cst_18 : Ref sig .tc := ⟨.hbm, 96, rfl⟩
abbrev main_call3_v0 : Ref sig .tc := ⟨.hbm, 97, rfl⟩
abbrev main_call3_v1 : Ref sig .tc := ⟨.hbm, 98, rfl⟩
abbrev main_v57 : Ref sig .tc := ⟨.hbm, 99, rfl⟩
abbrev main_cst_19 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_20 : Ref sig .tc := ⟨.hbm, 104, rfl⟩
abbrev main_v61 : Ref sig .tc := ⟨.hbm, 105, rfl⟩
abbrev main_v62 : Ref sig .tc := ⟨.hbm, 106, rfl⟩
abbrev main_cst_21 : Ref sig .tc := ⟨.hbm, 107, rfl⟩
abbrev main_v63 : Ref sig .tc := ⟨.hbm, 108, rfl⟩
abbrev main_v64 : Ref sig .tc := ⟨.hbm, 109, rfl⟩
abbrev main_cst_22 : Ref sig .tc := ⟨.hbm, 110, rfl⟩
abbrev main_call4_v0 : Ref sig .tc := ⟨.hbm, 111, rfl⟩
abbrev main_call4_v1 : Ref sig .tc := ⟨.hbm, 112, rfl⟩
abbrev main_v65 : Ref sig .tc := ⟨.hbm, 113, rfl⟩
abbrev main_v66 : Ref sig .tc := ⟨.hbm, 114, rfl⟩
abbrev main_c_23 : Ref sig .tc := ⟨.hbm, 115, rfl⟩
abbrev main_v67 : Ref sig .tc := ⟨.hbm, 116, rfl⟩
abbrev main_v68 : Ref sig .tc := ⟨.hbm, 117, rfl⟩
abbrev main_c_24 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_25 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_c_26 : Ref sig .tc := ⟨.hbm, 131, rfl⟩
abbrev main_v80 : Ref sig .tc := ⟨.hbm, 132, rfl⟩
abbrev main_v81 : Ref sig .tc := ⟨.hbm, 133, rfl⟩
abbrev main_c_27 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_28 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_cst_29 : Ref sig .tc := ⟨.hbm, 149, rfl⟩
abbrev main_call5_cst : Ref sig .tc := ⟨.hbm, 150, rfl⟩
abbrev main_call5_v0 : Ref sig .tc := ⟨.hbm, 151, rfl⟩
abbrev main_call5_v1 : Ref sig .tc := ⟨.hbm, 152, rfl⟩
abbrev main_call5_v2 : Ref sig .tc := ⟨.hbm, 153, rfl⟩
abbrev main_call5_v3 : Ref sig .tc := ⟨.hbm, 154, rfl⟩
abbrev main_call5_v4 : Ref sig .tc := ⟨.hbm, 155, rfl⟩
abbrev main_v95 : Ref sig .tc := ⟨.hbm, 156, rfl⟩
abbrev main_v96 : Ref sig .tc := ⟨.hbm, 157, rfl⟩
abbrev main_cst_30 : Ref sig .tc := ⟨.hbm, 158, rfl⟩
abbrev main_v97 : Ref sig .tc := ⟨.hbm, 159, rfl⟩
abbrev main_cst_31 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_cst_32 : Ref sig .tc := ⟨.hbm, 164, rfl⟩
abbrev main_v101 : Ref sig .tc := ⟨.hbm, 165, rfl⟩
abbrev main_v102 : Ref sig .tc := ⟨.hbm, 166, rfl⟩
abbrev main_cst_33 : Ref sig .tc := ⟨.hbm, 167, rfl⟩
abbrev main_v103 : Ref sig .tc := ⟨.hbm, 168, rfl⟩
abbrev main_v104 : Ref sig .tc := ⟨.hbm, 169, rfl⟩
abbrev main_cst_34 : Ref sig .tc := ⟨.hbm, 170, rfl⟩
abbrev main_call6_v0 : Ref sig .tc := ⟨.hbm, 171, rfl⟩
abbrev main_call6_v1 : Ref sig .tc := ⟨.hbm, 172, rfl⟩
abbrev main_v105 : Ref sig .tc := ⟨.hbm, 173, rfl⟩
abbrev main_cst_35 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_cst_36 : Ref sig .tc := ⟨.hbm, 178, rfl⟩
abbrev main_v109 : Ref sig .tc := ⟨.hbm, 179, rfl⟩
abbrev main_v110 : Ref sig .tc := ⟨.hbm, 180, rfl⟩
abbrev main_cst_37 : Ref sig .tc := ⟨.hbm, 181, rfl⟩
abbrev main_v111 : Ref sig .tc := ⟨.hbm, 182, rfl⟩
abbrev main_v112 : Ref sig .tc := ⟨.hbm, 183, rfl⟩
abbrev main_cst_38 : Ref sig .tc := ⟨.hbm, 184, rfl⟩
abbrev main_call7_v0 : Ref sig .tc := ⟨.hbm, 185, rfl⟩
abbrev main_call7_v1 : Ref sig .tc := ⟨.hbm, 186, rfl⟩
abbrev main_v113 : Ref sig .tc := ⟨.hbm, 187, rfl⟩
abbrev main_v114 : Ref sig .tc := ⟨.hbm, 188, rfl⟩
abbrev main_c_39 : Ref sig .tc := ⟨.hbm, 189, rfl⟩
abbrev main_v115 : Ref sig .tc := ⟨.hbm, 190, rfl⟩
abbrev main_v116 : Ref sig .tc := ⟨.hbm, 191, rfl⟩
abbrev main_c_40 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_cst_41 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_c_42 : Ref sig .tc := ⟨.hbm, 205, rfl⟩
abbrev main_v128 : Ref sig .tc := ⟨.hbm, 206, rfl⟩
abbrev main_v129 : Ref sig .tc := ⟨.hbm, 207, rfl⟩
abbrev main_c_43 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_cst_44 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_c_45 : Ref sig .tc := ⟨.hbm, 223, rfl⟩
abbrev main_v143 : Ref sig .tc := ⟨.hbm, 224, rfl⟩
abbrev main_v144 : Ref sig .tc := ⟨.hbm, 225, rfl⟩
abbrev main_c_46 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_cst_47 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S10000x64 : S_.BroadcastsInDim S10000x64 (![] : Fin 0 → Fin S10000x64.rank)
  bcast_S10000x1_S10000x64_0_1 : S10000x1.BroadcastsInDim S10000x64 (![0, 1] : Fin 2 → Fin S10000x64.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x64_S64x64_S50000x64_1_0_0_1_n_n_wf : DotDims.WF S50000x64 S64x64 S50000x64 [1] [0] [0] [1] [] []
  scatter_S50000_S800000x1_S800000_n_0_0_1_wf : ScatterDims.WF S50000 S800000x1 S800000 [] [0] [0] 1
  scatter_S10000_S800000x1_S800000_n_0_0_1_wf : ScatterDims.WF S10000 S800000x1 S800000 [] [0] [0] 1
  gather_S50000x64_S800000x1_S800000x64_1_0_n_n_0_1_164_wf : GatherDims.WF S50000x64 S800000x1 S800000x64 [1] [0] [] [0] [] 1 ![1, 64]
  scatter_S10000x64_S800000x1_S800000x64_1_0_0_1_wf : ScatterDims.WF S10000x64 S800000x1 S800000x64 [1] [0] [0] 1
  gather_S10000x64_S800000x1_S800000x64_1_0_n_n_0_1_164_wf : GatherDims.WF S10000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S10000_S800000x1_S800000_n_0_0_1 : ScatterDims S10000 S800000x1 S800000 where
  updateWindowDims := []
  insertedWindowDims := [0]
  scatterDimsToOperandDims := [0]
  indexVectorDim := 1
  wf := scatter_S10000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S10000x64_S800000x1_S800000x64_1_0_0_1 : ScatterDims S10000x64 S800000x1 S800000x64 where
  updateWindowDims := [1]
  insertedWindowDims := [0]
  scatterDimsToOperandDims := [0]
  indexVectorDim := 1
  wf := scatter_S10000x64_S800000x1_S800000x64_1_0_0_1_wf
def gather_S10000x64_S800000x1_S800000x64_1_0_n_n_0_1_164 : GatherDims S10000x64 S800000x1 S800000x64 where
  offsetDims := [1]
  collapsedSliceDims := [0]
  operandBatchingDims := []
  startIndicesBatchingDims := []
  startIndexMap := [0]
  indexVectorDim := 1
  sliceSizes := ![1, 64]
  wf := gather_S10000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  The function both programs compute, on the extended reals.

  A hypergraph with 50000 nodes, 10000 hyperedges and 800000 incidence pairs (node a1[p], hyperedge a2[p]).
  `dinv` and `binv` are the reciprocals of the node and hyperedge degrees (0 where the degree is not positive).
  `pool` sums node rows into hyperedges along the pairs; `spread` sums hyperedge rows back into nodes; one
  convolution is  h ↦ D⁻¹ · spread (B⁻¹ · pool (h · W)) + b,  followed by the leaky rectifier y ↦ y if y ≥ 0 else
  0.01·y on the first two layers; the result is `pool` of the third layer's output. Every gather, scatter-add and
  product is kept as the one host operation it is: nothing below ever looks inside one.
-/
import proofs.«108937_j41644002902694_1_alg».proof.ReferenceIdeal
import proofs.«108937_j41644002902694_1_alg».proof.Proof.Gen.ReferenceIdeal
import Idealize.ShloMosaic.PureOps.Ideal

noncomputable section

namespace Cert.HyperConv

open Idealize.ShloMosaic Cert.ReferenceIdeal Cert.ReferenceIdeal.Facts₀

/-- A float array of shape `s` on the extended reals. -/
abbrev CF (s : Shape) := FVec Ideal s .f32
/-- A 32-bit integer array of shape `s`. -/
abbrev CI (s : Shape) := IVec s 32

/-- The all-ones vector over the incidence pairs. -/
def ones : CF S800000 := broadcastInDim S800000 ![] bcast_S_S800000 (constant (F := Ideal) S_ .f32 0x3F800000#32)

/-- An index vector as a column of start words. -/
def col (a : CI S800000) : CI S800000x1 := broadcastInDim S800000x1 ![0] bcast_S800000_S800000x1_0 a

/-- Node indices with negative ones wrapped by 50000, as a column. -/
def wrapN (a1 : CI S800000) : CI S800000x1 :=
  col (select (cmpi .slt a1 (broadcastInDim S800000 ![] bcast_S_S800000 (constantI S_ 32 0#32)))
    (addi a1 (broadcastInDim S800000 ![] bcast_S_S800000 (constantI S_ 32 50000#32))) a1)

/-- Hyperedge indices with negative ones wrapped by 10000, as a column. -/
def wrapE (a2 : CI S800000) : CI S800000x1 :=
  col (select (cmpi .slt a2 (broadcastInDim S800000 ![] bcast_S_S800000 (constantI S_ 32 0#32)))
    (addi a2 (broadcastInDim S800000 ![] bcast_S_S800000 (constantI S_ 32 10000#32))) a2)

/-- The node degrees: the number of pairs at each node. -/
def deg (a1 : CI S800000) : CF S50000 :=
  Host.scatterAdd scatter_S50000_S800000x1_S800000_n_0_0_1
    (broadcastInDim S50000 ![] bcast_S_S50000 (constant (F := Ideal) S_ .f32 0x00000000#32)) (col a1) ones

/-- The reciprocal node degree, 0 where the degree is not positive. -/
def dinv (a1 : CI S800000) : CF S50000 :=
  select (cmpf .ogt (deg a1) (broadcastInDim S50000 ![] bcast_S_S50000 (constant (F := Ideal) S_ .f32 0x00000000#32)))
    (Host.divf (broadcastInDim S50000 ![] bcast_S_S50000 (constant (F := Ideal) S_ .f32 0x3F800000#32)) (deg a1))
    (broadcastInDim S50000 ![] bcast_S_S50000 (id (constant (F := Ideal) S_ .f32 0x00000000#32)))

/-- The hyperedge degrees. -/
def bdeg (a2 : CI S800000) : CF S10000 :=
  Host.scatterAdd scatter_S10000_S800000x1_S800000_n_0_0_1
    (broadcastInDim S10000 ![] bcast_S_S10000 (constant (F := Ideal) S_ .f32 0x00000000#32)) (col a2) ones

/-- The reciprocal hyperedge degree, 0 where the degree is not positive. -/
def binv (a2 : CI S800000) : CF S10000 :=
  select (cmpf .ogt (bdeg a2) (broadcastInDim S10000 ![] bcast_S_S10000 (constant (F := Ideal) S_ .f32 0x00000000#32)))
    (Host.divf (broadcastInDim S10000 ![] bcast_S_S10000 (constant (F := Ideal) S_ .f32 0x3F800000#32)) (bdeg a2))
    (broadcastInDim S10000 ![] bcast_S_S10000 (id (constant (F := Ideal) S_ .f32 0x00000000#32)))

/-- Node rows summed into hyperedges along the pairs. -/
def pool (a1 a2 : CI S800000) (h : CF S50000x64) : CF S10000x64 :=
  Host.scatterAdd scatter_S10000x64_S800000x1_S800000x64_1_0_0_1
    (broadcastInDim S10000x64 ![] bcast_S_S10000x64 (constant (F := Ideal) S_ .f32 0x00000000#32)) (col a2)
    (Host.gather gather_S50000x64_S800000x1_S800000x64_1_0_n_n_0_1_164 h (wrapN a1))

/-- Hyperedge rows summed back into nodes along the pairs. -/
def spread (a1 a2 : CI S800000) (e : CF S10000x64) : CF S50000x64 :=
  Host.scatterAdd scatter_S50000x64_S800000x1_S800000x64_1_0_0_1
    (broadcastInDim S50000x64 ![] bcast_S_S50000x64 (constant (F := Ideal) S_ .f32 0x00000000#32)) (col a1)
    (Host.gather gather_S10000x64_S800000x1_S800000x64_1_0_n_n_0_1_164 e (wrapE a2))

/-- A per-hyperedge scale as a matrix constant along the rows. -/
def scaleE (v : CF S10000) : CF S10000x64 :=
  broadcastInDim S10000x64 ![0, 1] bcast_S10000x1_S10000x64_0_1 (broadcastInDim S10000x1 ![0] bcast_S10000_S10000x1_0 v)

/-- A per-node scale as a matrix constant along the rows. -/
def scaleN (v : CF S50000) : CF S50000x64 :=
  broadcastInDim S50000x64 ![0, 1] bcast_S50000x1_S50000x64_0_1 (broadcastInDim S50000x1 ![0] bcast_S50000_S50000x1_0 v)

/-- The two-step aggregation D⁻¹ · spread (B⁻¹ · pool xw) with the scales given. -/
def aggregate (dv : CF S50000) (bv : CF S10000) (a1 a2 : CI S800000) (xw : CF S50000x64) : CF S50000x64 :=
  mulf (scaleN dv) (spread a1 a2 (mulf (scaleE bv) (pool a1 a2 xw)))

/-- The dense product h · W. -/
def proj (h : CF S50000x64) (W : CF S64x64) : CF S50000x64 :=
  Host.dotGeneral dot_S50000x64_S64x64_S50000x64_1_0_0_1_n_n none h W

/-- One row [1, 64] added to every row. -/
def addRow (y : CF S50000x64) (row : CF S1x64) : CF S50000x64 :=
  addf y (broadcastInDim S50000x64 ![0, 1] bcast_S1x64_S50000x64_0_1 row)

/-- A bias vector as one row. -/
def asRow (b : CF S64) : CF S1x64 := broadcastInDim S1x64 ![1] bcast_S64_S1x64_1 b

/-- The leaky rectifier with slope the f32 nearest 0.01, entry by entry. -/
def leaky (y : CF S50000x64) : CF S50000x64 :=
  select (cmpf .oge y (broadcastInDim S50000x64 ![] bcast_S_S50000x64 (constant (F := Ideal) S_ .f32 0x00000000#32))) y
    (mulf (broadcastInDim S50000x64 ![] bcast_S_S50000x64 (id (constant (F := Ideal) S_ .f32 0x3C23D70A#32))) y)

/-- One convolution before its rectifier. -/
def conv (dv : CF S50000) (bv : CF S10000) (a1 a2 : CI S800000) (W : CF S64x64) (row : CF S1x64) (h : CF S50000x64) :
    CF S50000x64 :=
  addRow (aggregate dv bv a1 a2 (proj h W)) row

/-- The whole function: three convolutions, the first two rectified, then the pooling. -/
def out (x : CF S50000x64) (a1 a2 : CI S800000) (W0 : CF S64x64) (b0 : CF S64) (W1 : CF S64x64) (b1 : CF S64)
    (W2 : CF S64x64) (b2 : CF S64) : CF S10000x64 :=
  pool a1 a2 (conv (dinv a1) (binv a2) a1 a2 W2 (asRow b2)
    (leaky (conv (dinv a1) (binv a2) a1 a2 W1 (asRow b1)
      (leaky (conv (dinv a1) (binv a2) a1 a2 W0 (asRow b0) x)))))

end Cert.HyperConv

end
-- ==== Proof.KernelRun.lean ====
/-
  The kernel program's run with its result named.

  @main is fourteen segments: host stretches and six kernel regions. The contents of every buffer at each segment
  boundary are a fold from the launch memory (a stretch applies its host operations; a region leaves its arrays at
  what its write-backs produce and every other buffer as it was). Every weakly fair execution terminates with every
  unscoped buffer at the last boundary's contents; read at the result buffer this names the result, and read at the
  nine arguments it gives them back unchanged.
-/
import proofs.«108937_j41644002902694_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last segment
    boundary's contents and the nine argument arrays as launched. -/
theorem run : θ_run defs (onTc (τ := τ) (main (F := F))) ⟨m, fun _ => 0, ρ⟩ (fun r => ∀ c : Dev nD,
      r.2.mem ((c.tc : Thread nD τ).loc main_v113) = W14 m ρ c (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v113 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.KernelIdeal.RunValue

end
-- ==== Proof.KernelHost.lean ====
/-
  The kernel program's host stretches, read as the specification's functions.

  Between the kernel regions the program runs the same host operations as the reference: the degree reciprocals
  before the first region, after each product region one two-step aggregation (gather the node rows, sum them into
  hyperedges, scale, gather the hyperedge rows, sum them into nodes, scale) and the bias vector recast as one row, and
  at the end the pooling. Each stretch is read here at an arbitrary valuation of the buffers it starts from: the
  buffer it computes ends at the specification's function of the buffers it reads. The two programs carry their own
  copies of the gather / scatter dimension records, which differ only in the proofs they hold.
-/
import proofs.«108937_j41644002902694_1_alg».proof.Proof.Spec
import proofs.«108937_j41644002902694_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostValue

open Idealize.ShloMosaic Idealize.ShloMosaic.TcCoe Idealize.ShloMosaic.StableHlo Idealize.ShloMosaic.ValueIdx
open Cert.KernelIdeal Cert.KernelIdeal.Gen Cert.HyperConv

variable (W : Valuation τ sig (Elt Ideal))

/-! ## Before the first region: the degree reciprocals -/

/-- The first stretch leaves the comparison "node degree > 0" in its buffer. -/
theorem nodes_pos : after hostOps0 W (Proc.devRef .tc main_v5)
    = cmpf .ogt (deg (W (Proc.devRef .tc main_arg1))) (broadcastInDim S50000 ![] Cert.ReferenceIdeal.Facts₀.bcast_S_S50000 (constant (F := Ideal) S_ .f32 0x00000000#32)) := by
  after_results
  rfl

/-- The first stretch leaves the quotient 1 / node degree in its buffer. -/
theorem nodes_quot : after hostOps0 W (Proc.devRef .tc main_v7)
    = Host.divf (broadcastInDim S50000 ![] Cert.ReferenceIdeal.Facts₀.bcast_S_S50000 (constant (F := Ideal) S_ .f32 0x3F800000#32)) (deg (W (Proc.devRef .tc main_arg1))) := by
  after_results
  rfl

/-- The first stretch leaves the zero word in the constant's buffer. -/
theorem nodes_zero : after hostOps0 W (Proc.devRef .tc main_cst_3) = constant (F := Ideal) S_ .f32 0x00000000#32 := by
  after_results

/-- The first stretch leaves the all-ones vector over the pairs in its buffer. -/
theorem ones_buf : after hostOps0 W (Proc.devRef .tc main_v0) = ones := by
  after_results
  rfl

/-- The selection called after the first stretch: its result is the selection of its three operands. -/
theorem nodes_where : after hostOps0_1 W (Proc.devRef .tc main_v8)
    = select (W (Proc.devRef .tc main_v5)) (W (Proc.devRef .tc main_v7)) (broadcastInDim S50000 ![] Cert.ReferenceIdeal.Facts₀.bcast_S_S50000 (id (W (Proc.devRef .tc main_cst_3)))) := by
  after_results
  rfl

/-- The third stretch leaves the comparison "hyperedge degree > 0" in its buffer. -/
theorem edges_pos : after hostOps0_2 W (Proc.devRef .tc main_v13)
    = cmpf .ogt (Host.scatterAdd Cert.ReferenceIdeal.scatter_S10000_S800000x1_S800000_n_0_0_1 (broadcastInDim S10000 ![] Cert.ReferenceIdeal.Facts₀.bcast_S_S10000 (constant (F := Ideal) S_ .f32 0x00000000#32)) (col (W (Proc.devRef .tc main_arg2))) (W (Proc.devRef .tc main_v0))) (broadcastInDim S10000 ![] Cert.ReferenceIdeal.Facts₀.bcast_S_S10000 (constant (F := Ideal) S_ .f32 0x00000000#32)) := by
  after_results
  rfl

/-- The third stretch leaves the quotient 1 / hyperedge degree in its buffer. -/
theorem edges_quot : after hostOps0_2 W (Proc.devRef .tc main_v15)
    = Host.divf (broadcastInDim S10000 ![] Cert.ReferenceIdeal.Facts₀.bcast_S_S10000 (constant (F := Ideal) S_ .f32 0x3F800000#32)) (Host.scatterAdd Cert.ReferenceIdeal.scatter_S10000_S800000x1_S800000_n_0_0_1 (broadcastInDim S10000 ![] Cert.ReferenceIdeal.Facts₀.bcast_S_S10000 (constant (F := Ideal) S_ .f32 0x00000000#32)) (col (W (Proc.devRef .tc main_arg2))) (W (Proc.devRef .tc main_v0))) := by
  after_results
  rfl

/-- The third stretch leaves the zero word in the constant's buffer. -/
theorem edges_zero : after hostOps0_2 W (Proc.devRef .tc main_cst_7) = constant (F := Ideal) S_ .f32 0x00000000#32 := by
  after_results

/-- The selection called after the third stretch. -/
theorem edges_where : after hostOps0_3 W (Proc.devRef .tc main_v16)
    = select (W (Proc.devRef .tc main_v13)) (W (Proc.devRef .tc main_v15)) (broadcastInDim S10000 ![] Cert.ReferenceIdeal.Facts₀.bcast_S_S10000 (id (W (Proc.devRef .tc main_cst_7)))) := by
  after_results
  rfl

/-- A buffer none of a stretch's operations writes keeps its contents (the side condition is discharged operation by
    operation). -/
macro "not_written" : tactic =>
  `(tactic| (refine List.forall_iff_forall_mem.mp ?_
             simp only [hostOps0, hostOps0_1, hostOps0_2, hostOps0_3, hostOps1, hostOps3, hostOps5, hostOps6, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-- The four stretches before the first region leave the reciprocal node degrees in their buffer. -/
theorem prelude_dinv :
    after hostOps0_3 (after hostOps0_2 (after hostOps0_1 (after hostOps0 W))) (Proc.devRef .tc main_v8)
      = dinv (W (Proc.devRef .tc main_arg1)) := by
  rw [after_of_forall_not_mem (b := Proc.devRef .tc main_v8) hostOps0_3 _ (by not_written),
    after_of_forall_not_mem (b := Proc.devRef .tc main_v8) hostOps0_2 _ (by not_written),
    nodes_where, nodes_pos, nodes_quot, nodes_zero]
  rfl

/-- The four stretches before the first region leave the reciprocal hyperedge degrees in their buffer. -/
theorem prelude_binv :
    after hostOps0_3 (after hostOps0_2 (after hostOps0_1 (after hostOps0 W))) (Proc.devRef .tc main_v16)
      = binv (W (Proc.devRef .tc main_arg2)) := by
  rw [edges_where, edges_pos, edges_quot, edges_zero,
    after_of_forall_not_mem (b := Proc.devRef .tc main_arg2) hostOps0_1 _ (by not_written),
    after_of_forall_not_mem (b := Proc.devRef .tc main_arg2) hostOps0 _ (by not_written),
    after_of_forall_not_mem (b := Proc.devRef .tc main_v0) hostOps0_1 _ (by not_written), ones_buf]
  rfl

/-- A buffer none of the four stretches before the first region writes is still at its launch contents there. -/
theorem prelude_keeps {b : Ref sig .tc}
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes)
    (h3 : ∀ op ∈ (hostOps0_3 : List (HloOp τ sig (Elt Ideal))), Proc.devRef .tc b ∉ op.writes) :
    after hostOps0_3 (after hostOps0_2 (after hostOps0_1 (after hostOps0 W))) (Proc.devRef .tc b) = W (Proc.devRef .tc b) := by
  rw [after_of_forall_not_mem hostOps0_3 _ h3, after_of_forall_not_mem hostOps0_2 _ h2,
    after_of_forall_not_mem hostOps0_1 _ h1, after_of_forall_not_mem hostOps0 _ h0]

/-! ## After each product region: the aggregation and the bias row -/

/-- A vector [64] recast as the one row of a [1, 64] matrix is the vector broadcast along a new leading axis: both
    read the vector's entry e at (0, e). -/
theorem row_of_vec (b : CF S64) (h : (S64 : Shape).ShapeCasts S1x64) : shapeCast S1x64 b h = asRow b := by
  funext i
  obtain ⟨u, e, rfl⟩ : ∃ (u : Fin 1) (e : Fin 64), i = ix2 u e := ⟨i 0, i 1, eq_ix2 i⟩
  rw [shapeCast_a_1a_apply b h u e]
  symm
  exact broadcastInDim_apply ![1] Cert.ReferenceIdeal.Facts₀.bcast_S64_S1x64_1 b (ix2 u e) (ix1 e) (fun a => by
    match a with
    | ⟨0, _⟩ =>
      show e.val = if (64 : ℕ) = 1 then 0 else e.val
      rw [if_neg (by decide)])

/-- The stretch after product region 1: the two-step aggregation of the region's output, with the scales and
    index vectors as the stretch finds them. -/
theorem aggregate_1 : after hostOps1 W (Proc.devRef .tc main_v43)
    = aggregate (W (Proc.devRef .tc main_v8)) (W (Proc.devRef .tc main_v16)) (W (Proc.devRef .tc main_arg1)) (W (Proc.devRef .tc main_arg2)) (W (Proc.devRef .tc main_v17)) := by
  after_results_simp
  rfl

/-- The same stretch recasts the layer's bias vector as one row. -/
theorem row_1 : after hostOps1 W (Proc.devRef .tc main_v44) = asRow (W (Proc.devRef .tc main_arg4)) := by
  after_results
  exact row_of_vec _ _

/-- The stretch after product region 2: the two-step aggregation of the region's output, with the scales and
    index vectors as the stretch finds them. -/
theorem aggregate_2 : after hostOps3 W (Proc.devRef .tc main_v72)
    = aggregate (W (Proc.devRef .tc main_v8)) (W (Proc.devRef .tc main_v16)) (W (Proc.devRef .tc main_arg1)) (W (Proc.devRef .tc main_arg2)) (W (Proc.devRef .tc main_v46)) := by
  after_results_simp
  rfl

/-- The same stretch recasts the layer's bias vector as one row. -/
theorem row_2 : after hostOps3 W (Proc.devRef .tc main_v73) = asRow (W (Proc.devRef .tc main_arg6)) := by
  after_results
  exact row_of_vec _ _

/-- The stretch after product region 3: the two-step aggregation of the region's output, with the scales and
    index vectors as the stretch finds them. -/
theorem aggregate_3 : after hostOps5 W (Proc.devRef .tc main_v101)
    = aggregate (W (Proc.devRef .tc main_v8)) (W (Proc.devRef .tc main_v16)) (W (Proc.devRef .tc main_arg1)) (W (Proc.devRef .tc main_arg2)) (W (Proc.devRef .tc main_v75)) := by
  after_results_simp
  rfl

/-- The same stretch recasts the layer's bias vector as one row. -/
theorem row_3 : after hostOps5 W (Proc.devRef .tc main_v102) = asRow (W (Proc.devRef .tc main_arg8)) := by
  after_results
  exact row_of_vec _ _

/-! ## After the last region: the pooling -/

/-- The last stretch pools the third layer's output into the result buffer. -/
theorem pooled : after hostOps6 W (Proc.devRef .tc main_v113)
    = pool (W (Proc.devRef .tc main_arg1)) (W (Proc.devRef .tc main_arg2)) (W (Proc.devRef .tc main_v103)) := by
  after_results
  rfl

end Cert.KernelIdeal.HostValue

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibDenseRows.lean ====
/-
  A dense layer x ↦ x·W + b and a ReLU, read row by row on the extended reals, for any extents.

  A matrix [M, N] is taken apart into its rows (`rows v r : Fin N → EReal`). On rows,
  `matvec W x` is the row vector x·W (entry e is ∑ k, x k · W k e), `dense W b x` adds the bias b to it, and
  `relu x` is the entrywise maximum with 0. The lemmas below read the vector operations a kernel body spells such a layer
  with, row by row: a plain [M, K] × [K, N] matrix product into the zero accumulator is `matvec` of each row of the
  left operand; adding a [1, N] row broadcast over the M rows adds that one row to every row; the maximum with the splat
  of the zero word is `relu` of every row; a change of float format is the identity. No finiteness is used anywhere:
  every statement is an equation between the same sums and maxima of extended reals, term by term.
-/
import Idealize.ShloMosaic.Lib.ValueIdx
import Idealize.ShloMosaic.Lib.ValueLayout
import Idealize.ShloMosaic.PureOps.Ideal.Laws
import proofs.«108937_j41644002902694_1_alg».proof.Proof.LibPlainMatmul

noncomputable section

namespace Cert.LibDenseRows

open Idealize.ShloMosaic Idealize.ShloMosaic.ValueIdx

/-! ## Rows, and the layer on a row -/

/-- Row `r` of an [M, N] matrix, as a function of the column. -/
def rows {M N : ℕ} (v : (⟨2, ![M, N]⟩ : Shape).Idx → EReal) (r : Fin M) : Fin N → EReal := fun e => v (ix2 r e)

theorem rows_apply {M N : ℕ} (v : (⟨2, ![M, N]⟩ : Shape).Idx → EReal) (r : Fin M) (e : Fin N) :
    rows v r e = v (ix2 r e) := rfl

/-- A rank-1 array [N] as a function of its one coordinate. -/
def vec {N : ℕ} (b : (⟨1, ![N]⟩ : Shape).Idx → EReal) : Fin N → EReal := fun e => b (ix1 e)

/-- The row vector x·W: entry `e` is ∑ k, x k · W k e. -/
def matvec {K N : ℕ} (W : Fin K → Fin N → EReal) (x : Fin K → EReal) : Fin N → EReal := fun e => ∑ k : Fin K, x k * W k e

/-- A dense layer on a row: x·W + b. -/
def dense {K N : ℕ} (W : Fin K → Fin N → EReal) (b : Fin N → EReal) (x : Fin K → EReal) : Fin N → EReal :=
  fun e => matvec W x e + b e

/-- ReLU on a row: the entrywise maximum with 0. -/
def relu {N : ℕ} (x : Fin N → EReal) : Fin N → EReal := fun e => max (x e) 0

/-! ## A kernel body's vector operations, row by row -/

/-- A plain [M, K] × [K, N] product into the zero accumulator: row `r` of the product is row `r` of the left operand
    times the right operand. -/
theorem rows_matmul_zero {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (matmul d prec x w (constant (F := Ideal) ⟨2, ![M, N]⟩ .f32 0x00000000#32)) r = matvec (rows w) (rows x r) :=
  funext fun e => matmul_plain_zero_apply d hd prec x w r e

/-- Adding a [1, N] row broadcast over the M rows adds that row to every row. -/
theorem rows_add_broadcast_row {M N : ℕ} {φ : FTy} (u : FVec Ideal ⟨2, ![M, N]⟩ φ) (b : FVec Ideal ⟨2, ![1, N]⟩ φ)
    (h : (⟨2, ![1, N]⟩ : Shape).Broadcasts ⟨2, ![M, N]⟩) (r : Fin M) :
    rows (addf u (broadcastTo ⟨2, ![M, N]⟩ b h)) r = fun e => rows u r e + rows b 0 e :=
  funext fun e => by
    show u (ix2 r e) + broadcastTo ⟨2, ![M, N]⟩ b h (ix2 r e) = u (ix2 r e) + b (ix2 (0 : Fin 1) e)
    rw [broadcastTo_1b_ab_apply]

/-- The maximum with the splat of the zero word is ReLU of every row. -/
theorem rows_max_zero {M N : ℕ} (v : FVec Ideal ⟨2, ![M, N]⟩ .f32) (r : Fin M) :
    rows (maximumf v (broadcast ⟨2, ![M, N]⟩ (Scalar.ofBits (F := Ideal) .f32 0x00000000#32))) r = relu (rows v r) :=
  funext fun e => by
    show max (v (ix2 r e)) (Ideal.ofBits .f32 0x00000000#32) = max (v (ix2 r e)) 0
    rw [Ideal.ofBits_zero_f32]

/-- A narrowing of the float format is the identity on the extended reals. -/
theorem truncf_eq {s : Shape} {φ ψ : FTy} (a : FVec Ideal s φ) (h : ψ.bits < φ.bits) : (truncf ψ a h : FVec Ideal s ψ) = a := rfl

/-- The kernel's whole layer: a plain product into the zero accumulator plus a broadcast bias row is `dense` of every
    row. -/
theorem rows_matmul_bias {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨2, ![1, N]⟩ .f32)
    (h : (⟨2, ![1, N]⟩ : Shape).Broadcasts ⟨2, ![M, N]⟩) (r : Fin M) :
    rows (addf (matmul d prec x w (constant (F := Ideal) ⟨2, ![M, N]⟩ .f32 0x00000000#32)) (broadcastTo ⟨2, ![M, N]⟩ b h)) r
      = dense (rows w) (rows b 0) (rows x r) :=
  (rows_add_broadcast_row _ b h r).trans (funext fun e => by
    show rows (matmul d prec x w (constant (F := Ideal) ⟨2, ![M, N]⟩ .f32 0x00000000#32)) r e + rows b 0 e = matvec (rows w) (rows x r) e + rows b 0 e
    rw [rows_matmul_zero d hd prec x w r])

end Cert.LibDenseRows

end
-- ==== Proof.LibHostDenseRows.lean ====
/-
  A dense layer x ↦ x·W + b and a ReLU as a host program spells them, read row by row on the extended reals, for any
  extents.

  On the host the layer is a `dot_general` of an [M, K] matrix with a [K, N] matrix contracted row by column, plus a
  bias vector [N] broadcast first to one row [1, N] and then over the M rows; the ReLU is the entrywise maximum with
  the zero constant broadcast to the whole matrix. On the extended reals the product's entry (r, e) is
  ∑ k < K, x[r, k] · W[k, e] with nothing else added, so row r of the layer is `dense W b` of row r of x, and the
  maximum is `relu` of every row: the same sums and maxima, term by term, with no finiteness used. The last lemma
  reads a vector [N] recast as the one row of a [1, N] matrix, which is how a kernel body spells the same bias.
-/
import Idealize.ShloMosaic.Lib.ValueIdx
import Idealize.ShloMosaic.Lib.ValueLayout
import Idealize.ShloMosaic.Lib.Pipeline.Value
import Idealize.ShloMosaic.PureOps.Ideal.Laws
import proofs.«108937_j41644002902694_1_alg».proof.Proof.LibDenseRows

noncomputable section

namespace Cert.LibHostDenseRows

open Idealize.ShloMosaic Idealize.ShloMosaic.ValueIdx Cert.LibDenseRows

/-- Entry (r, e) of a plain host product [M, K] × [K, N] is ∑ k, lhs[r, k] · rhs[k, e]. The dimension record may be
    any record equal to the plain one. -/
theorem hostDot_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    Host.dotGeneral (F := Ideal) d prec lhs rhs (ix2 r e) = ∑ k : Fin K, lhs (ix2 r k) * rhs (ix2 k e) := by
  subst hd
  show FloatOps.dotGeneral (DotDims.plain M K N) prec .single lhs rhs (ix2 r e) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

/-- Row `r` of a plain host product is row `r` of the left operand times the right operand. -/
theorem rows_hostDot {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (Host.dotGeneral (F := Ideal) d prec x w) r = matvec (rows w) (rows x r) :=
  funext fun e => hostDot_plain_apply d hd prec x w r e

/-- A vector [N] broadcast to one row [1, N] and that row over M rows: every row is the vector. -/
theorem rows_broadcast_vec {M N : ℕ} (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (broadcastInDim ⟨2, ![M, N]⟩ ![0, 1] h2 (broadcastInDim ⟨2, ![1, N]⟩ ![1] h1 b)) r = vec b :=
  funext fun e => by
    show broadcastInDim ⟨2, ![M, N]⟩ ![0, 1] h2 (broadcastInDim ⟨2, ![1, N]⟩ ![1] h1 b) (ix2 r e) = b (ix1 e)
    rw [broadcastInDim_apply ![0, 1] h2 _ (ix2 r e) (ix2 (0 : Fin 1) e) (fun a => by
      match a with
      | ⟨0, _⟩ => show (0 : ℕ) = if (1 : ℕ) = 1 then 0 else r.val; rw [if_pos rfl]
      | ⟨1, _⟩ =>
        show e.val = if N = 1 then 0 else e.val
        split
        · have := e.isLt; omega
        · rfl)]
    exact broadcastInDim_apply ![1] h1 b (ix2 (0 : Fin 1) e) (ix1 e) (fun a => by
      match a with
      | ⟨0, _⟩ =>
        show e.val = if N = 1 then 0 else e.val
        split
        · have := e.isLt; omega
        · rfl)

/-- The host's whole layer: a plain product plus the bias vector broadcast over the rows is `dense` of every row. -/
theorem rows_hostDense {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (addf (Host.dotGeneral (F := Ideal) d prec x w)
        (broadcastInDim ⟨2, ![M, N]⟩ ![0, 1] h2 (broadcastInDim ⟨2, ![1, N]⟩ ![1] h1 b))) r
      = dense (rows w) (vec b) (rows x r) :=
  funext fun e => by
    show rows (Host.dotGeneral (F := Ideal) d prec x w) r e
        + rows (broadcastInDim ⟨2, ![M, N]⟩ ![0, 1] h2 (broadcastInDim ⟨2, ![1, N]⟩ ![1] h1 b)) r e
      = matvec (rows w) (rows x r) e + vec b e
    rw [rows_hostDot d hd prec x w r, rows_broadcast_vec b h1 h2 r]

/-- The maximum with the zero constant broadcast to the whole matrix is ReLU of every row. -/
theorem rows_max_zero_const {M N : ℕ} (v : FVec Ideal ⟨2, ![M, N]⟩ .f32)
    (h : (⟨0, ![]⟩ : Shape).BroadcastsInDim ⟨2, ![M, N]⟩ ![]) (r : Fin M) :
    rows (maximumf v (broadcastInDim ⟨2, ![M, N]⟩ ![] h (constant (F := Ideal) ⟨0, ![]⟩ .f32 0x00000000#32))) r
      = relu (rows v r) :=
  funext fun e => by
    show max (v (ix2 r e)) (broadcastInDim ⟨2, ![M, N]⟩ ![] h (constant (F := Ideal) ⟨0, ![]⟩ .f32 0x00000000#32) (ix2 r e))
      = max (v (ix2 r e)) 0
    have hz : broadcastInDim ⟨2, ![M, N]⟩ ![] h (constant (F := Ideal) ⟨0, ![]⟩ .f32 0x00000000#32) (ix2 r e)
        = Ideal.ofBits .f32 0x00000000#32 :=
      broadcastInDim_apply _ h _ (ix2 r e) (fun a => a.elim0) (fun a => a.elim0)
    rw [hz, Ideal.ofBits_zero_f32]

/-- A vector [N] recast as the one row of a [1, N] matrix: that row is the vector. -/
theorem rows_shapeCast_vec {N : ℕ} (b : (⟨1, ![N]⟩ : Shape).Idx → EReal)
    (h : (⟨1, ![N]⟩ : Shape).ShapeCasts ⟨2, ![1, N]⟩) :
    rows (shapeCast ⟨2, ![1, N]⟩ b h) (0 : Fin 1) = vec b :=
  funext fun e => shapeCast_a_1a_apply b h 0 e

end Cert.LibHostDenseRows

end
-- ==== Proof.MatmulPayload.lean ====
/-
  The matrix-product kernel body at an entry, and a row block of a product.

  The body of each of the three product kernels loads a [5000, 64] block x and the [64, 64] weight w, narrows both to
  bf16 — the identity on the extended reals —, multiplies them into the zero accumulator and stores the result. So
  entry (p, e) of what the body leaves is ∑ k < 64, x[p, k] · w[k, e]. A row of a product depends on the same row of
  the left operand only: when the block is rows 5000·t, …, 5000·t + 4999 of a [50000, 64] matrix A and the weight is
  W, that sum is entry (5000·t + p, e) of the host product A · W.
-/
import proofs.«108937_j41644002902694_1_alg».proof.Proof.Spec
import proofs.«108937_j41644002902694_1_alg».proof.Proof.Gen.KernelIdeal.Skeleton
import proofs.«108937_j41644002902694_1_alg».proof.Proof.LibHostDenseRows
import Idealize.ShloMosaic.Lib.Pipeline.Value

noncomputable section

namespace Cert.KernelIdeal.MatmulPayload

open Idealize.ShloMosaic Idealize.ShloMosaic.ValueIdx Cert.KernelIdeal Cert.KernelIdeal.Gen Cert.HyperConv

/-- The zero offsets of an access to a whole rank-2 buffer are the constant function 0. -/
theorem zero_offsets : (![0, 0] : Fin 2 → Nat) = fun _ => 0 := funext fun a => by fin_cases a <;> rfl

/-- Entry (p, e) of the product of a [5000, 64] block and a [64, 64] weight, both narrowed to bf16, accumulated into
    the zero matrix is ∑ k, x[p, k] · w[k, e]: narrowing is the identity on the extended reals. -/
theorem product_apply (x0 : Vec Ideal S5000x64 .f32) (x1 : Vec Ideal S64x64 .f32) (p : Fin 5000) (e : Fin 64) :
    matmul dot_S5000x64_S64x64_S5000x64_1_0_0_1_n_n none (truncf .bf16 x0 bitsLt_bf16_f32)
        (truncf .bf16 x1 bitsLt_bf16_f32) (constant (F := Ideal) S5000x64 .f32 0x00000000#32) (ix2 p e)
      = ∑ k : Fin 64, x0 (ix2 p k) * x1 (ix2 k e) :=
  matmul_plain_zero_apply dot_S5000x64_S64x64_S5000x64_1_0_0_1_n_n rfl none
    (truncf .bf16 x0 bitsLt_bf16_f32) (truncf .bf16 x1 bitsLt_bf16_f32) p e

/-- The first product kernel's stored value at entry (p, e) is ∑ k, x[p, k] · w[k, e]. -/
theorem k0_apply (x0 : Vec Ideal S5000x64 .f32) (x1 : Vec Ideal S64x64 .f32) (p : Fin 5000) (e : Fin 64) :
    k0_pay1 x0 x1 (ix2 p e) = ∑ k : Fin 64, x0 (ix2 p k) * x1 (ix2 k e) :=
  product_apply x0 x1 p e

/-- The second product kernel's stored value at entry (p, e) is ∑ k, x[p, k] · w[k, e]: its recast of the block to
    the block's own shape changes nothing. -/
theorem k2_apply (x0 : Vec Ideal S5000x64 .f32) (x1 : Vec Ideal S64x64 .f32) (p : Fin 5000) (e : Fin 64) :
    k2_pay1 x0 x1 (ix2 p e) = ∑ k : Fin 64, x0 (ix2 p k) * x1 (ix2 k e) := by
  unfold k2_pay1
  rw [shapeCast_self]
  exact product_apply x0 x1 p e

/-- The third product kernel's stored value at entry (p, e) is ∑ k, x[p, k] · w[k, e]: its recast of the block to
    the block's own shape changes nothing. -/
theorem k4_apply (x0 : Vec Ideal S5000x64 .f32) (x1 : Vec Ideal S64x64 .f32) (p : Fin 5000) (e : Fin 64) :
    k4_pay1 x0 x1 (ix2 p e) = ∑ k : Fin 64, x0 (ix2 p k) * x1 (ix2 k e) := by
  unfold k4_pay1
  rw [shapeCast_self]
  exact product_apply x0 x1 p e

/-- A row block of a product. Let `pay` compute ∑ k, x[p, k] · w[k, e] at every entry, let the block `B` be rows
    5000·t, … of `A` (`hB`) and `W'` be `W` (`hW`). Then `pay B W'` at a block index `y` is the host product
    `A · W` at the array index `i` with i₀ = 5000·t + y₀ and i₁ = y₁: both are ∑ k, A[i₀, k] · W[k, y₁]. -/
theorem block_entry (pay : Vec Ideal S5000x64 .f32 → Vec Ideal S64x64 .f32 → FVec Ideal S5000x64 .f32)
    (hpay : ∀ (x0 : Vec Ideal S5000x64 .f32) (x1 : Vec Ideal S64x64 .f32) (p : Fin 5000) (e : Fin 64),
      pay x0 x1 (ix2 p e) = ∑ k : Fin 64, x0 (ix2 p k) * x1 (ix2 k e))
    (A : CF S50000x64) (W : CF S64x64) (B : Vec Ideal S5000x64 .f32) (W' : Vec Ideal S64x64 .f32) (t : ℕ)
    (hB : ∀ (y : S5000x64.Idx) (i : S50000x64.Idx), (i 0).val = t * 5000 + (y 0).val → (i 1).val = (y 1).val →
      B y = A i)
    (hW : ∀ y : S64x64.Idx, W' y = W y)
    (y : S5000x64.Idx) (i : S50000x64.Idx) (h0 : (i 0).val = t * 5000 + (y 0).val) (h1 : (i 1).val = (y 1).val) :
    pay B W' y = proj A W i := by
  have hy : y = ix2 (n0 := 5000) (n1 := 64) (y 0) (y 1) := eq_ix2 y
  have hi : i = ix2 (n0 := 50000) (n1 := 64) (i 0) (y 1) :=
    (eq_ix2 (n0 := 50000) (n1 := 64) i).trans (congrArg (ix2 (n0 := 50000) (n1 := 64) (i 0)) (Fin.ext h1))
  refine (congrArg (pay B W') hy).trans (Eq.trans ?_ (congrArg (proj A W) hi.symm))
  refine (hpay B W' (y 0) (y 1)).trans ?_
  refine Eq.trans ?_ (Cert.LibHostDenseRows.hostDot_plain_apply
    Cert.ReferenceIdeal.dot_S50000x64_S64x64_S50000x64_1_0_0_1_n_n rfl none A W (i 0) (y 1)).symm
  refine Finset.sum_congr rfl fun k _ => ?_
  exact congrArg₂ (· * ·) (hB (ix2 (y 0) k) (ix2 (i 0) k) h0 rfl) (hW (ix2 k (y 1)))

end Cert.KernelIdeal.MatmulPayload

end
-- ==== Proof.MatmulRegion0.lean ====
/-
  The first product region: after its ten write-backs the output array is the product of its two input arrays.

  The region runs the product kernel over a grid of 10 points. At point t the first window is rows 5000·t, …,
  5000·t + 4999 of the [50000, 64] input, the second window is the whole [64, 64] weight, and the output window is
  the same rows of the [50000, 64] result. The body leaves ∑ k, x[p, k] · w[k, e] at entry (p, e) of its block, which
  is entry (5000·t + p, e) of the product of the two arrays as the region finds them; row r of the result lies in the
  block of point r / 5000, so the ten blocks cover the array and it ends holding that product.
-/
import proofs.«108937_j41644002902694_1_alg».proof.Proof.Spec
import proofs.«108937_j41644002902694_1_alg».proof.Proof.Gen.KernelIdeal.Frame
import proofs.«108937_j41644002902694_1_alg».proof.Proof.MatmulPayload
import Idealize.ShloMosaic.Lib.Pipeline.Value

set_option maxRecDepth 16384

noncomputable section

namespace Cert.KernelIdeal.MatmulRegion0

open Idealize.ShloMosaic Idealize.ShloMosaic.TcCoe Idealize.ShloMosaic.ValueIdx Idealize.SL.Sem
open Cert.KernelIdeal Cert.KernelIdeal.Gen Cert.KernelIdeal.MatmulPayload Cert.HyperConv
open Idealize.ShloMosaic.Pipeline (Dat)

variable (V : (c : Dev nD) → (b : Ref sig .tc) → Buf (Elt Ideal) ((c : Thread nD τ).loc b))

/-- The three index maps at every grid point t: the input and the output windows are at block (t, 0), the weight's
    window at block (0, 0). Decided over the 10 points. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input window's block at point t is rows 5000·t, … of the input array: its entry y is the array's entry i
    with i₀ = 5000·t + y₀ and i₁ = y₁. -/
theorem rows (c : Dev nD) (t : Fin cfg0.N) (y : S5000x64.Idx) (i : S50000x64.Idx)
    (h0 : (i 0).val = t.val * 5000 + (y 0).val) (h1 : (i 1).val = (y 1).val) :
    (iblk0 V c 0 t : Vec Ideal S5000x64 .f32) y = (V c main_arg0 : Vec Ideal S50000x64 .f32) i := by
  obtain ⟨e0, e1, -⟩ := idx t
  unfold iblk0
  rw [View.read_apply]
  show V c main_arg0 _ = V c main_arg0 _
  congr 1
  funext a
  apply Fin.ext
  match a with
  | ⟨0, _⟩ => show win0_0.index t 0 * 5000 + 1 * (y 0).val = (i 0).val; omega
  | ⟨1, _⟩ => show win0_0.index t 1 * 64 + 1 * (y 1).val = (i 1).val; omega

/-- The weight window's block at every point is the whole weight array. -/
theorem weight (c : Dev nD) (t : Fin cfg0.N) (y : S64x64.Idx) :
    (iblk0 V c 1 t : Vec Ideal S64x64 .f32) y = (V c main_arg3 : Vec Ideal S64x64 .f32) y := by
  obtain ⟨-, -, e2, e3, -⟩ := idx t
  unfold iblk0
  rw [View.read_apply]
  show V c main_arg3 _ = V c main_arg3 _
  congr 1
  funext a
  apply Fin.ext
  match a with
  | ⟨0, _⟩ => show win0_1.index t 0 * 64 + 1 * (y 0).val = (y 0).val; omega
  | ⟨1, _⟩ => show win0_1.index t 1 * 64 + 1 * (y 1).val = (y 1).val; omega

/-- What point t writes back is block t of the product of the two input arrays: the body's one store covers its
    buffer with the product of the two loaded blocks, and entry (p, e) of that is entry (5000·t + p, e) of the
    arrays' product. -/
theorem flushed (c : Dev nD) (t : Fin cfg0.N) :
    (dat0 (F := Ideal) V c).flushed 2 t
      = ((cfg0.win 2).blk t).view.read (Elt Ideal) (proj (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x64) zero_offsets, View.ld_unit_zero (S := S64x64) zero_offsets]
  obtain ⟨-, -, -, -, e4, e5⟩ := idx t
  funext j
  show k0_pay1 (iblk0 V c 0 t) (iblk0 V c 1 t) ((cfg0.win 2).xinj (grid0.coords t) j)
    = proj (V c main_arg0) (V c main_arg3) (((cfg0.win 2).blk t).view.emb j)
  exact block_entry k0_pay1 k0_apply (V c main_arg0) (V c main_arg3) (iblk0 V c 0 t) (iblk0 V c 1 t) t.val
    (rows V c t) (weight V c t) ((cfg0.win 2).xinj (grid0.coords t) j) (((cfg0.win 2).blk t).view.emb j)
    (by show win0_2.index t 0 * 5000 + 1 * (j 0).val = t.val * 5000 + (j 0).val; omega)
    (by show win0_2.index t 1 * 64 + 1 * (j 1).val = (j 1).val; omega)

/-- An index of the output array is in point t's block iff each coordinate is in the block's range on its axis. -/
theorem mem_blk (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v17).slice (win0_2.rect t)).set ↔ _
  rw [View.set_slice_whole, Rect.mem_set_unit]
  exact Iff.rfl

/-- The ten blocks cover the output array: row r lies in the block of point r / 5000, which is written back. -/
theorem cover (i : S50000x64.Idx) :
    ∃ t : Fin cfg0.N, (cfg0.win 2).flush t = true ∧ i ∈ ((cfg0.win 2).blk t).view.set := by
  have hN : cfg0.N = 10 := rfl
  have hi0 : (i 0).val < 50000 := (i 0).isLt
  have hi1 : (i 1).val < 64 := (i 1).isLt
  have hlt : (i 0).val / 5000 < cfg0.N := by rw [hN]; omega
  obtain ⟨-, -, -, -, e4, e5⟩ := idx ⟨(i 0).val / 5000, hlt⟩
  have e4' : win0_2.index ⟨(i 0).val / 5000, hlt⟩ 0 = (i 0).val / 5000 := e4
  refine ⟨⟨(i 0).val / 5000, hlt⟩, flush0_2 _, ?_⟩
  rw [mem_blk]
  intro a
  match a with
  | ⟨0, _⟩ =>
    show win0_2.index ⟨(i 0).val / 5000, hlt⟩ 0 * 5000 ≤ (i 0).val
      ∧ (i 0).val < win0_2.index ⟨(i 0).val / 5000, hlt⟩ 0 * 5000 + 5000
    omega
  | ⟨1, _⟩ =>
    show win0_2.index ⟨(i 0).val / 5000, hlt⟩ 1 * 64 ≤ (i 1).val
      ∧ (i 1).val < win0_2.index ⟨(i 0).val / 5000, hlt⟩ 1 * 64 + 64
    omega

end Cert.KernelIdeal.MatmulRegion0

namespace Cert.KernelIdeal.RegionValue

open Idealize.ShloMosaic Idealize.ShloMosaic.TcCoe Idealize.SL.Sem Cert.KernelIdeal Cert.KernelIdeal.Gen Cert.HyperConv

variable (V : (c : Dev nD) → (b : Ref sig .tc) → Buf (Elt Ideal) ((c : Thread nD τ).loc b))

/-- After the ten write-backs of the first product region, its output array is the product of its input array and
    its weight array as the region found them. -/
theorem region0_value (c : Dev nD) :
    (dat0 (F := Ideal) V c).arrAt 2 cfg0.N = proj (V c main_arg0) (V c main_arg3) :=
  (dat0 V c).arrAt_eq_of_cover 2 (proj (V c main_arg0) (V c main_arg3))
    (fun t _ => MatmulRegion0.flushed V c t) MatmulRegion0.cover

end Cert.KernelIdeal.RegionValue

end
-- ==== Proof.MatmulRegion2.lean ====
/-
  The second product region: after its ten write-backs the output array is the product of its two input arrays.

  The region runs the product kernel over a grid of 10 points. At point t the first window is rows 5000·t, …,
  5000·t + 4999 of the [50000, 64] input, the second window is the whole [64, 64] weight, and the output window is
  the same rows of the [50000, 64] result. The body leaves ∑ k, x[p, k] · w[k, e] at entry (p, e) of its block, which
  is entry (5000·t + p, e) of the product of the two arrays as the region finds them; row r of the result lies in the
  block of point r / 5000, so the ten blocks cover the array and it ends holding that product.
-/
import proofs.«108937_j41644002902694_1_alg».proof.Proof.Spec
import proofs.«108937_j41644002902694_1_alg».proof.Proof.Gen.KernelIdeal.Frame
import proofs.«108937_j41644002902694_1_alg».proof.Proof.MatmulPayload
import Idealize.ShloMosaic.Lib.Pipeline.Value

set_option maxRecDepth 16384

noncomputable section

namespace Cert.KernelIdeal.MatmulRegion2

open Idealize.ShloMosaic Idealize.ShloMosaic.TcCoe Idealize.ShloMosaic.ValueIdx Idealize.SL.Sem
open Cert.KernelIdeal Cert.KernelIdeal.Gen Cert.KernelIdeal.MatmulPayload Cert.HyperConv
open Idealize.ShloMosaic.Pipeline (Dat)

variable (V : (c : Dev nD) → (b : Ref sig .tc) → Buf (Elt Ideal) ((c : Thread nD τ).loc b))

/-- The three index maps at every grid point t: the input and the output windows are at block (t, 0), the weight's
    window at block (0, 0). Decided over the 10 points. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input window's block at point t is rows 5000·t, … of the input array: its entry y is the array's entry i
    with i₀ = 5000·t + y₀ and i₁ = y₁. -/
theorem rows (c : Dev nD) (t : Fin cfg2.N) (y : S5000x64.Idx) (i : S50000x64.Idx)
    (h0 : (i 0).val = t.val * 5000 + (y 0).val) (h1 : (i 1).val = (y 1).val) :
    (iblk2 V c 0 t : Vec Ideal S5000x64 .f32) y = (V c main_v45 : Vec Ideal S50000x64 .f32) i := by
  obtain ⟨e0, e1, -⟩ := idx t
  unfold iblk2
  rw [View.read_apply]
  show V c main_v45 _ = V c main_v45 _
  congr 1
  funext a
  apply Fin.ext
  match a with
  | ⟨0, _⟩ => show win2_0.index t 0 * 5000 + 1 * (y 0).val = (i 0).val; omega
  | ⟨1, _⟩ => show win2_0.index t 1 * 64 + 1 * (y 1).val = (i 1).val; omega

/-- The weight window's block at every point is the whole weight array. -/
theorem weight (c : Dev nD) (t : Fin cfg2.N) (y : S64x64.Idx) :
    (iblk2 V c 1 t : Vec Ideal S64x64 .f32) y = (V c main_arg5 : Vec Ideal S64x64 .f32) y := by
  obtain ⟨-, -, e2, e3, -⟩ := idx t
  unfold iblk2
  rw [View.read_apply]
  show V c main_arg5 _ = V c main_arg5 _
  congr 1
  funext a
  apply Fin.ext
  match a with
  | ⟨0, _⟩ => show win2_1.index t 0 * 64 + 1 * (y 0).val = (y 0).val; omega
  | ⟨1, _⟩ => show win2_1.index t 1 * 64 + 1 * (y 1).val = (y 1).val; omega

/-- What point t writes back is block t of the product of the two input arrays: the body's one store covers its
    buffer with the product of the two loaded blocks, and entry (p, e) of that is entry (5000·t + p, e) of the
    arrays' product. -/
theorem flushed (c : Dev nD) (t : Fin cfg2.N) :
    (dat2 (F := Ideal) V c).flushed 2 t
      = ((cfg2.win 2).blk t).view.read (Elt Ideal) (proj (V c main_v45) (V c main_arg5)) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S64x64) zero_offsets]
  obtain ⟨-, -, -, -, e4, e5⟩ := idx t
  funext j
  show k2_pay1 (iblk2 V c 0 t) (iblk2 V c 1 t) ((cfg2.win 2).xinj (grid2.coords t) j)
    = proj (V c main_v45) (V c main_arg5) (((cfg2.win 2).blk t).view.emb j)
  exact block_entry k2_pay1 k2_apply (V c main_v45) (V c main_arg5) (iblk2 V c 0 t) (iblk2 V c 1 t) t.val
    (rows V c t) (weight V c t) ((cfg2.win 2).xinj (grid2.coords t) j) (((cfg2.win 2).blk t).view.emb j)
    (by show win2_2.index t 0 * 5000 + 1 * (j 0).val = t.val * 5000 + (j 0).val; omega)
    (by show win2_2.index t 1 * 64 + 1 * (j 1).val = (j 1).val; omega)

/-- An index of the output array is in point t's block iff each coordinate is in the block's range on its axis. -/
theorem mem_blk (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v46).slice (win2_2.rect t)).set ↔ _
  rw [View.set_slice_whole, Rect.mem_set_unit]
  exact Iff.rfl

/-- The ten blocks cover the output array: row r lies in the block of point r / 5000, which is written back. -/
theorem cover (i : S50000x64.Idx) :
    ∃ t : Fin cfg2.N, (cfg2.win 2).flush t = true ∧ i ∈ ((cfg2.win 2).blk t).view.set := by
  have hN : cfg2.N = 10 := rfl
  have hi0 : (i 0).val < 50000 := (i 0).isLt
  have hi1 : (i 1).val < 64 := (i 1).isLt
  have hlt : (i 0).val / 5000 < cfg2.N := by rw [hN]; omega
  obtain ⟨-, -, -, -, e4, e5⟩ := idx ⟨(i 0).val / 5000, hlt⟩
  have e4' : win2_2.index ⟨(i 0).val / 5000, hlt⟩ 0 = (i 0).val / 5000 := e4
  refine ⟨⟨(i 0).val / 5000, hlt⟩, flush2_2 _, ?_⟩
  rw [mem_blk]
  intro a
  match a with
  | ⟨0, _⟩ =>
    show win2_2.index ⟨(i 0).val / 5000, hlt⟩ 0 * 5000 ≤ (i 0).val
      ∧ (i 0).val < win2_2.index ⟨(i 0).val / 5000, hlt⟩ 0 * 5000 + 5000
    omega
  | ⟨1, _⟩ =>
    show win2_2.index ⟨(i 0).val / 5000, hlt⟩ 1 * 64 ≤ (i 1).val
      ∧ (i 1).val < win2_2.index ⟨(i 0).val / 5000, hlt⟩ 1 * 64 + 64
    omega

end Cert.KernelIdeal.MatmulRegion2

namespace Cert.KernelIdeal.RegionValue

open Idealize.ShloMosaic Idealize.ShloMosaic.TcCoe Idealize.SL.Sem Cert.KernelIdeal Cert.KernelIdeal.Gen Cert.HyperConv

variable (V : (c : Dev nD) → (b : Ref sig .tc) → Buf (Elt Ideal) ((c : Thread nD τ).loc b))

/-- After the ten write-backs of the second product region, its output array is the product of its input array and
    its weight array as the region found them. -/
theorem region2_value (c : Dev nD) :
    (dat2 (F := Ideal) V c).arrAt 2 cfg2.N = proj (V c main_v45) (V c main_arg5) :=
  (dat2 V c).arrAt_eq_of_cover 2 (proj (V c main_v45) (V c main_arg5))
    (fun t _ => MatmulRegion2.flushed V c t) MatmulRegion2.cover

end Cert.KernelIdeal.RegionValue

end
-- ==== Proof.MatmulRegion4.lean ====
/-
  The third product region: after its ten write-backs the output array is the product of its two input arrays.

  The region runs the product kernel over a grid of 10 points. At point t the first window is rows 5000·t, …,
  5000·t + 4999 of the [50000, 64] input, the second window is the whole [64, 64] weight, and the output window is
  the same rows of the [50000, 64] result. The body leaves ∑ k, x[p, k] · w[k, e] at entry (p, e) of its block, which
  is entry (5000·t + p, e) of the product of the two arrays as the region finds them; row r of the result lies in the
  block of point r / 5000, so the ten blocks cover the array and it ends holding that product.
-/
import proofs.«108937_j41644002902694_1_alg».proof.Proof.Spec
import proofs.«108937_j41644002902694_1_alg».proof.Proof.Gen.KernelIdeal.Frame
import proofs.«108937_j41644002902694_1_alg».proof.Proof.MatmulPayload
import Idealize.ShloMosaic.Lib.Pipeline.Value

set_option maxRecDepth 16384

noncomputable section

namespace Cert.KernelIdeal.MatmulRegion4

open Idealize.ShloMosaic Idealize.ShloMosaic.TcCoe Idealize.ShloMosaic.ValueIdx Idealize.SL.Sem
open Cert.KernelIdeal Cert.KernelIdeal.Gen Cert.KernelIdeal.MatmulPayload Cert.HyperConv
open Idealize.ShloMosaic.Pipeline (Dat)

variable (V : (c : Dev nD) → (b : Ref sig .tc) → Buf (Elt Ideal) ((c : Thread nD τ).loc b))

/-- The three index maps at every grid point t: the input and the output windows are at block (t, 0), the weight's
    window at block (0, 0). Decided over the 10 points. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The input window's block at point t is rows 5000·t, … of the input array: its entry y is the array's entry i
    with i₀ = 5000·t + y₀ and i₁ = y₁. -/
theorem rows (c : Dev nD) (t : Fin cfg4.N) (y : S5000x64.Idx) (i : S50000x64.Idx)
    (h0 : (i 0).val = t.val * 5000 + (y 0).val) (h1 : (i 1).val = (y 1).val) :
    (iblk4 V c 0 t : Vec Ideal S5000x64 .f32) y = (V c main_v74 : Vec Ideal S50000x64 .f32) i := by
  obtain ⟨e0, e1, -⟩ := idx t
  unfold iblk4
  rw [View.read_apply]
  show V c main_v74 _ = V c main_v74 _
  congr 1
  funext a
  apply Fin.ext
  match a with
  | ⟨0, _⟩ => show win4_0.index t 0 * 5000 + 1 * (y 0).val = (i 0).val; omega
  | ⟨1, _⟩ => show win4_0.index t 1 * 64 + 1 * (y 1).val = (i 1).val; omega

/-- The weight window's block at every point is the whole weight array. -/
theorem weight (c : Dev nD) (t : Fin cfg4.N) (y : S64x64.Idx) :
    (iblk4 V c 1 t : Vec Ideal S64x64 .f32) y = (V c main_arg7 : Vec Ideal S64x64 .f32) y := by
  obtain ⟨-, -, e2, e3, -⟩ := idx t
  unfold iblk4
  rw [View.read_apply]
  show V c main_arg7 _ = V c main_arg7 _
  congr 1
  funext a
  apply Fin.ext
  match a with
  | ⟨0, _⟩ => show win4_1.index t 0 * 64 + 1 * (y 0).val = (y 0).val; omega
  | ⟨1, _⟩ => show win4_1.index t 1 * 64 + 1 * (y 1).val = (y 1).val; omega

/-- What point t writes back is block t of the product of the two input arrays: the body's one store covers its
    buffer with the product of the two loaded blocks, and entry (p, e) of that is entry (5000·t + p, e) of the
    arrays' product. -/
theorem flushed (c : Dev nD) (t : Fin cfg4.N) :
    (dat4 (F := Ideal) V c).flushed 2 t
      = ((cfg4.win 2).blk t).view.read (Elt Ideal) (proj (V c main_v74) (V c main_arg7)) := by
  show (cfg4.win 2).cut (grid4.coords t) ((dat4 V c).after 2 t) = _
  rw [after4_2]
  unfold out4_2
  rw [View.canon_unit_zero zero_offsets]
  simp only [View.ld_unit_zero (S := S5000x64) zero_offsets, View.ld_unit_zero (S := S64x64) zero_offsets]
  obtain ⟨-, -, -, -, e4, e5⟩ := idx t
  funext j
  show k4_pay1 (iblk4 V c 0 t) (iblk4 V c 1 t) ((cfg4.win 2).xinj (grid4.coords t) j)
    = proj (V c main_v74) (V c main_arg7) (((cfg4.win 2).blk t).view.emb j)
  exact block_entry k4_pay1 k4_apply (V c main_v74) (V c main_arg7) (iblk4 V c 0 t) (iblk4 V c 1 t) t.val
    (rows V c t) (weight V c t) ((cfg4.win 2).xinj (grid4.coords t) j) (((cfg4.win 2).blk t).view.emb j)
    (by show win4_2.index t 0 * 5000 + 1 * (j 0).val = t.val * 5000 + (j 0).val; omega)
    (by show win4_2.index t 1 * 64 + 1 * (j 1).val = (j 1).val; omega)

/-- An index of the output array is in point t's block iff each coordinate is in the block's range on its axis. -/
theorem mem_blk (t : Fin cfg4.N) (i : S50000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v75).slice (win4_2.rect t)).set ↔ _
  rw [View.set_slice_whole, Rect.mem_set_unit]
  exact Iff.rfl

/-- The ten blocks cover the output array: row r lies in the block of point r / 5000, which is written back. -/
theorem cover (i : S50000x64.Idx) :
    ∃ t : Fin cfg4.N, (cfg4.win 2).flush t = true ∧ i ∈ ((cfg4.win 2).blk t).view.set := by
  have hN : cfg4.N = 10 := rfl
  have hi0 : (i 0).val < 50000 := (i 0).isLt
  have hi1 : (i 1).val < 64 := (i 1).isLt
  have hlt : (i 0).val / 5000 < cfg4.N := by rw [hN]; omega
  obtain ⟨-, -, -, -, e4, e5⟩ := idx ⟨(i 0).val / 5000, hlt⟩
  have e4' : win4_2.index ⟨(i 0).val / 5000, hlt⟩ 0 = (i 0).val / 5000 := e4
  refine ⟨⟨(i 0).val / 5000, hlt⟩, flush4_2 _, ?_⟩
  rw [mem_blk]
  intro a
  match a with
  | ⟨0, _⟩ =>
    show win4_2.index ⟨(i 0).val / 5000, hlt⟩ 0 * 5000 ≤ (i 0).val
      ∧ (i 0).val < win4_2.index ⟨(i 0).val / 5000, hlt⟩ 0 * 5000 + 5000
    omega
  | ⟨1, _⟩ =>
    show win4_2.index ⟨(i 0).val / 5000, hlt⟩ 1 * 64 ≤ (i 1).val
      ∧ (i 1).val < win4_2.index ⟨(i 0).val / 5000, hlt⟩ 1 * 64 + 64
    omega

end Cert.KernelIdeal.MatmulRegion4

namespace Cert.KernelIdeal.RegionValue

open Idealize.ShloMosaic Idealize.ShloMosaic.TcCoe Idealize.SL.Sem Cert.KernelIdeal Cert.KernelIdeal.Gen Cert.HyperConv

variable (V : (c : Dev nD) → (b : Ref sig .tc) → Buf (Elt Ideal) ((c : Thread nD τ).loc b))

/-- After the ten write-backs of the third product region, its output array is the product of its input array and
    its weight array as the region found them. -/
theorem region4_value (c : Dev nD) :
    (dat4 (F := Ideal) V c).arrAt 2 cfg4.N = proj (V c main_v74) (V c main_arg7) :=
  (dat4 V c).arrAt_eq_of_cover 2 (proj (V c main_v74) (V c main_arg7))
    (fun t _ => MatmulRegion4.flushed V c t) MatmulRegion4.cover

end Cert.KernelIdeal.RegionValue

end
-- ==== Proof.BiasPayload.lean ====
/-
  The bias-and-activation kernel body, read at one entry on the extended reals, against the specification's
  `addRow` and `leaky` read at one entry.

  The body loads a block y of 5000 rows and the one row b of 64 entries, adds b to every row of y, and (in the two
  rectified regions) keeps an entry v of the sum where v ≥ 0 and replaces it by v · s elsewhere, s the word
  0x3C23D70A. The specification writes the same function on the whole array of 50000 rows with the product spelt
  s · v. Entry (p, e) of the body's result is therefore `leakyAt (y[p, e] + b[0, e])`, or y[p, e] + b[0, e] in the
  region without rectifier, and entry (r, e) of the specification is the same expression of Y[r, e] and b[0, e];
  the two spellings of the product agree because multiplication of extended reals commutes. No entry is assumed
  finite. The last lemma says that the offsets (0, 0) of the body's loads and stores are the zero offsets, so each
  load reads its whole buffer and the one store fills its whole buffer.
-/
import proofs.«108937_j41644002902694_1_alg».proof.Proof.Spec
import proofs.«108937_j41644002902694_1_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.BiasPayload

open Idealize.ShloMosaic Idealize.ShloMosaic.ValueIdx Cert.KernelIdeal Cert.KernelIdeal.Gen Cert.HyperConv

/-- The leaky rectifier of one extended real: v where v ≥ 0, else s · v with s the word 0x3C23D70A. -/
def leakyAt (v : EReal) : EReal :=
  Scalar.select (Ideal.cmp .oge v (Ideal.ofBits .f32 0x00000000#32)) v (Ideal.ofBits .f32 0x3C23D70A#32 * v)

/-! ## The specification at an entry -/

/-- Entry (r, e) of an array plus one row added to every row is the array's entry plus the row's entry e. -/
theorem addRow_apply (Y : CF Cert.ReferenceIdeal.S50000x64) (row : CF Cert.ReferenceIdeal.S1x64) (r : Fin 50000) (e : Fin 64) :
    addRow Y row (ix2 r e) = Y (ix2 r e) + row (ix2 (0 : Fin 1) e) := by
  show Y (ix2 r e) + broadcastInDim Cert.ReferenceIdeal.S50000x64 ![0, 1] _ row (ix2 r e) = _
  rw [broadcastInDim_apply ![0, 1] _ row (ix2 r e) (ix2 (0 : Fin 1) e) (fun a => by
    match a with
    | ⟨0, _⟩ => show (0 : ℕ) = if (1 : ℕ) = 1 then 0 else r.val; rw [if_pos rfl]
    | ⟨1, _⟩ => show e.val = if (64 : ℕ) = 1 then 0 else e.val; rw [if_neg (by decide)])]

/-- Entry (r, e) of the rectified array is the rectifier of the array's entry. -/
theorem leaky_apply (Y : CF Cert.ReferenceIdeal.S50000x64) (r : Fin 50000) (e : Fin 64) :
    leaky Y (ix2 r e) = leakyAt (Y (ix2 r e)) := by
  have hz : broadcastInDim Cert.ReferenceIdeal.S50000x64 ![] Cert.ReferenceIdeal.Facts₀.bcast_S_S50000x64
      (constant (F := Ideal) Cert.ReferenceIdeal.S_ .f32 0x00000000#32) (ix2 r e) = Ideal.ofBits .f32 0x00000000#32 :=
    broadcastInDim_apply _ _ _ (ix2 r e) (fun a => a.elim0) (fun a => a.elim0)
  have hs : broadcastInDim Cert.ReferenceIdeal.S50000x64 ![] Cert.ReferenceIdeal.Facts₀.bcast_S_S50000x64
      (id (constant (F := Ideal) Cert.ReferenceIdeal.S_ .f32 0x3C23D70A#32)) (ix2 r e) = Ideal.ofBits .f32 0x3C23D70A#32 :=
    broadcastInDim_apply _ _ _ (ix2 r e) (fun a => a.elim0) (fun a => a.elim0)
  show Scalar.select (Ideal.cmp .oge (Y (ix2 r e)) (broadcastInDim Cert.ReferenceIdeal.S50000x64 ![] Cert.ReferenceIdeal.Facts₀.bcast_S_S50000x64
      (constant (F := Ideal) Cert.ReferenceIdeal.S_ .f32 0x00000000#32) (ix2 r e))) (Y (ix2 r e))
      (broadcastInDim Cert.ReferenceIdeal.S50000x64 ![] Cert.ReferenceIdeal.Facts₀.bcast_S_S50000x64
      (id (constant (F := Ideal) Cert.ReferenceIdeal.S_ .f32 0x3C23D70A#32)) (ix2 r e) * Y (ix2 r e)) = _
  rw [hz, hs]
  rfl

/-! ## The kernel body at an entry -/

/-- Entry (p, e) of the body without rectifier: the block's entry plus the row's entry e. -/
theorem sumBody_apply (x0 : Vec Ideal S5000x64 .f32) (x1 : Vec Ideal S1x64 .f32) (p : Fin 5000) (e : Fin 64) :
    k5_pay1 x0 x1 (ix2 p e) = x0 (ix2 p e) + x1 (ix2 (0 : Fin 1) e) := by
  show shapeCast S5000x64 x0 shapeCasts_S5000x64_S5000x64 (ix2 p e)
      + broadcastTo S5000x64 (shapeCast S1x64 x1 shapeCasts_S1x64_S1x64) broadcasts_S1x64_S5000x64 (ix2 p e) = _
  rw [shapeCast_self, shapeCast_self]
  exact congrArg (x0 (ix2 p e) + ·) (broadcastTo_1b_ab_apply x1 broadcasts_S1x64_S5000x64 p e)

/-- Entry (p, e) of the rectified body: the rectifier of the block's entry plus the row's entry e. The body spells
    the product v · s; on the extended reals that is s · v. -/
theorem rectBody_apply (x0 : Vec Ideal S5000x64 .f32) (x1 : Vec Ideal S1x64 .f32) (p : Fin 5000) (e : Fin 64) :
    k1_pay1 x0 x1 (ix2 p e) = leakyAt (x0 (ix2 p e) + x1 (ix2 (0 : Fin 1) e)) := by
  show Scalar.select (Ideal.cmp .oge (k5_pay1 x0 x1 (ix2 p e)) (Ideal.ofBits .f32 0x00000000#32)) (k5_pay1 x0 x1 (ix2 p e))
      (k5_pay1 x0 x1 (ix2 p e) * Ideal.ofBits .f32 0x3C23D70A#32) = _
  rw [sumBody_apply, mul_comm]
  rfl

/-- The second rectified region's body is the first's, word for word, so it reads the same at an entry. -/
theorem rectBody3_apply (x0 : Vec Ideal S5000x64 .f32) (x1 : Vec Ideal S1x64 .f32) (p : Fin 5000) (e : Fin 64) :
    k3_pay1 x0 x1 (ix2 p e) = leakyAt (x0 (ix2 p e) + x1 (ix2 (0 : Fin 1) e)) :=
  rectBody_apply x0 x1 p e

/-! ## The body's whole-buffer accesses -/

/-- The offsets (0, 0) at which the body loads and stores its whole buffers are the zero offsets. -/
theorem zeroOffsets : (![0, 0] : Fin 2 → Nat) = fun _ => 0 := funext fun a => by fin_cases a <;> rfl

end Cert.KernelIdeal.BiasPayload

end
-- ==== Proof.BiasRegion1.lean ====
/-
  Region 1 of the program: the array the bias-and-rectifier kernel leaves after its ten grid points.

  The region reads an array y of 50000 rows and 64 columns in ten blocks of 5000 rows (grid point t reads rows
  5000·t … 5000·t + 4999), reads the one row b of 64 entries whole at every point, and writes the result array in
  the same ten blocks. At point t the body leaves in the output block the rectifier of its input block plus b on every row:
  entry (p, e) is v where v ≥ 0 and s · v elsewhere, with v = y-block[p, e] + b[0, e] and s the word 0x3C23D70A.
  Entry (p, e) of block t is entry (5000·t + p, e) of the array, so what point t writes back is block t of ONE
  function of y and b, namely the rectifier of y plus b on every row (`leaky (addRow y b)`); row r of the array lies in the block of point r / 5000, so
  the ten blocks cover the array and the array ends holding that function. The buffer contents at the region's
  entry are a parameter, and no entry is assumed finite.
-/
import proofs.«108937_j41644002902694_1_alg».proof.Proof.BiasPayload
import proofs.«108937_j41644002902694_1_alg».proof.Proof.Gen.KernelIdeal.Frame
import Idealize.ShloMosaic.Lib.Pipeline.Value

noncomputable section

namespace Cert.KernelIdeal.BiasRegion1

open Idealize.ShloMosaic Idealize.ShloMosaic.TcCoe Idealize.ShloMosaic.ValueIdx Idealize.SL.Sem
open Cert.KernelIdeal Cert.KernelIdeal.Gen Cert.KernelIdeal.BiasPayload Cert.HyperConv
open Idealize.ShloMosaic.Pipeline (Dat)

variable (V : (c : Dev nD) → (b : Ref sig .tc) → Buf (Elt Ideal) ((c : Thread nD τ).loc b))

/-- The three index maps over the grid: at point t the input and the output are at block (t, 0), the row at block
    (0, 0). -/
theorem blockIndices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, e) of output block t sits at row 5000·t + p, column e of the array. -/
theorem outBlock_entry (t : Fin cfg1.N) (p : Fin 5000) (e : Fin 64) (h : 5000 * t.val + p.val < 50000) :
    ((cfg1.win 2).blk t).view.emb (ix2 p e) = ix2 (⟨5000 * t.val + p.val, h⟩ : Fin 50000) e := by
  obtain ⟨-, -, -, -, e4, e5⟩ := blockIndices t
  funext a; apply Fin.ext
  match a with
  | ⟨0, _⟩ => show win1_2.index t (0 : Fin 2) * 5000 + 1 * p.val = 5000 * t.val + p.val; rw [e4]; omega
  | ⟨1, _⟩ => show win1_2.index t (1 : Fin 2) * 64 + 1 * e.val = e.val; rw [e5]; omega

/-- Entry (p, e) of input block t of the array y is y at row 5000·t + p, column e. -/
theorem inBlock_entry (c : Dev nD) (t : Fin cfg1.N) (p : Fin 5000) (e : Fin 64) (h : 5000 * t.val + p.val < 50000) :
    iblk1 V c 0 t (ix2 p e) = V c main_v43 (ix2 (⟨5000 * t.val + p.val, h⟩ : Fin 50000) e) := by
  obtain ⟨e0, e1, -, -, -, -⟩ := blockIndices t
  show V c main_v43 (((cfg1.win 0).blk t).view.emb (ix2 p e)) = _
  refine congrArg (V c main_v43) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 64 + 1 * e.val = e.val; rw [e1]; omega

/-- The row window's block at any point is the whole row b. -/
theorem rowBlock_entry (c : Dev nD) (t : Fin cfg1.N) (e : Fin 64) :
    iblk1 V c 1 t (ix2 (0 : Fin 1) e) = V c main_v44 (ix2 (0 : Fin 1) e) := by
  obtain ⟨-, -, e2, e3, -, -⟩ := blockIndices t
  show V c main_v44 (((cfg1.win 1).blk t).view.emb (ix2 (0 : Fin 1) e)) = _
  refine congrArg (V c main_v44) (funext fun a => Fin.ext ?_)
  match a with
  | ⟨0, _⟩ => show win1_1.index t (0 : Fin 2) * 1 + 1 * 0 = 0; rw [e2]
  | ⟨1, _⟩ => show win1_1.index t (1 : Fin 2) * 64 + 1 * e.val = e.val; rw [e3]; omega

/-- What point t writes back is block t of the rectifier of y plus b on every row (`leaky (addRow y b)`) of the arrays as the region finds them. -/
theorem writeBack_eq (c : Dev nD) (t : Fin cfg1.N) :
    (dat1 (F := Ideal) V c).flushed 2 t
      = ((cfg1.win 2).blk t).view.read (Elt Ideal) (leaky (addRow (V c main_v43) (V c main_v44))) := by
  show (cfg1.win 2).cut (grid1.coords t) ((dat1 V c).after 2 t) = _
  rw [after1_2]
  unfold out1_2
  rw [View.canon_unit_zero zeroOffsets]
  simp only [View.ld_unit_zero (S := S5000x64) zeroOffsets, View.ld_unit_zero (S := S1x64) zeroOffsets]
  refine funext fun (j : S5000x64.Idx) => ?_
  obtain ⟨p, e, rfl⟩ : ∃ (p : Fin 5000) (e : Fin 64), j = ix2 p e := ⟨j 0, j 1, eq_ix2 j⟩
  have h : 5000 * t.val + p.val < 50000 := by
    have hN : grid1.N = 10 := N_1
    have ht : t.val < grid1.N := t.isLt
    have hp := p.isLt
    omega
  show k1_pay1 (iblk1 V c 0 t) (iblk1 V c 1 t) (ix2 p e)
    = leaky (addRow (V c main_v43) (V c main_v44)) (((cfg1.win 2).blk t).view.emb (ix2 p e))
  refine (rectBody_apply (iblk1 V c 0 t) (iblk1 V c 1 t) p e).trans ?_
  refine Eq.trans ?_ (congrArg (leaky (addRow (V c main_v43) (V c main_v44))) (outBlock_entry t p e h)).symm
  rw [leaky_apply, addRow_apply, inBlock_entry V c t p e h, rowBlock_entry V c t e]

/-- An index of the array is in output block t iff each coordinate is in the block's range on its axis. -/
theorem mem_outBlock (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v45).slice (win1_2.rect t)).set ↔ _
  rw [View.set_slice_whole, Rect.mem_set_unit]
  exact Iff.rfl

/-- Row r of the array is in the block of point r / 5000, which writes back: the ten blocks cover the array. -/
theorem rows_covered (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : grid1.N = 10 := N_1
  have ht : (i 0).val / 5000 < grid1.N := by rw [hN]; omega
  obtain ⟨-, -, -, -, e4, e5⟩ := blockIndices ⟨(i 0).val / 5000, ht⟩
  refine ⟨⟨(i 0).val / 5000, ht⟩, flush1_2 _, ?_⟩
  rw [mem_outBlock]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 64 ≤ (i 1).val
      ∧ (i 1).val < win1_2.index ⟨(i 0).val / 5000, ht⟩ (1 : Fin 2) * 64 + 64
    rw [e5]; omega

end Cert.KernelIdeal.BiasRegion1

namespace Cert.KernelIdeal.RegionValue

open Idealize.ShloMosaic Idealize.ShloMosaic.TcCoe Idealize.SL.Sem Cert.KernelIdeal Cert.KernelIdeal.Gen Cert.HyperConv

variable (V : (c : Dev nD) → (b : Ref sig .tc) → Buf (Elt Ideal) ((c : Thread nD τ).loc b))

/-- After region 1 the result array holds the rectifier of y plus b on every row (`leaky (addRow y b)`) of the arrays y and b as the region found them: every
    point writes back its block of that one function, and the blocks cover the array. -/
theorem region1_value (c : Dev nD) :
    (dat1 (F := Ideal) V c).arrAt 2 cfg1.N = leaky (addRow (V c main_v43) (V c main_v44)) :=
  (dat1 (F := Ideal) V c).arrAt_eq_of_cover 2 _ (fun t _ => BiasRegion1.writeBack_eq V c t) BiasRegion1.rows_covered

end Cert.KernelIdeal.RegionValue

end
-- ==== Proof.BiasRegion3.lean ====
/-
  Region 3 of the program: the array the bias-and-rectifier kernel leaves after its ten grid points.

  The region reads an array y of 50000 rows and 64 columns in ten blocks of 5000 rows (grid point t reads rows
  5000·t … 5000·t + 4999), reads the one row b of 64 entries whole at every point, and writes the result array in
  the same ten blocks. At point t the body leaves in the output block the rectifier of its input block plus b on every row:
  entry (p, e) is v where v ≥ 0 and s · v elsewhere, with v = y-block[p, e] + b[0, e] and s the word 0x3C23D70A.
  Entry (p, e) of block t is entry (5000·t + p, e) of the array, so what point t writes back is block t of ONE
  function of y and b, namely the rectifier of y plus b on every row (`leaky (addRow y b)`); row r of the array lies in the block of point r / 5000, so
  the ten blocks cover the array and the array ends holding that function. The buffer contents at the region's
  entry are a parameter, and no entry is assumed finite.
-/
import proofs.«108937_j41644002902694_1_alg».proof.Proof.BiasPayload
import proofs.«108937_j41644002902694_1_alg».proof.Proof.Gen.KernelIdeal.Frame
import Idealize.ShloMosaic.Lib.Pipeline.Value

noncomputable section

namespace Cert.KernelIdeal.BiasRegion3

open Idealize.ShloMosaic Idealize.ShloMosaic.TcCoe Idealize.ShloMosaic.ValueIdx Idealize.SL.Sem
open Cert.KernelIdeal Cert.KernelIdeal.Gen Cert.KernelIdeal.BiasPayload Cert.HyperConv
open Idealize.ShloMosaic.Pipeline (Dat)

variable (V : (c : Dev nD) → (b : Ref sig .tc) → Buf (Elt Ideal) ((c : Thread nD τ).loc b))

/-- The three index maps over the grid: at point t the input and the output are at block (t, 0), the row at block
    (0, 0). -/
theorem blockIndices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry (p, e) of output block t sits at row 5000·t + p, column e of the array. -/
theorem outBlock_entry (t : Fin cfg3.N) (p : Fin 5000) (e : Fin 64) (h : 5000 * t.val + p.val < 50000) :
    ((cfg3.win 2).blk t).view.emb (ix2 p e) = ix2 (⟨5000 * t.val + p.val, h⟩ : Fin 50000) e := by
  obtain ⟨-, -, -, -, e4, e5⟩ := blockIndices t
  funext a; apply Fin.ext
  match a with
  | ⟨0, _⟩ => show win3_2.index t (0 : Fin 2) * 5000 + 1 * p.val = 5000 * t.val + p.val; rw [e4]; omega
  | ⟨1, _⟩ => show win3_2.index t (1 : Fin 2) * 64 + 1 * e.val = e.val; rw [e5]; omega

/-- Entry (p, e) of input block t of the array y is y at row 5000·t + p, column e. -/
theorem inBlock_entry (c : Dev nD) (t : Fin cfg3.N) (p : Fin 5000) (e : Fin 64) (h : 5000 * t.val + p.val < 50000) :
    iblk3 V c 0 t (ix2 p e) = V c main_v72 (ix2 (⟨5000 * t.val + p.val, h⟩ : Fin 50000) e) := by
  obtain ⟨e0, e1, -, -, -, -⟩ := blockIndices t
  show V c main_v72 (((cfg3.win 0).blk t).view.emb (ix2 p e)) = _
  refine congrArg (V c main_v72) (funext fun a => Fin.ext ?_)
  match a with
  | ⟨0, _⟩ => show win3_0.index t (0 : Fin 2) * 5000 + 1 * p.val = 5000 * t.val + p.val; rw [e0]; omega
  | ⟨1, _⟩ => show win3_0.index t (1 : Fin 2) * 64 + 1 * e.val = e.val; rw [e1]; omega

/-- The row window's block at any point is the whole row b. -/
theorem rowBlock_entry (c : Dev nD) (t : Fin cfg3.N) (e : Fin 64) :
    iblk3 V c 1 t (ix2 (0 : Fin 1) e) = V c main_v73 (ix2 (0 : Fin 1) e) := by
  obtain ⟨-, -, e2, e3, -, -⟩ := blockIndices t
  show V c main_v73 (((cfg3.win 1).blk t).view.emb (ix2 (0 : Fin 1) e)) = _
  refine congrArg (V c main_v73) (funext fun a => Fin.ext ?_)
  match a with
  | ⟨0, _⟩ => show win3_1.index t (0 : Fin 2) * 1 + 1 * 0 = 0; rw [e2]
  | ⟨1, _⟩ => show win3_1.index t (1 : Fin 2) * 64 + 1 * e.val = e.val; rw [e3]; omega

/-- What point t writes back is block t of the rectifier of y plus b on every row (`leaky (addRow y b)`) of the arrays as the region finds them. -/
theorem writeBack_eq (c : Dev nD) (t : Fin cfg3.N) :
    (dat3 (F := Ideal) V c).flushed 2 t
      = ((cfg3.win 2).blk t).view.read (Elt Ideal) (leaky (addRow (V c main_v72) (V c main_v73))) := by
  show (cfg3.win 2).cut (grid3.coords t) ((dat3 V c).after 2 t) = _
  rw [after3_2]
  unfold out3_2
  rw [View.canon_unit_zero zeroOffsets]
  simp only [View.ld_unit_zero (S := S5000x64) zeroOffsets, View.ld_unit_zero (S := S1x64) zeroOffsets]
  refine funext fun (j : S5000x64.Idx) => ?_
  obtain ⟨p, e, rfl⟩ : ∃ (p : Fin 5000) (e : Fin 64), j = ix2 p e := ⟨j 0, j 1, eq_ix2 j⟩
  have h : 5000 * t.val + p.val < 50000 := by
    have hN : grid3.N = 10 := N_3
    have ht : t.val < grid3.N := t.isLt
    have hp := p.isLt
    omega
  show k3_pay1 (iblk3 V c 0 t) (iblk3 V c 1 t) (ix2 p e)
    = leaky (addRow (V c main_v72) (V c main_v73)) (((cfg3.win 2).blk t).view.emb (ix2 p e))
  refine (rectBody3_apply (iblk3 V c 0 t) (iblk3 V c 1 t) p e).trans ?_
  refine Eq.trans ?_ (congrArg (leaky (addRow (V c main_v72) (V c main_v73))) (outBlock_entry t p e h)).symm
  rw [leaky_apply, addRow_apply, inBlock_entry V c t p e h, rowBlock_entry V c t e]

/-- An index of the array is in output block t iff each coordinate is in the block's range on its axis. -/
theorem mem_outBlock (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v74).slice (win3_2.rect t)).set ↔ _
  rw [View.set_slice_whole, Rect.mem_set_unit]
  exact Iff.rfl

/-- Row r of the array is in the block of point r / 5000, which writes back: the ten blocks cover the array. -/
theorem rows_covered (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : grid3.N = 10 := N_3
  have ht : (i 0).val / 5000 < grid3.N := by rw [hN]; omega
  obtain ⟨-, -, -, -, e4, e5⟩ := blockIndices ⟨(i 0).val / 5000, ht⟩
  refine ⟨⟨(i 0).val / 5000, ht⟩, flush3_2 _, ?_⟩
  rw [mem_outBlock]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 64 ≤ (i 1).val
      ∧ (i 1).val < win3_2.index ⟨(i 0).val / 5000, ht⟩ (1 : Fin 2) * 64 + 64
    rw [e5]; omega

end Cert.KernelIdeal.BiasRegion3

namespace Cert.KernelIdeal.RegionValue

open Idealize.ShloMosaic Idealize.ShloMosaic.TcCoe Idealize.SL.Sem Cert.KernelIdeal Cert.KernelIdeal.Gen Cert.HyperConv

variable (V : (c : Dev nD) → (b : Ref sig .tc) → Buf (Elt Ideal) ((c : Thread nD τ).loc b))

/-- After region 3 the result array holds the rectifier of y plus b on every row (`leaky (addRow y b)`) of the arrays y and b as the region found them: every
    point writes back its block of that one function, and the blocks cover the array. -/
theorem region3_value (c : Dev nD) :
    (dat3 (F := Ideal) V c).arrAt 2 cfg3.N = leaky (addRow (V c main_v72) (V c main_v73)) :=
  (dat3 (F := Ideal) V c).arrAt_eq_of_cover 2 _ (fun t _ => BiasRegion3.writeBack_eq V c t) BiasRegion3.rows_covered

end Cert.KernelIdeal.RegionValue

end
-- ==== Proof.BiasRegion5.lean ====
/-
  Region 5 of the program: the array the bias kernel leaves after its ten grid points.

  The region reads an array y of 50000 rows and 64 columns in ten blocks of 5000 rows (grid point t reads rows
  5000·t … 5000·t + 4999), reads the one row b of 64 entries whole at every point, and writes the result array in
  the same ten blocks. At point t the body leaves in the output block its input block plus b on every row: entry (p, e) is
  y-block[p, e] + b[0, e]; this region has no rectifier.
  Entry (p, e) of block t is entry (5000·t + p, e) of the array, so what point t writes back is block t of ONE
  function of y and b, namely y plus b on every row (`addRow y b`); row r of the array lies in the block of point r / 5000, so
  the ten blocks cover the array and the array ends holding that function. The buffer contents at the region's
  entry are a parameter, and no entry is assumed finite.
-/
import proofs.«108937_j41644002902694_1_alg».proof.Proof.BiasPayload
import proofs.«108937_j41644002902694_1_alg».proof.Proof.Gen.KernelIdeal.Frame
import Idealize.ShloMosaic.Lib.Pipeline.Value

noncomputable section

namespace Cert.KernelIdeal.BiasRegion5

open Idealize.ShloMosaic Idealize.ShloMosaic.TcCoe Idealize.ShloMosaic.ValueIdx Idealize.SL.Sem
open Cert.KernelIdeal Cert.KernelIdeal.Gen Cert.KernelIdeal.BiasPayload Cert.HyperConv
open Idealize.ShloMosaic.Pipeline (Dat)

variable (V : (c : Dev nD) → (b : Ref sig .tc) → Buf (Elt Ideal) ((c : Thread nD τ).loc b))

/-- The three index maps over the grid: at point t the input and the output are at block (t, 0), the row at block
    (0, 0). -/
theorem blockIndices : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Entry (p, e) of output block t sits at row 5000·t + p, column e of the array. -/
theorem outBlock_entry (t : Fin cfg5.N) (p : Fin 5000) (e : Fin 64) (h : 5000 * t.val + p.val < 50000) :
    ((cfg5.win 2).blk t).view.emb (ix2 p e) = ix2 (⟨5000 * t.val + p.val, h⟩ : Fin 50000) e := by
  obtain ⟨-, -, -, -, e4, e5⟩ := blockIndices t
  funext a; apply Fin.ext
  match a with
  | ⟨0, _⟩ => show win5_2.index t (0 : Fin 2) * 5000 + 1 * p.val = 5000 * t.val + p.val; rw [e4]; omega
  | ⟨1, _⟩ => show win5_2.index t (1 : Fin 2) * 64 + 1 * e.val = e.val; rw [e5]; omega

/-- Entry (p, e) of input block t of the array y is y at row 5000·t + p, column e. -/
theorem inBlock_entry (c : Dev nD) (t : Fin cfg5.N) (p : Fin 5000) (e : Fin 64) (h : 5000 * t.val + p.val < 50000) :
    iblk5 V c 0 t (ix2 p e) = V c main_v101 (ix2 (⟨5000 * t.val + p.val, h⟩ : Fin 50000) e) := by
  obtain ⟨e0, e1, -, -, -, -⟩ := blockIndices t
  show V c main_v101 (((cfg5.win 0).blk t).view.emb (ix2 p e)) = _
  refine congrArg (V c main_v101) (funext fun a => Fin.ext ?_)
  match a with
  | ⟨0, _⟩ => show win5_0.index t (0 : Fin 2) * 5000 + 1 * p.val = 5000 * t.val + p.val; rw [e0]; omega
  | ⟨1, _⟩ => show win5_0.index t (1 : Fin 2) * 64 + 1 * e.val = e.val; rw [e1]; omega

/-- The row window's block at any point is the whole row b. -/
theorem rowBlock_entry (c : Dev nD) (t : Fin cfg5.N) (e : Fin 64) :
    iblk5 V c 1 t (ix2 (0 : Fin 1) e) = V c main_v102 (ix2 (0 : Fin 1) e) := by
  obtain ⟨-, -, e2, e3, -, -⟩ := blockIndices t
  show V c main_v102 (((cfg5.win 1).blk t).view.emb (ix2 (0 : Fin 1) e)) = _
  refine congrArg (V c main_v102) (funext fun a => Fin.ext ?_)
  match a with
  | ⟨0, _⟩ => show win5_1.index t (0 : Fin 2) * 1 + 1 * 0 = 0; rw [e2]
  | ⟨1, _⟩ => show win5_1.index t (1 : Fin 2) * 64 + 1 * e.val = e.val; rw [e3]; omega

/-- What point t writes back is block t of y plus b on every row (`addRow y b`) of the arrays as the region finds them. -/
theorem writeBack_eq (c : Dev nD) (t : Fin cfg5.N) :
    (dat5 (F := Ideal) V c).flushed 2 t
      = ((cfg5.win 2).blk t).view.read (Elt Ideal) (addRow (V c main_v101) (V c main_v102)) := by
  show (cfg5.win 2).cut (grid5.coords t) ((dat5 V c).after 2 t) = _
  rw [after5_2]
  unfold out5_2
  rw [View.canon_unit_zero zeroOffsets]
  simp only [View.ld_unit_zero (S := S5000x64) zeroOffsets, View.ld_unit_zero (S := S1x64) zeroOffsets]
  refine funext fun (j : S5000x64.Idx) => ?_
  obtain ⟨p, e, rfl⟩ : ∃ (p : Fin 5000) (e : Fin 64), j = ix2 p e := ⟨j 0, j 1, eq_ix2 j⟩
  have h : 5000 * t.val + p.val < 50000 := by
    have hN : grid5.N = 10 := N_5
    have ht : t.val < grid5.N := t.isLt
    have hp := p.isLt
    omega
  show k5_pay1 (iblk5 V c 0 t) (iblk5 V c 1 t) (ix2 p e)
    = addRow (V c main_v101) (V c main_v102) (((cfg5.win 2).blk t).view.emb (ix2 p e))
  refine (sumBody_apply (iblk5 V c 0 t) (iblk5 V c 1 t) p e).trans ?_
  refine Eq.trans ?_ (congrArg (addRow (V c main_v101) (V c main_v102)) (outBlock_entry t p e h)).symm
  rw [addRow_apply, inBlock_entry V c t p e h, rowBlock_entry V c t e]

/-- An index of the array is in output block t iff each coordinate is in the block's range on its axis. -/
theorem mem_outBlock (t : Fin cfg5.N) (i : S50000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v103).slice (win5_2.rect t)).set ↔ _
  rw [View.set_slice_whole, Rect.mem_set_unit]
  exact Iff.rfl

/-- Row r of the array is in the block of point r / 5000, which writes back: the ten blocks cover the array. -/
theorem rows_covered (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  have hN : grid5.N = 10 := N_5
  have ht : (i 0).val / 5000 < grid5.N := by rw [hN]; omega
  obtain ⟨-, -, -, -, e4, e5⟩ := blockIndices ⟨(i 0).val / 5000, ht⟩
  refine ⟨⟨(i 0).val / 5000, ht⟩, flush5_2 _, ?_⟩
  rw [mem_outBlock]
  intro a
  match a with
  | ⟨0, _⟩ =>
    show win5_2.index ⟨(i 0).val / 5000, ht⟩ (0 : Fin 2) * 5000 ≤ (i 0).val
      ∧ (i 0).val < win5_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, ht⟩ (1 : Fin 2) * 64 ≤ (i 1).val
      ∧ (i 1).val < win5_2.index ⟨(i 0).val / 5000, ht⟩ (1 : Fin 2) * 64 + 64
    rw [e5]; omega

end Cert.KernelIdeal.BiasRegion5

namespace Cert.KernelIdeal.RegionValue

open Idealize.ShloMosaic Idealize.ShloMosaic.TcCoe Idealize.SL.Sem Cert.KernelIdeal Cert.KernelIdeal.Gen Cert.HyperConv

variable (V : (c : Dev nD) → (b : Ref sig .tc) → Buf (Elt Ideal) ((c : Thread nD τ).loc b))

/-- After region 5 the result array holds y plus b on every row (`addRow y b`) of the arrays y and b as the region found them: every
    point writes back its block of that one function, and the blocks cover the array. -/
theorem region5_value (c : Dev nD) :
    (dat5 (F := Ideal) V c).arrAt 2 cfg5.N = addRow (V c main_v101) (V c main_v102) :=
  (dat5 (F := Ideal) V c).arrAt_eq_of_cover 2 _ (fun t _ => BiasRegion5.writeBack_eq V c t) BiasRegion5.rows_covered

end Cert.KernelIdeal.RegionValue

end
-- ==== Proof.KernelChain.lean ====
/-
  The kernel program's result as the specification's function of its arguments.

  The contents of the buffers at the fourteen segment boundaries of @main are walked from the launch to the return.
  Nine buffers stay live throughout — the two reciprocal-degree vectors computed before the first region, the two
  index vectors and the later layers' parameters — and no region or stretch in between writes them. Each product
  region leaves h · W (the host's product of its two input arrays), each stretch after one the two-step aggregation
  and the bias as a row, each of the other regions the sum with that row (rectified in the first two layers), and
  the last stretch the pooling: composed, the specification's `out`.
-/
import proofs.«108937_j41644002902694_1_alg».proof.Proof.Spec
import proofs.«108937_j41644002902694_1_alg».proof.Proof.KernelHost
import proofs.«108937_j41644002902694_1_alg».proof.Proof.Gen.KernelIdeal.Frame
import proofs.«108937_j41644002902694_1_alg».proof.Proof.MatmulRegion0
import proofs.«108937_j41644002902694_1_alg».proof.Proof.MatmulRegion2
import proofs.«108937_j41644002902694_1_alg».proof.Proof.MatmulRegion4
import proofs.«108937_j41644002902694_1_alg».proof.Proof.BiasRegion1
import proofs.«108937_j41644002902694_1_alg».proof.Proof.BiasRegion3
import proofs.«108937_j41644002902694_1_alg».proof.Proof.BiasRegion5

set_option maxRecDepth 16384

noncomputable section

namespace Cert.KernelIdeal.ChainValue

open Idealize.ShloMosaic Idealize.ShloMosaic.TcCoe Idealize.ShloMosaic.StableHlo Idealize.SL.Sem
open Cert.KernelIdeal Cert.KernelIdeal.Gen Cert.HyperConv Cert.KernelIdeal.HostValue Cert.KernelIdeal.RegionValue

variable (m : (ℓ : Loc nD τ sig) → Buf (Elt Ideal) ℓ) (ρ : Dev nD → PrngReg) (c : Dev nD)

/-! ## The buffers that stay live across the regions -/

/-- Two valuations agree on the buffers later segments still read: the two scale vectors, the two index vectors and the
    layers' parameters. -/
structure Same (X Y : Valuation τ sig (Elt Ideal)) : Prop where
  dv : X (Proc.devRef .tc main_v8) = Y (Proc.devRef .tc main_v8)
  bv : X (Proc.devRef .tc main_v16) = Y (Proc.devRef .tc main_v16)
  a1 : X (Proc.devRef .tc main_arg1) = Y (Proc.devRef .tc main_arg1)
  a2 : X (Proc.devRef .tc main_arg2) = Y (Proc.devRef .tc main_arg2)
  p4 : X (Proc.devRef .tc main_arg4) = Y (Proc.devRef .tc main_arg4)
  p5 : X (Proc.devRef .tc main_arg5) = Y (Proc.devRef .tc main_arg5)
  p6 : X (Proc.devRef .tc main_arg6) = Y (Proc.devRef .tc main_arg6)
  p7 : X (Proc.devRef .tc main_arg7) = Y (Proc.devRef .tc main_arg7)
  p8 : X (Proc.devRef .tc main_arg8) = Y (Proc.devRef .tc main_arg8)

theorem Same.trans {X Y Z : Valuation τ sig (Elt Ideal)} (h : Same X Y) (h' : Same Y Z) : Same X Z :=
  ⟨h.dv.trans h'.dv, h.bv.trans h'.bv, h.a1.trans h'.a1, h.a2.trans h'.a2, h.p4.trans h'.p4, h.p5.trans h'.p5,
    h.p6.trans h'.p6, h.p7.trans h'.p7, h.p8.trans h'.p8⟩

/-- Region 0 writes only its output array. -/
theorem same_5_4 : Same (W5 m ρ c) (W4 m ρ c) := by
  constructor <;> exact W5_of_ne m ρ c _ (by decide)

/-- The stretch after region 0 writes none of the live buffers. -/
theorem same_6_5 : Same (W6 m ρ c) (W5 m ρ c) := by
  constructor <;> exact after_of_forall_not_mem hostOps1 _ (by not_written)

/-- Region 1 writes only its output array. -/
theorem same_7_6 : Same (W7 m ρ c) (W6 m ρ c) := by
  constructor <;> exact W7_of_ne m ρ c _ (by decide)

/-- Region 2 writes only its output array; the second layer's weights are one of its inputs, left as found. -/
theorem same_8_7 : Same (W8 m ρ c) (W7 m ρ c) := by
  constructor <;> first
    | exact W8_of_ne m ρ c _ (by decide)
    | exact (W8_arr m ρ c 1).trans (((dat2 (V7 m ρ) c).arrAt_in 1 rfl _).trans (A_eq2 (V7 m ρ) c 1))

/-- The stretch after region 2 writes none of the live buffers. -/
theorem same_9_8 : Same (W9 m ρ c) (W8 m ρ c) := by
  constructor <;> exact after_of_forall_not_mem hostOps3 _ (by not_written)

/-- Region 3 writes only its output array. -/
theorem same_10_9 : Same (W10 m ρ c) (W9 m ρ c) := by
  constructor <;> exact W10_of_ne m ρ c _ (by decide)

/-- Region 4 writes only its output array; the third layer's weights are one of its inputs, left as found. -/
theorem same_11_10 : Same (W11 m ρ c) (W10 m ρ c) := by
  constructor <;> first
    | exact W11_of_ne m ρ c _ (by decide)
    | exact (W11_arr m ρ c 1).trans (((dat4 (V10 m ρ) c).arrAt_in 1 rfl _).trans (A_eq4 (V10 m ρ) c 1))

/-- The stretch after region 4 writes none of the live buffers. -/
theorem same_12_11 : Same (W12 m ρ c) (W11 m ρ c) := by
  constructor <;> exact after_of_forall_not_mem hostOps5 _ (by not_written)

/-- Region 5 writes only its output array. -/
theorem same_13_12 : Same (W13 m ρ c) (W12 m ρ c) := by
  constructor <;> exact W13_of_ne m ρ c _ (by decide)

/-- What the live buffers hold: the degree reciprocals of the launch index vectors, and the launch arguments. -/
structure Holds (X : Valuation τ sig (Elt Ideal)) : Prop where
  dv : X (Proc.devRef .tc main_v8) = dinv (m ((c : Thread nD τ).loc main_arg1))
  bv : X (Proc.devRef .tc main_v16) = binv (m ((c : Thread nD τ).loc main_arg2))
  a1 : X (Proc.devRef .tc main_arg1) = (m ((c : Thread nD τ).loc main_arg1))
  a2 : X (Proc.devRef .tc main_arg2) = (m ((c : Thread nD τ).loc main_arg2))
  p4 : X (Proc.devRef .tc main_arg4) = (m ((c : Thread nD τ).loc main_arg4))
  p5 : X (Proc.devRef .tc main_arg5) = (m ((c : Thread nD τ).loc main_arg5))
  p6 : X (Proc.devRef .tc main_arg6) = (m ((c : Thread nD τ).loc main_arg6))
  p7 : X (Proc.devRef .tc main_arg7) = (m ((c : Thread nD τ).loc main_arg7))
  p8 : X (Proc.devRef .tc main_arg8) = (m ((c : Thread nD τ).loc main_arg8))

theorem Holds.of_same {X Y : Valuation τ sig (Elt Ideal)} (h : Same X Y) (hY : Holds m c Y) : Holds m c X :=
  ⟨h.dv.trans hY.dv, h.bv.trans hY.bv, h.a1.trans hY.a1, h.a2.trans hY.a2, h.p4.trans hY.p4, h.p5.trans hY.p5,
    h.p6.trans hY.p6, h.p7.trans hY.p7, h.p8.trans hY.p8⟩

/-- When the first region is entered the live buffers hold the degree reciprocals and the launch arguments. -/
theorem holds_4 : Holds m c (W4 m ρ c) :=
  ⟨prelude_dinv (W0 m ρ c), prelude_binv (W0 m ρ c),
    prelude_keeps (W0 m ρ c) (by not_written) (by not_written) (by not_written) (by not_written),
    prelude_keeps (W0 m ρ c) (by not_written) (by not_written) (by not_written) (by not_written),
    prelude_keeps (W0 m ρ c) (by not_written) (by not_written) (by not_written) (by not_written),
    prelude_keeps (W0 m ρ c) (by not_written) (by not_written) (by not_written) (by not_written),
    prelude_keeps (W0 m ρ c) (by not_written) (by not_written) (by not_written) (by not_written),
    prelude_keeps (W0 m ρ c) (by not_written) (by not_written) (by not_written) (by not_written),
    prelude_keeps (W0 m ρ c) (by not_written) (by not_written) (by not_written) (by not_written)⟩

theorem holds_5 : Holds m c (W5 m ρ c) := (holds_4 m ρ c).of_same m c (same_5_4 m ρ c)
theorem holds_6 : Holds m c (W6 m ρ c) := (holds_5 m ρ c).of_same m c (same_6_5 m ρ c)
theorem holds_7 : Holds m c (W7 m ρ c) := (holds_6 m ρ c).of_same m c (same_7_6 m ρ c)
theorem holds_8 : Holds m c (W8 m ρ c) := (holds_7 m ρ c).of_same m c (same_8_7 m ρ c)
theorem holds_9 : Holds m c (W9 m ρ c) := (holds_8 m ρ c).of_same m c (same_9_8 m ρ c)
theorem holds_10 : Holds m c (W10 m ρ c) := (holds_9 m ρ c).of_same m c (same_10_9 m ρ c)
theorem holds_11 : Holds m c (W11 m ρ c) := (holds_10 m ρ c).of_same m c (same_11_10 m ρ c)
theorem holds_12 : Holds m c (W12 m ρ c) := (holds_11 m ρ c).of_same m c (same_12_11 m ρ c)
theorem holds_13 : Holds m c (W13 m ρ c) := (holds_12 m ρ c).of_same m c (same_13_12 m ρ c)

/-! ## The layers, boundary by boundary -/

/-- The first layer's input and weights are still the launch arguments when region 0 is entered. -/
theorem x_4 : W4 m ρ c (Proc.devRef .tc main_arg0) = (m ((c : Thread nD τ).loc main_arg0)) :=
  prelude_keeps (W0 m ρ c) (by not_written) (by not_written) (by not_written) (by not_written)
theorem w0_4 : W4 m ρ c (Proc.devRef .tc main_arg3) = (m ((c : Thread nD τ).loc main_arg3)) :=
  prelude_keeps (W0 m ρ c) (by not_written) (by not_written) (by not_written) (by not_written)

/-- Region 0 leaves x · W0. -/
theorem xw_5 : W5 m ρ c (Proc.devRef .tc main_v17) = proj (m ((c : Thread nD τ).loc main_arg0)) (m ((c : Thread nD τ).loc main_arg3)) :=
  (W5_arr m ρ c 2).trans ((region0_value (V4 m ρ) c).trans (congrArg₂ proj (x_4 m ρ c) (w0_4 m ρ c)))

/-- The stretch after region 0 leaves the first layer's aggregation and its bias row. -/
theorem agg_6 : W6 m ρ c (Proc.devRef .tc main_v43) = aggregate (dinv (m ((c : Thread nD τ).loc main_arg1))) (binv (m ((c : Thread nD τ).loc main_arg2))) (m ((c : Thread nD τ).loc main_arg1)) (m ((c : Thread nD τ).loc main_arg2)) (proj (m ((c : Thread nD τ).loc main_arg0)) (m ((c : Thread nD τ).loc main_arg3))) := by
  refine (aggregate_1 (W5 m ρ c)).trans ?_
  rw [(holds_5 m ρ c).dv, (holds_5 m ρ c).bv, (holds_5 m ρ c).a1, (holds_5 m ρ c).a2, xw_5 m ρ c]
theorem row_6 : W6 m ρ c (Proc.devRef .tc main_v44) = asRow (m ((c : Thread nD τ).loc main_arg4)) := by
  refine (row_1 (W5 m ρ c)).trans ?_
  rw [(holds_5 m ρ c).p4]

/-- Region 1 leaves the first layer's output. -/
theorem h1_7 : W7 m ρ c (Proc.devRef .tc main_v45)
    = leaky (conv (dinv (m ((c : Thread nD τ).loc main_arg1))) (binv (m ((c : Thread nD τ).loc main_arg2))) (m ((c : Thread nD τ).loc main_arg1)) (m ((c : Thread nD τ).loc main_arg2)) (m ((c : Thread nD τ).loc main_arg3)) (asRow (m ((c : Thread nD τ).loc main_arg4))) (m ((c : Thread nD τ).loc main_arg0))) :=
  (W7_arr m ρ c 2).trans ((region1_value (V6 m ρ) c).trans (congrArg leaky (congrArg₂ addRow (agg_6 m ρ c) (row_6 m ρ c))))

/-- Region 2 leaves the first layer's output times the second layer's weights. -/
theorem hw_8 : W8 m ρ c (Proc.devRef .tc main_v46)
    = proj (leaky (conv (dinv (m ((c : Thread nD τ).loc main_arg1))) (binv (m ((c : Thread nD τ).loc main_arg2))) (m ((c : Thread nD τ).loc main_arg1)) (m ((c : Thread nD τ).loc main_arg2)) (m ((c : Thread nD τ).loc main_arg3)) (asRow (m ((c : Thread nD τ).loc main_arg4))) (m ((c : Thread nD τ).loc main_arg0)))) (m ((c : Thread nD τ).loc main_arg5)) :=
  (W8_arr m ρ c 2).trans ((region2_value (V7 m ρ) c).trans (congrArg₂ proj (h1_7 m ρ c) (holds_7 m ρ c).p5))

/-- The stretch after region 2 leaves the second layer's aggregation and its bias row. -/
theorem agg_9 : W9 m ρ c (Proc.devRef .tc main_v72) = aggregate (dinv (m ((c : Thread nD τ).loc main_arg1))) (binv (m ((c : Thread nD τ).loc main_arg2))) (m ((c : Thread nD τ).loc main_arg1)) (m ((c : Thread nD τ).loc main_arg2))
    (proj (leaky (conv (dinv (m ((c : Thread nD τ).loc main_arg1))) (binv (m ((c : Thread nD τ).loc main_arg2))) (m ((c : Thread nD τ).loc main_arg1)) (m ((c : Thread nD τ).loc main_arg2)) (m ((c : Thread nD τ).loc main_arg3)) (asRow (m ((c : Thread nD τ).loc main_arg4))) (m ((c : Thread nD τ).loc main_arg0)))) (m ((c : Thread nD τ).loc main_arg5))) := by
  refine (aggregate_2 (W8 m ρ c)).trans ?_
  rw [(holds_8 m ρ c).dv, (holds_8 m ρ c).bv, (holds_8 m ρ c).a1, (holds_8 m ρ c).a2, hw_8 m ρ c]
theorem row_9 : W9 m ρ c (Proc.devRef .tc main_v73) = asRow (m ((c : Thread nD τ).loc main_arg6)) := by
  refine (row_2 (W8 m ρ c)).trans ?_
  rw [(holds_8 m ρ c).p6]

/-- Region 3 leaves the second layer's output. -/
theorem h2_10 : W10 m ρ c (Proc.devRef .tc main_v74)
    = leaky (conv (dinv (m ((c : Thread nD τ).loc main_arg1))) (binv (m ((c : Thread nD τ).loc main_arg2))) (m ((c : Thread nD τ).loc main_arg1)) (m ((c : Thread nD τ).loc main_arg2)) (m ((c : Thread nD τ).loc main_arg5)) (asRow (m ((c : Thread nD τ).loc main_arg6)))
        (leaky (conv (dinv (m ((c : Thread nD τ).loc main_arg1))) (binv (m ((c : Thread nD τ).loc main_arg2))) (m ((c : Thread nD τ).loc main_arg1)) (m ((c : Thread nD τ).loc main_arg2)) (m ((c : Thread nD τ).loc main_arg3)) (asRow (m ((c : Thread nD τ).loc main_arg4))) (m ((c : Thread nD τ).loc main_arg0))))) :=
  (W10_arr m ρ c 2).trans ((region3_value (V9 m ρ) c).trans (congrArg leaky (congrArg₂ addRow (agg_9 m ρ c) (row_9 m ρ c))))

/-- Region 4 leaves the second layer's output times the third layer's weights. -/
theorem hw_11 : W11 m ρ c (Proc.devRef .tc main_v75)
    = proj (leaky (conv (dinv (m ((c : Thread nD τ).loc main_arg1))) (binv (m ((c : Thread nD τ).loc main_arg2))) (m ((c : Thread nD τ).loc main_arg1)) (m ((c : Thread nD τ).loc main_arg2)) (m ((c : Thread nD τ).loc main_arg5)) (asRow (m ((c : Thread nD τ).loc main_arg6)))
        (leaky (conv (dinv (m ((c : Thread nD τ).loc main_arg1))) (binv (m ((c : Thread nD τ).loc main_arg2))) (m ((c : Thread nD τ).loc main_arg1)) (m ((c : Thread nD τ).loc main_arg2)) (m ((c : Thread nD τ).loc main_arg3)) (asRow (m ((c : Thread nD τ).loc main_arg4))) (m ((c : Thread nD τ).loc main_arg0)))))) (m ((c : Thread nD τ).loc main_arg7)) :=
  (W11_arr m ρ c 2).trans ((region4_value (V10 m ρ) c).trans (congrArg₂ proj (h2_10 m ρ c) (holds_10 m ρ c).p7))

/-- The stretch after region 4 leaves the third layer's aggregation and its bias row. -/
theorem agg_12 : W12 m ρ c (Proc.devRef .tc main_v101) = aggregate (dinv (m ((c : Thread nD τ).loc main_arg1))) (binv (m ((c : Thread nD τ).loc main_arg2))) (m ((c : Thread nD τ).loc main_arg1)) (m ((c : Thread nD τ).loc main_arg2))
    (proj (leaky (conv (dinv (m ((c : Thread nD τ).loc main_arg1))) (binv (m ((c : Thread nD τ).loc main_arg2))) (m ((c : Thread nD τ).loc main_arg1)) (m ((c : Thread nD τ).loc main_arg2)) (m ((c : Thread nD τ).loc main_arg5)) (asRow (m ((c : Thread nD τ).loc main_arg6)))
        (leaky (conv (dinv (m ((c : Thread nD τ).loc main_arg1))) (binv (m ((c : Thread nD τ).loc main_arg2))) (m ((c : Thread nD τ).loc main_arg1)) (m ((c : Thread nD τ).loc main_arg2)) (m ((c : Thread nD τ).loc main_arg3)) (asRow (m ((c : Thread nD τ).loc main_arg4))) (m ((c : Thread nD τ).loc main_arg0)))))) (m ((c : Thread nD τ).loc main_arg7))) := by
  refine (aggregate_3 (W11 m ρ c)).trans ?_
  rw [(holds_11 m ρ c).dv, (holds_11 m ρ c).bv, (holds_11 m ρ c).a1, (holds_11 m ρ c).a2, hw_11 m ρ c]
theorem row_12 : W12 m ρ c (Proc.devRef .tc main_v102) = asRow (m ((c : Thread nD τ).loc main_arg8)) := by
  refine (row_3 (W11 m ρ c)).trans ?_
  rw [(holds_11 m ρ c).p8]

/-- Region 5 leaves the third layer's output (no rectifier). -/
theorem h3_13 : W13 m ρ c (Proc.devRef .tc main_v103)
    = conv (dinv (m ((c : Thread nD τ).loc main_arg1))) (binv (m ((c : Thread nD τ).loc main_arg2))) (m ((c : Thread nD τ).loc main_arg1)) (m ((c : Thread nD τ).loc main_arg2)) (m ((c : Thread nD τ).loc main_arg7)) (asRow (m ((c : Thread nD τ).loc main_arg8)))
        (leaky (conv (dinv (m ((c : Thread nD τ).loc main_arg1))) (binv (m ((c : Thread nD τ).loc main_arg2))) (m ((c : Thread nD τ).loc main_arg1)) (m ((c : Thread nD τ).loc main_arg2)) (m ((c : Thread nD τ).loc main_arg5)) (asRow (m ((c : Thread nD τ).loc main_arg6)))
          (leaky (conv (dinv (m ((c : Thread nD τ).loc main_arg1))) (binv (m ((c : Thread nD τ).loc main_arg2))) (m ((c : Thread nD τ).loc main_arg1)) (m ((c : Thread nD τ).loc main_arg2)) (m ((c : Thread nD τ).loc main_arg3)) (asRow (m ((c : Thread nD τ).loc main_arg4))) (m ((c : Thread nD τ).loc main_arg0)))))) :=
  (W13_arr m ρ c 2).trans ((region5_value (V12 m ρ) c).trans (congrArg₂ addRow (agg_12 m ρ c) (row_12 m ρ c)))

/-- THE RESULT: the last stretch pools the third layer's output, which is the specification's function of the nine
    launch arguments. -/
theorem result : W14 m ρ c (Proc.devRef .tc main_v113)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (pooled (W13 m ρ c)).trans ?_
  rw [(holds_13 m ρ c).a1, (holds_13 m ρ c).a2, h3_13 m ρ c]
  rfl

end Cert.KernelIdeal.ChainValue

end
-- ==== Proof.RefOps.lean ====
/-
  The reference program's @main as a list of host operations, and its run.

  @main is 204 statements in four windows; eight of them call a module-local function (three calls of @_where,
  three of @_where_0, two of @leaky_relu, which itself calls @_where_1). With every call listed inline over that
  call's own buffers the four windows are 64, 70, 70 and 23 operations, 227 in all. This module states the four
  lists, proves each window equal to the straight line of its list and @main equal to the straight line of their
  concatenation, and concludes that every weakly fair execution of @main terminates with each buffer at the fold of
  the operations' results over the launch contents.
-/
import proofs.«108937_j41644002902694_1_alg».proof.Proof.Gen.ReferenceIdeal
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F]

/-- The 64 host operations of @main's window 0, in order, each call listed inline over its record's buffers. -/
abbrev ops0 : List (HloOp τ sig (Elt F)) :=
  [ StableHlo.binary main_arg0 main_arg3 main_v0 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_cst (constant S_ .f32 0x3F800000#32),
    StableHlo.unary main_cst main_v1 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v2 (broadcastInDim S50000 ![] bcast_S_S50000 : (⟨S_, .f32⟩ : BufTy).Contents (Elt F) → (⟨S50000, .f32⟩ : BufTy).Contents (Elt F)),
    StableHlo.unary main_arg1 main_v3 (broadcastInDim S800000x1 ![0] bcast_S800000_S800000x1_0 : (⟨S800000, .i32⟩ : BufTy).Contents (Elt F) → (⟨S800000x1, .i32⟩ : BufTy).Contents (Elt F)),
    StableHlo.ternary main_v2 main_v3 main_v1 main_v4 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x00000000#32),
    StableHlo.unary main_cst_1 main_v5 (broadcastInDim S50000 ![] bcast_S_S50000 : (⟨S_, .f32⟩ : BufTy).Contents (Elt F) → (⟨S50000, .f32⟩ : BufTy).Contents (Elt F)),
    StableHlo.binary main_v4 main_v5 main_v6 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v7 (broadcastInDim S50000 ![] bcast_S_S50000 : (⟨S_, .f32⟩ : BufTy).Contents (Elt F) → (⟨S50000, .f32⟩ : BufTy).Contents (Elt F)),
    StableHlo.binary main_v7 main_v4 main_v8 (Host.divf : (⟨S50000, .f32⟩ : BufTy).Contents (Elt F) → (⟨S50000, .f32⟩ : BufTy).Contents (Elt F) → (⟨S50000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v6 : StableHlo.TRef sig ⟨S50000, .i1⟩) (.of main_v8 : StableHlo.TRef sig ⟨S50000, .f32⟩) (.of main_call0_v1 : StableHlo.TRef sig ⟨S50000, .f32⟩) (.of main_v9 : StableHlo.TRef sig ⟨S50000, .f32⟩) select,
    StableHlo.nullary main_cst_4 (constant S_ .f32 0x00000000#32),
    StableHlo.unary main_cst_4 main_v10 (broadcastInDim S10000 ![] bcast_S_S10000 : (⟨S_, .f32⟩ : BufTy).Contents (Elt F) → (⟨S10000, .f32⟩ : BufTy).Contents (Elt F)),
    StableHlo.unary main_arg2 main_v11 (broadcastInDim S800000x1 ![0] bcast_S800000_S800000x1_0 : (⟨S800000, .i32⟩ : BufTy).Contents (Elt F) → (⟨S800000x1, .i32⟩ : BufTy).Contents (Elt F)),
    StableHlo.ternary main_v10 main_v11 main_v1 main_v12 ((fun x i u => Host.scatterAdd scatter_S10000_S800000x1_S800000_n_0_0_1 x i u) : (⟨S10000, .f32⟩ : BufTy).Contents (Elt F) → (⟨S800000x1, .i32⟩ : BufTy).Contents (Elt F) → (⟨S800000, .f32⟩ : BufTy).Contents (Elt F) → (⟨S10000, .f32⟩ : BufTy).Contents (Elt F)),
    StableHlo.nullary main_cst_5 (constant S_ .f32 0x00000000#32),
    StableHlo.unary main_cst_5 main_v13 (broadcastInDim S10000 ![] bcast_S_S10000 : (⟨S_, .f32⟩ : BufTy).Contents (Elt F) → (⟨S10000, .f32⟩ : BufTy).Contents (Elt F)),
    StableHlo.binary main_v12 main_v13 main_v14 (cmpf .ogt : (⟨S10000, .f32⟩ : BufTy).Contents (Elt F) → (⟨S10000, .f32⟩ : BufTy).Contents (Elt F) → (⟨S10000, .i1⟩ : BufTy).Contents (Elt F)),
    StableHlo.nullary main_cst_6 (constant S_ .f32 0x3F800000#32),
    StableHlo.unary main_cst_6 main_v15 (broadcastInDim S10000 ![] bcast_S_S10000 : (⟨S_, .f32⟩ : BufTy).Contents (Elt F) → (⟨S10000, .f32⟩ : BufTy).Contents (Elt F)),
    StableHlo.binary main_v15 main_v12 main_v16 (Host.divf : (⟨S10000, .f32⟩ : BufTy).Contents (Elt F) → (⟨S10000, .f32⟩ : BufTy).Contents (Elt F) → (⟨S10000, .f32⟩ : BufTy).Contents (Elt F)),
    StableHlo.nullary main_cst_7 (constant S_ .f32 0x00000000#32),
    StableHlo.TRef.unary (.of main_cst_7 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S10000, .f32⟩) (broadcastInDim S10000 ![] bcast_S_S10000),
    StableHlo.TRef.ternary (.of main_v14 : StableHlo.TRef sig ⟨S10000, .i1⟩) (.of main_v16 : StableHlo.TRef sig ⟨S10000, .f32⟩) (.of main_call1_v1 : StableHlo.TRef sig ⟨S10000, .f32⟩) (.of main_v17 : StableHlo.TRef sig ⟨S10000, .f32⟩) select,
    StableHlo.unary main_v17 main_v18 (broadcastInDim S10000x1 ![0] bcast_S10000_S10000x1_0 : (⟨S10000, .f32⟩ : BufTy).Contents (Elt F) → (⟨S10000x1, .f32⟩ : BufTy).Contents (Elt F)),
    StableHlo.nullary main_c (constantI S_ 32 0#32),
    StableHlo.unary main_c main_v19 (broadcastInDim S800000 ![] bcast_S_S800000 : (⟨S_, .i32⟩ : BufTy).Contents (Elt F) → (⟨S800000, .i32⟩ : BufTy).Contents (Elt F)),
    StableHlo.binary main_arg1 main_v19 main_v20 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v21 (broadcastInDim S800000 ![] bcast_S_S800000 : (⟨S_, .i32⟩ : BufTy).Contents (Elt F) → (⟨S800000, .i32⟩ : BufTy).Contents (Elt F)),
    StableHlo.binary main_arg1 main_v21 main_v22 (addi : (⟨S800000, .i32⟩ : BufTy).Contents (Elt F) → (⟨S800000, .i32⟩ : BufTy).Contents (Elt F) → (⟨S800000, .i32⟩ : BufTy).Contents (Elt F)),
    StableHlo.ternary main_v20 main_v22 main_arg1 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v23 main_v24 (broadcastInDim S800000x1 ![0] bcast_S800000_S800000x1_0 : (⟨S800000, .i32⟩ : BufTy).Contents (Elt F) → (⟨S800000x1, .i32⟩ : BufTy).Contents (Elt F)),
    StableHlo.binary main_v0 main_v24 main_v25 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_9 (constant S_ .f32 0x00000000#32),
    StableHlo.unary main_cst_9 main_v26 (broadcastInDim S10000x64 ![] bcast_S_S10000x64 : (⟨S_, .f32⟩ : BufTy).Contents (Elt F) → (⟨S10000x64, .f32⟩ : BufTy).Contents (Elt F)),
    StableHlo.unary main_arg2 main_v27 (broadcastInDim S800000x1 ![0] bcast_S800000_S800000x1_0 : (⟨S800000, .i32⟩ : BufTy).Contents (Elt F) → (⟨S800000x1, .i32⟩ : BufTy).Contents (Elt F)),
    StableHlo.ternary main_v26 main_v27 main_v25 main_v28 ((fun x i u => Host.scatterAdd scatter_S10000x64_S800000x1_S800000x64_1_0_0_1 x i u) : (⟨S10000x64, .f32⟩ : BufTy).Contents (Elt F) → (⟨S800000x1, .i32⟩ : BufTy).Contents (Elt F) → (⟨S800000x64, .f32⟩ : BufTy).Contents (Elt F) → (⟨S10000x64, .f32⟩ : BufTy).Contents (Elt F)),
    StableHlo.unary main_v18 main_v29 (broadcastInDim S10000x64 ![0, 1] bcast_S10000x1_S10000x64_0_1 : (⟨S10000x1, .f32⟩ : BufTy).Contents (Elt F) → (⟨S10000x64, .f32⟩ : BufTy).Contents (Elt F)),
    StableHlo.binary main_v29 main_v28 main_v30 (mulf : (⟨S10000x64, .f32⟩ : BufTy).Contents (Elt F) → (⟨S10000x64, .f32⟩ : BufTy).Contents (Elt F) → (⟨S10000x64, .f32⟩ : BufTy).Contents (Elt F)),
    StableHlo.unary main_v9 main_v31 (broadcastInDim S50000x1 ![0] bcast_S50000_S50000x1_0 : (⟨S50000, .f32⟩ : BufTy).Contents (Elt F) → (⟨S50000x1, .f32⟩ : BufTy).Contents (Elt F)),
    StableHlo.nullary main_c_10 (constantI S_ 32 0#32),
    StableHlo.unary main_c_10 main_v32 (broadcastInDim S800000 ![] bcast_S_S800000 : (⟨S_, .i32⟩ : BufTy).Contents (Elt F) → (⟨S800000, .i32⟩ : BufTy).Contents (Elt F)),
    StableHlo.binary main_arg2 main_v32 main_v33 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 10000#32),
    StableHlo.unary main_c_11 main_v34 (broadcastInDim S800000 ![] bcast_S_S800000 : (⟨S_, .i32⟩ : BufTy).Contents (Elt F) → (⟨S800000, .i32⟩ : BufTy).Contents (Elt F)),
    StableHlo.binary main_arg2 main_v34 main_v35 (addi : (⟨S800000, .i32⟩ : BufTy).Contents (Elt F) → (⟨S800000, .i32⟩ : BufTy).Contents (Elt F) → (⟨S800000, .i32⟩ : BufTy).Contents (Elt F)),
    StableHlo.ternary main_v33 main_v35 main_arg2 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v36 main_v37 (broadcastInDim S800000x1 ![0] bcast_S800000_S800000x1_0 : (⟨S800000, .i32⟩ : BufTy).Contents (Elt F) → (⟨S800000x1, .i32⟩ : BufTy).Contents (Elt F)),
    StableHlo.binary main_v30 main_v37 main_v38 ((fun x i => Host.gather gather_S10000x64_S800000x1_S800000x64_1_0_n_n_0_1_164 x i) : (⟨S10000x64, .f32⟩ : BufTy).Contents (Elt F) → (⟨S800000x1, .i32⟩ : BufTy).Contents (Elt F) → (⟨S800000x64, .f32⟩ : BufTy).Contents (Elt F)),
    StableHlo.nullary main_cst_12 (constant S_ .f32 0x00000000#32),
    StableHlo.unary main_cst_12 main_v39 (broadcastInDim S50000x64 ![] bcast_S_S50000x64 : (⟨S_, .f32⟩ : BufTy).Contents (Elt F) → (⟨S50000x64, .f32⟩ : BufTy).Contents (Elt F)),
    StableHlo.unary main_arg1 main_v40 (broadcastInDim S800000x1 ![0] bcast_S800000_S800000x1_0 : (⟨S800000, .i32⟩ : BufTy).Contents (Elt F) → (⟨S800000x1, .i32⟩ : BufTy).Contents (Elt F)),
    StableHlo.ternary main_v39 main_v40 main_v38 main_v41 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.unary main_v31 main_v42 (broadcastInDim S50000x64 ![0, 1] bcast_S50000x1_S50000x64_0_1 : (⟨S50000x1, .f32⟩ : BufTy).Contents (Elt F) → (⟨S50000x64, .f32⟩ : BufTy).Contents (Elt F)),
    StableHlo.binary main_v42 main_v41 main_v43 (mulf : (⟨S50000x64, .f32⟩ : BufTy).Contents (Elt F) → (⟨S50000x64, .f32⟩ : BufTy).Contents (Elt F) → (⟨S50000x64, .f32⟩ : BufTy).Contents (Elt F)),
    StableHlo.unary main_arg4 main_v44 (broadcastInDim S1x64 ![1] bcast_S64_S1x64_1 : (⟨S64, .f32⟩ : BufTy).Contents (Elt F) → (⟨S1x64, .f32⟩ : BufTy).Contents (Elt F)) ]

/-- The 70 host operations of @main's window 1, in order, each call listed inline over its record's buffers. -/
abbrev ops1 : List (HloOp τ sig (Elt F)) :=
  [ StableHlo.unary main_v44 main_v45 (broadcastInDim S50000x64 ![0, 1] bcast_S1x64_S50000x64_0_1 : (⟨S1x64, .f32⟩ : BufTy).Contents (Elt F) → (⟨S50000x64, .f32⟩ : BufTy).Contents (Elt F)),
    StableHlo.binary main_v43 main_v45 main_v46 (addf : (⟨S50000x64, .f32⟩ : BufTy).Contents (Elt F) → (⟨S50000x64, .f32⟩ : BufTy).Contents (Elt F) → (⟨S50000x64, .f32⟩ : BufTy).Contents (Elt F)),
    StableHlo.nullary main_cst_13 (constant S_ .f32 0x3C23D70A#32),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x64, .f32⟩) (broadcastInDim S50000x64 ![] bcast_S_S50000x64),
    StableHlo.TRef.binary (.of main_v46 : StableHlo.TRef sig ⟨S50000x64, .f32⟩) (.of main_call2_v0 : StableHlo.TRef sig ⟨S50000x64, .f32⟩) (.of main_call2_v1 : StableHlo.TRef sig ⟨S50000x64, .i1⟩) (cmpf .oge),
    StableHlo.TRef.unary (.of main_cst_13 : StableHlo.TRef sig ⟨S_, .f32⟩) (.of main_call2_v2 : StableHlo.TRef sig ⟨S_, .f32⟩) id,
    StableHlo.TRef.unary (.of main_call2_v2 : StableHlo.TRef sig ⟨S_, .f32⟩) (.of main_call2_v3 : StableHlo.TRef sig ⟨S50000x64, .f32⟩) (broadcastInDim S50000x64 ![] bcast_S_S50000x64),
    StableHlo.TRef.binary (.of main_call2_v3 : StableHlo.TRef sig ⟨S50000x64, .f32⟩) (.of main_v46 : StableHlo.TRef sig ⟨S50000x64, .f32⟩) (.of main_call2_v4 : StableHlo.TRef sig ⟨S50000x64, .f32⟩) mulf,
    StableHlo.TRef.ternary (.of main_call2_v1 : StableHlo.TRef sig ⟨S50000x64, .i1⟩) (.of main_v46 : StableHlo.TRef sig ⟨S50000x64, .f32⟩) (.of main_call2_v4 : StableHlo.TRef sig ⟨S50000x64, .f32⟩) (.of main_v47 : StableHlo.TRef sig ⟨S50000x64, .f32⟩) select,
    StableHlo.binary main_v47 main_arg5 main_v48 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_cst_14 (constant S_ .f32 0x3F800000#32),
    StableHlo.unary main_cst_14 main_v49 (broadcastInDim S800000 ![] bcast_S_S800000 : (⟨S_, .f32⟩ : BufTy).Contents (Elt F) → (⟨S800000, .f32⟩ : BufTy).Contents (Elt F)),
    StableHlo.nullary main_cst_15 (constant S_ .f32 0x00000000#32),
    StableHlo.unary main_cst_15 main_v50 (broadcastInDim S50000 ![] bcast_S_S50000 : (⟨S_, .f32⟩ : BufTy).Contents (Elt F) → (⟨S50000, .f32⟩ : BufTy).Contents (Elt F)),
    StableHlo.unary main_arg1 main_v51 (broadcastInDim S800000x1 ![0] bcast_S800000_S800000x1_0 : (⟨S800000, .i32⟩ : BufTy).Contents (Elt F) → (⟨S800000x1, .i32⟩ : BufTy).Contents (Elt F)),
    StableHlo.ternary main_v50 main_v51 main_v49 main_v52 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_16 (constant S_ .f32 0x00000000#32),
    StableHlo.unary main_cst_16 main_v53 (broadcastInDim S50000 ![] bcast_S_S50000 : (⟨S_, .f32⟩ : BufTy).Contents (Elt F) → (⟨S50000, .f32⟩ : BufTy).Contents (Elt F)),
    StableHlo.binary main_v52 main_v53 main_v54 (cmpf .ogt : (⟨S50000, .f32⟩ : BufTy).Contents (Elt F) → (⟨S50000, .f32⟩ : BufTy).Contents (Elt F) → (⟨S50000, .i1⟩ : BufTy).Contents (Elt F)),
    StableHlo.nullary main_cst_17 (constant S_ .f32 0x3F800000#32),
    StableHlo.unary main_cst_17 main_v55 (broadcastInDim S50000 ![] bcast_S_S50000 : (⟨S_, .f32⟩ : BufTy).Contents (Elt F) → (⟨S50000, .f32⟩ : BufTy).Contents (Elt F)),
    StableHlo.binary main_v55 main_v52 main_v56 (Host.divf : (⟨S50000, .f32⟩ : BufTy).Contents (Elt F) → (⟨S50000, .f32⟩ : BufTy).Contents (Elt F) → (⟨S50000, .f32⟩ : BufTy).Contents (Elt F)),
    StableHlo.nullary main_cst_18 (constant S_ .f32 0x00000000#32),
    StableHlo.TRef.unary (.of main_cst_18 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S50000, .f32⟩) (broadcastInDim S50000 ![] bcast_S_S50000),
    StableHlo.TRef.ternary (.of main_v54 : StableHlo.TRef sig ⟨S50000, .i1⟩) (.of main_v56 : StableHlo.TRef sig ⟨S50000, .f32⟩) (.of main_call3_v1 : StableHlo.TRef sig ⟨S50000, .f32⟩) (.of main_v57 : StableHlo.TRef sig ⟨S50000, .f32⟩) select,
    StableHlo.nullary main_cst_19 (constant S_ .f32 0x00000000#32),
    StableHlo.unary main_cst_19 main_v58 (broadcastInDim S10000 ![] bcast_S_S10000 : (⟨S_, .f32⟩ : BufTy).Contents (Elt F) → (⟨S10000, .f32⟩ : BufTy).Contents (Elt F)),
    StableHlo.unary main_arg2 main_v59 (broadcastInDim S800000x1 ![0] bcast_S800000_S800000x1_0 : (⟨S800000, .i32⟩ : BufTy).Contents (Elt F) → (⟨S800000x1, .i32⟩ : BufTy).Contents (Elt F)),
    StableHlo.ternary main_v58 main_v59 main_v49 main_v60 ((fun x i u => Host.scatterAdd scatter_S10000_S800000x1_S800000_n_0_0_1 x i u) : (⟨S10000, .f32⟩ : BufTy).Contents (Elt F) → (⟨S800000x1, .i32⟩ : BufTy).Contents (Elt F) → (⟨S800000, .f32⟩ : BufTy).Contents (Elt F) → (⟨S10000, .f32⟩ : BufTy).Contents (Elt F)),
    StableHlo.nullary main_cst_20 (constant S_ .f32 0x00000000#32),
    StableHlo.unary main_cst_20 main_v61 (broadcastInDim S10000 ![] bcast_S_S10000 : (⟨S_, .f32⟩ : BufTy).Contents (Elt F) → (⟨S10000, .f32⟩ : BufTy).Contents (Elt F)),
    StableHlo.binary main_v60 main_v61 main_v62 (cmpf .ogt : (⟨S10000, .f32⟩ : BufTy).Contents (Elt F) → (⟨S10000, .f32⟩ : BufTy).Contents (Elt F) → (⟨S10000, .i1⟩ : BufTy).Contents (Elt F)),
    StableHlo.nullary main_cst_21 (constant S_ .f32 0x3F800000#32),
    StableHlo.unary main_cst_21 main_v63 (broadcastInDim S10000 ![] bcast_S_S10000 : (⟨S_, .f32⟩ : BufTy).Contents (Elt F) → (⟨S10000, .f32⟩ : BufTy).Contents (Elt F)),
    StableHlo.binary main_v63 main_v60 main_v64 (Host.divf : (⟨S10000, .f32⟩ : BufTy).Contents (Elt F) → (⟨S10000, .f32⟩ : BufTy).Contents (Elt F) → (⟨S10000, .f32⟩ : BufTy).Contents (Elt F)),
    StableHlo.nullary main_cst_22 (constant S_ .f32 0x00000000#32),
    StableHlo.TRef.unary (.of main_cst_22 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S10000, .f32⟩) (broadcastInDim S10000 ![] bcast_S_S10000),
    StableHlo.TRef.ternary (.of main_v62 : StableHlo.TRef sig ⟨S10000, .i1⟩) (.of main_v64 : StableHlo.TRef sig ⟨S10000, .f32⟩) (.of main_call4_v1 : StableHlo.TRef sig ⟨S10000, .f32⟩) (.of main_v65 : StableHlo.TRef sig ⟨S10000, .f32⟩) select,
    StableHlo.unary main_v65 main_v66 (broadcastInDim S10000x1 ![0] bcast_S10000_S10000x1_0 : (⟨S10000, .f32⟩ : BufTy).Contents (Elt F) → (⟨S10000x1, .f32⟩ : BufTy).Contents (Elt F)),
    StableHlo.nullary main_c_23 (constantI S_ 32 0#32),
    StableHlo.unary main_c_23 main_v67 (broadcastInDim S800000 ![] bcast_S_S800000 : (⟨S_, .i32⟩ : BufTy).Contents (Elt F) → (⟨S800000, .i32⟩ : BufTy).Contents (Elt F)),
    StableHlo.binary main_arg1 main_v67 main_v68 (cmpi .slt : (⟨S800000, .i32⟩ : BufTy).Contents (Elt F) → (⟨S800000, .i32⟩ : BufTy).Contents (Elt F) → (⟨S800000, .i1⟩ : BufTy).Contents (Elt F)),
    StableHlo.nullary main_c_24 (constantI S_ 32 50000#32),
    StableHlo.unary main_c_24 main_v69 (broadcastInDim S800000 ![] bcast_S_S800000 : (⟨S_, .i32⟩ : BufTy).Contents (Elt F) → (⟨S800000, .i32⟩ : BufTy).Contents (Elt F)),
    StableHlo.binary main_arg1 main_v69 main_v70 (addi : (⟨S800000, .i32⟩ : BufTy).Contents (Elt F) → (⟨S800000, .i32⟩ : BufTy).Contents (Elt F) → (⟨S800000, .i32⟩ : BufTy).Contents (Elt F)),
    StableHlo.ternary main_v68 main_v70 main_arg1 main_v71 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v71 main_v72 (broadcastInDim S800000x1 ![0] bcast_S800000_S800000x1_0 : (⟨S800000, .i32⟩ : BufTy).Contents (Elt F) → (⟨S800000x1, .i32⟩ : BufTy).Contents (Elt F)),
    StableHlo.binary main_v48 main_v72 main_v73 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_25 (constant S_ .f32 0x00000000#32),
    StableHlo.unary main_cst_25 main_v74 (broadcastInDim S10000x64 ![] bcast_S_S10000x64 : (⟨S_, .f32⟩ : BufTy).Contents (Elt F) → (⟨S10000x64, .f32⟩ : BufTy).Contents (Elt F)),
    StableHlo.unary main_arg2 main_v75 (broadcastInDim S800000x1 ![0] bcast_S800000_S800000x1_0 : (⟨S800000, .i32⟩ : BufTy).Contents (Elt F) → (⟨S800000x1, .i32⟩ : BufTy).Contents (Elt F)),
    StableHlo.ternary main_v74 main_v75 main_v73 main_v76 ((fun x i u => Host.scatterAdd scatter_S10000x64_S800000x1_S800000x64_1_0_0_1 x i u) : (⟨S10000x64, .f32⟩ : BufTy).Contents (Elt F) → (⟨S800000x1, .i32⟩ : BufTy).Contents (Elt F) → (⟨S800000x64, .f32⟩ : BufTy).Contents (Elt F) → (⟨S10000x64, .f32⟩ : BufTy).Contents (Elt F)),
    StableHlo.unary main_v66 main_v77 (broadcastInDim S10000x64 ![0, 1] bcast_S10000x1_S10000x64_0_1 : (⟨S10000x1, .f32⟩ : BufTy).Contents (Elt F) → (⟨S10000x64, .f32⟩ : BufTy).Contents (Elt F)),
    StableHlo.binary main_v77 main_v76 main_v78 (mulf : (⟨S10000x64, .f32⟩ : BufTy).Contents (Elt F) → (⟨S10000x64, .f32⟩ : BufTy).Contents (Elt F) → (⟨S10000x64, .f32⟩ : BufTy).Contents (Elt F)),
    StableHlo.unary main_v57 main_v79 (broadcastInDim S50000x1 ![0] bcast_S50000_S50000x1_0 : (⟨S50000, .f32⟩ : BufTy).Contents (Elt F) → (⟨S50000x1, .f32⟩ : BufTy).Contents (Elt F)),
    StableHlo.nullary main_c_26 (constantI S_ 32 0#32),
    StableHlo.unary main_c_26 main_v80 (broadcastInDim S800000 ![] bcast_S_S800000 : (⟨S_, .i32⟩ : BufTy).Contents (Elt F) → (⟨S800000, .i32⟩ : BufTy).Contents (Elt F)),
    StableHlo.binary main_arg2 main_v80 main_v81 (cmpi .slt : (⟨S800000, .i32⟩ : BufTy).Contents (Elt F) → (⟨S800000, .i32⟩ : BufTy).Contents (Elt F) → (⟨S800000, .i1⟩ : BufTy).Contents (Elt F)),
    StableHlo.nullary main_c_27 (constantI S_ 32 10000#32),
    StableHlo.unary main_c_27 main_v82 (broadcastInDim S800000 ![] bcast_S_S800000 : (⟨S_, .i32⟩ : BufTy).Contents (Elt F) → (⟨S800000, .i32⟩ : BufTy).Contents (Elt F)),
    StableHlo.binary main_arg2 main_v82 main_v83 (addi : (⟨S800000, .i32⟩ : BufTy).Contents (Elt F) → (⟨S800000, .i32⟩ : BufTy).Contents (Elt F) → (⟨S800000, .i32⟩ : BufTy).Contents (Elt F)),
    StableHlo.ternary main_v81 main_v83 main_arg2 main_v84 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v84 main_v85 (broadcastInDim S800000x1 ![0] bcast_S800000_S800000x1_0 : (⟨S800000, .i32⟩ : BufTy).Contents (Elt F) → (⟨S800000x1, .i32⟩ : BufTy).Contents (Elt F)),
    StableHlo.binary main_v78 main_v85 main_v86 ((fun x i => Host.gather gather_S10000x64_S800000x1_S800000x64_1_0_n_n_0_1_164 x i) : (⟨S10000x64, .f32⟩ : BufTy).Contents (Elt F) → (⟨S800000x1, .i32⟩ : BufTy).Contents (Elt F) → (⟨S800000x64, .f32⟩ : BufTy).Contents (Elt F)),
    StableHlo.nullary main_cst_28 (constant S_ .f32 0x00000000#32),
    StableHlo.unary main_cst_28 main_v87 (broadcastInDim S50000x64 ![] bcast_S_S50000x64 : (⟨S_, .f32⟩ : BufTy).Contents (Elt F) → (⟨S50000x64, .f32⟩ : BufTy).Contents (Elt F)),
    StableHlo.unary main_arg1 main_v88 (broadcastInDim S800000x1 ![0] bcast_S800000_S800000x1_0 : (⟨S800000, .i32⟩ : BufTy).Contents (Elt F) → (⟨S800000x1, .i32⟩ : BufTy).Contents (Elt F)) ]

/-- The 70 host operations of @main's window 2, in order, each call listed inline over its record's buffers. -/
abbrev ops2 : List (HloOp τ sig (Elt F)) :=
  [ StableHlo.ternary main_v87 main_v88 main_v86 main_v89 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.unary main_v79 main_v90 (broadcastInDim S50000x64 ![0, 1] bcast_S50000x1_S50000x64_0_1 : (⟨S50000x1, .f32⟩ : BufTy).Contents (Elt F) → (⟨S50000x64, .f32⟩ : BufTy).Contents (Elt F)),
    StableHlo.binary main_v90 main_v89 main_v91 (mulf : (⟨S50000x64, .f32⟩ : BufTy).Contents (Elt F) → (⟨S50000x64, .f32⟩ : BufTy).Contents (Elt F) → (⟨S50000x64, .f32⟩ : BufTy).Contents (Elt F)),
    StableHlo.unary main_arg6 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S50000x64 ![0, 1] bcast_S1x64_S50000x64_0_1 : (⟨S1x64, .f32⟩ : BufTy).Contents (Elt F) → (⟨S50000x64, .f32⟩ : BufTy).Contents (Elt F)),
    StableHlo.binary main_v91 main_v93 main_v94 (addf : (⟨S50000x64, .f32⟩ : BufTy).Contents (Elt F) → (⟨S50000x64, .f32⟩ : BufTy).Contents (Elt F) → (⟨S50000x64, .f32⟩ : BufTy).Contents (Elt F)),
    StableHlo.nullary main_cst_29 (constant S_ .f32 0x3C23D70A#32),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S50000x64, .f32⟩) (broadcastInDim S50000x64 ![] bcast_S_S50000x64),
    StableHlo.TRef.binary (.of main_v94 : StableHlo.TRef sig ⟨S50000x64, .f32⟩) (.of main_call5_v0 : StableHlo.TRef sig ⟨S50000x64, .f32⟩) (.of main_call5_v1 : StableHlo.TRef sig ⟨S50000x64, .i1⟩) (cmpf .oge),
    StableHlo.TRef.unary (.of main_cst_29 : StableHlo.TRef sig ⟨S_, .f32⟩) (.of main_call5_v2 : StableHlo.TRef sig ⟨S_, .f32⟩) id,
    StableHlo.TRef.unary (.of main_call5_v2 : StableHlo.TRef sig ⟨S_, .f32⟩) (.of main_call5_v3 : StableHlo.TRef sig ⟨S50000x64, .f32⟩) (broadcastInDim S50000x64 ![] bcast_S_S50000x64),
    StableHlo.TRef.binary (.of main_call5_v3 : StableHlo.TRef sig ⟨S50000x64, .f32⟩) (.of main_v94 : StableHlo.TRef sig ⟨S50000x64, .f32⟩) (.of main_call5_v4 : StableHlo.TRef sig ⟨S50000x64, .f32⟩) mulf,
    StableHlo.TRef.ternary (.of main_call5_v1 : StableHlo.TRef sig ⟨S50000x64, .i1⟩) (.of main_v94 : StableHlo.TRef sig ⟨S50000x64, .f32⟩) (.of main_call5_v4 : StableHlo.TRef sig ⟨S50000x64, .f32⟩) (.of main_v95 : StableHlo.TRef sig ⟨S50000x64, .f32⟩) select,
    StableHlo.binary main_v95 main_arg7 main_v96 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_cst_30 (constant S_ .f32 0x3F800000#32),
    StableHlo.unary main_cst_30 main_v97 (broadcastInDim S800000 ![] bcast_S_S800000 : (⟨S_, .f32⟩ : BufTy).Contents (Elt F) → (⟨S800000, .f32⟩ : BufTy).Contents (Elt F)),
    StableHlo.nullary main_cst_31 (constant S_ .f32 0x00000000#32),
    StableHlo.unary main_cst_31 main_v98 (broadcastInDim S50000 ![] bcast_S_S50000 : (⟨S_, .f32⟩ : BufTy).Contents (Elt F) → (⟨S50000, .f32⟩ : BufTy).Contents (Elt F)),
    StableHlo.unary main_arg1 main_v99 (broadcastInDim S800000x1 ![0] bcast_S800000_S800000x1_0 : (⟨S800000, .i32⟩ : BufTy).Contents (Elt F) → (⟨S800000x1, .i32⟩ : BufTy).Contents (Elt F)),
    StableHlo.ternary main_v98 main_v99 main_v97 main_v100 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_32 (constant S_ .f32 0x00000000#32),
    StableHlo.unary main_cst_32 main_v101 (broadcastInDim S50000 ![] bcast_S_S50000 : (⟨S_, .f32⟩ : BufTy).Contents (Elt F) → (⟨S50000, .f32⟩ : BufTy).Contents (Elt F)),
    StableHlo.binary main_v100 main_v101 main_v102 (cmpf .ogt : (⟨S50000, .f32⟩ : BufTy).Contents (Elt F) → (⟨S50000, .f32⟩ : BufTy).Contents (Elt F) → (⟨S50000, .i1⟩ : BufTy).Contents (Elt F)),
    StableHlo.nullary main_cst_33 (constant S_ .f32 0x3F800000#32),
    StableHlo.unary main_cst_33 main_v103 (broadcastInDim S50000 ![] bcast_S_S50000 : (⟨S_, .f32⟩ : BufTy).Contents (Elt F) → (⟨S50000, .f32⟩ : BufTy).Contents (Elt F)),
    StableHlo.binary main_v103 main_v100 main_v104 (Host.divf : (⟨S50000, .f32⟩ : BufTy).Contents (Elt F) → (⟨S50000, .f32⟩ : BufTy).Contents (Elt F) → (⟨S50000, .f32⟩ : BufTy).Contents (Elt F)),
    StableHlo.nullary main_cst_34 (constant S_ .f32 0x00000000#32),
    StableHlo.TRef.unary (.of main_cst_34 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S50000, .f32⟩) (broadcastInDim S50000 ![] bcast_S_S50000),
    StableHlo.TRef.ternary (.of main_v102 : StableHlo.TRef sig ⟨S50000, .i1⟩) (.of main_v104 : StableHlo.TRef sig ⟨S50000, .f32⟩) (.of main_call6_v1 : StableHlo.TRef sig ⟨S50000, .f32⟩) (.of main_v105 : StableHlo.TRef sig ⟨S50000, .f32⟩) select,
    StableHlo.nullary main_cst_35 (constant S_ .f32 0x00000000#32),
    StableHlo.unary main_cst_35 main_v106 (broadcastInDim S10000 ![] bcast_S_S10000 : (⟨S_, .f32⟩ : BufTy).Contents (Elt F) → (⟨S10000, .f32⟩ : BufTy).Contents (Elt F)),
    StableHlo.unary main_arg2 main_v107 (broadcastInDim S800000x1 ![0] bcast_S800000_S800000x1_0 : (⟨S800000, .i32⟩ : BufTy).Contents (Elt F) → (⟨S800000x1, .i32⟩ : BufTy).Contents (Elt F)),
    StableHlo.ternary main_v106 main_v107 main_v97 main_v108 ((fun x i u => Host.scatterAdd scatter_S10000_S800000x1_S800000_n_0_0_1 x i u) : (⟨S10000, .f32⟩ : BufTy).Contents (Elt F) → (⟨S800000x1, .i32⟩ : BufTy).Contents (Elt F) → (⟨S800000, .f32⟩ : BufTy).Contents (Elt F) → (⟨S10000, .f32⟩ : BufTy).Contents (Elt F)),
    StableHlo.nullary main_cst_36 (constant S_ .f32 0x00000000#32),
    StableHlo.unary main_cst_36 main_v109 (broadcastInDim S10000 ![] bcast_S_S10000 : (⟨S_, .f32⟩ : BufTy).Contents (Elt F) → (⟨S10000, .f32⟩ : BufTy).Contents (Elt F)),
    StableHlo.binary main_v108 main_v109 main_v110 (cmpf .ogt : (⟨S10000, .f32⟩ : BufTy).Contents (Elt F) → (⟨S10000, .f32⟩ : BufTy).Contents (Elt F) → (⟨S10000, .i1⟩ : BufTy).Contents (Elt F)),
    StableHlo.nullary main_cst_37 (constant S_ .f32 0x3F800000#32),
    StableHlo.unary main_cst_37 main_v111 (broadcastInDim S10000 ![] bcast_S_S10000 : (⟨S_, .f32⟩ : BufTy).Contents (Elt F) → (⟨S10000, .f32⟩ : BufTy).Contents (Elt F)),
    StableHlo.binary main_v111 main_v108 main_v112 (Host.divf : (⟨S10000, .f32⟩ : BufTy).Contents (Elt F) → (⟨S10000, .f32⟩ : BufTy).Contents (Elt F) → (⟨S10000, .f32⟩ : BufTy).Contents (Elt F)),
    StableHlo.nullary main_cst_38 (constant S_ .f32 0x00000000#32),
    StableHlo.TRef.unary (.of main_cst_38 : StableHlo.TRef sig ⟨S_, .f32⟩) (.of main_call7_v0 : StableHlo.TRef sig ⟨S_, .f32⟩) id,
    StableHlo.TRef.unary (.of main_call7_v0 : StableHlo.TRef sig ⟨S_, .f32⟩) (.of main_call7_v1 : StableHlo.TRef sig ⟨S10000, .f32⟩) (broadcastInDim S10000 ![] bcast_S_S10000),
    StableHlo.TRef.ternary (.of main_v110 : StableHlo.TRef sig ⟨S10000, .i1⟩) (.of main_v112 : StableHlo.TRef sig ⟨S10000, .f32⟩) (.of main_call7_v1 : StableHlo.TRef sig ⟨S10000, .f32⟩) (.of main_v113 : StableHlo.TRef sig ⟨S10000, .f32⟩) select,
    StableHlo.unary main_v113 main_v114 (broadcastInDim S10000x1 ![0] bcast_S10000_S10000x1_0 : (⟨S10000, .f32⟩ : BufTy).Contents (Elt F) → (⟨S10000x1, .f32⟩ : BufTy).Contents (Elt F)),
    StableHlo.nullary main_c_39 (constantI S_ 32 0#32),
    StableHlo.unary main_c_39 main_v115 (broadcastInDim S800000 ![] bcast_S_S800000 : (⟨S_, .i32⟩ : BufTy).Contents (Elt F) → (⟨S800000, .i32⟩ : BufTy).Contents (Elt F)),
    StableHlo.binary main_arg1 main_v115 main_v116 (cmpi .slt : (⟨S800000, .i32⟩ : BufTy).Contents (Elt F) → (⟨S800000, .i32⟩ : BufTy).Contents (Elt F) → (⟨S800000, .i1⟩ : BufTy).Contents (Elt F)),
    StableHlo.nullary main_c_40 (constantI S_ 32 50000#32),
    StableHlo.unary main_c_40 main_v117 (broadcastInDim S800000 ![] bcast_S_S800000 : (⟨S_, .i32⟩ : BufTy).Contents (Elt F) → (⟨S800000, .i32⟩ : BufTy).Contents (Elt F)),
    StableHlo.binary main_arg1 main_v117 main_v118 (addi : (⟨S800000, .i32⟩ : BufTy).Contents (Elt F) → (⟨S800000, .i32⟩ : BufTy).Contents (Elt F) → (⟨S800000, .i32⟩ : BufTy).Contents (Elt F)),
    StableHlo.ternary main_v116 main_v118 main_arg1 main_v119 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v119 main_v120 (broadcastInDim S800000x1 ![0] bcast_S800000_S800000x1_0 : (⟨S800000, .i32⟩ : BufTy).Contents (Elt F) → (⟨S800000x1, .i32⟩ : BufTy).Contents (Elt F)),
    StableHlo.binary main_v96 main_v120 main_v121 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_41 (constant S_ .f32 0x00000000#32),
    StableHlo.unary main_cst_41 main_v122 (broadcastInDim S10000x64 ![] bcast_S_S10000x64 : (⟨S_, .f32⟩ : BufTy).Contents (Elt F) → (⟨S10000x64, .f32⟩ : BufTy).Contents (Elt F)),
    StableHlo.unary main_arg2 main_v123 (broadcastInDim S800000x1 ![0] bcast_S800000_S800000x1_0 : (⟨S800000, .i32⟩ : BufTy).Contents (Elt F) → (⟨S800000x1, .i32⟩ : BufTy).Contents (Elt F)),
    StableHlo.ternary main_v122 main_v123 main_v121 main_v124 ((fun x i u => Host.scatterAdd scatter_S10000x64_S800000x1_S800000x64_1_0_0_1 x i u) : (⟨S10000x64, .f32⟩ : BufTy).Contents (Elt F) → (⟨S800000x1, .i32⟩ : BufTy).Contents (Elt F) → (⟨S800000x64, .f32⟩ : BufTy).Contents (Elt F) → (⟨S10000x64, .f32⟩ : BufTy).Contents (Elt F)),
    StableHlo.unary main_v114 main_v125 (broadcastInDim S10000x64 ![0, 1] bcast_S10000x1_S10000x64_0_1 : (⟨S10000x1, .f32⟩ : BufTy).Contents (Elt F) → (⟨S10000x64, .f32⟩ : BufTy).Contents (Elt F)),
    StableHlo.binary main_v125 main_v124 main_v126 (mulf : (⟨S10000x64, .f32⟩ : BufTy).Contents (Elt F) → (⟨S10000x64, .f32⟩ : BufTy).Contents (Elt F) → (⟨S10000x64, .f32⟩ : BufTy).Contents (Elt F)),
    StableHlo.unary main_v105 main_v127 (broadcastInDim S50000x1 ![0] bcast_S50000_S50000x1_0 : (⟨S50000, .f32⟩ : BufTy).Contents (Elt F) → (⟨S50000x1, .f32⟩ : BufTy).Contents (Elt F)),
    StableHlo.nullary main_c_42 (constantI S_ 32 0#32),
    StableHlo.unary main_c_42 main_v128 (broadcastInDim S800000 ![] bcast_S_S800000 : (⟨S_, .i32⟩ : BufTy).Contents (Elt F) → (⟨S800000, .i32⟩ : BufTy).Contents (Elt F)),
    StableHlo.binary main_arg2 main_v128 main_v129 (cmpi .slt : (⟨S800000, .i32⟩ : BufTy).Contents (Elt F) → (⟨S800000, .i32⟩ : BufTy).Contents (Elt F) → (⟨S800000, .i1⟩ : BufTy).Contents (Elt F)),
    StableHlo.nullary main_c_43 (constantI S_ 32 10000#32),
    StableHlo.unary main_c_43 main_v130 (broadcastInDim S800000 ![] bcast_S_S800000 : (⟨S_, .i32⟩ : BufTy).Contents (Elt F) → (⟨S800000, .i32⟩ : BufTy).Contents (Elt F)),
    StableHlo.binary main_arg2 main_v130 main_v131 (addi : (⟨S800000, .i32⟩ : BufTy).Contents (Elt F) → (⟨S800000, .i32⟩ : BufTy).Contents (Elt F) → (⟨S800000, .i32⟩ : BufTy).Contents (Elt F)),
    StableHlo.ternary main_v129 main_v131 main_arg2 main_v132 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v132 main_v133 (broadcastInDim S800000x1 ![0] bcast_S800000_S800000x1_0 : (⟨S800000, .i32⟩ : BufTy).Contents (Elt F) → (⟨S800000x1, .i32⟩ : BufTy).Contents (Elt F)) ]

/-- The 23 host operations of @main's window 3, in order, each call listed inline over its record's buffers. -/
abbrev ops3 : List (HloOp τ sig (Elt F)) :=
  [ StableHlo.binary main_v126 main_v133 main_v134 ((fun x i => Host.gather gather_S10000x64_S800000x1_S800000x64_1_0_n_n_0_1_164 x i) : (⟨S10000x64, .f32⟩ : BufTy).Contents (Elt F) → (⟨S800000x1, .i32⟩ : BufTy).Contents (Elt F) → (⟨S800000x64, .f32⟩ : BufTy).Contents (Elt F)),
    StableHlo.nullary main_cst_44 (constant S_ .f32 0x00000000#32),
    StableHlo.unary main_cst_44 main_v135 (broadcastInDim S50000x64 ![] bcast_S_S50000x64 : (⟨S_, .f32⟩ : BufTy).Contents (Elt F) → (⟨S50000x64, .f32⟩ : BufTy).Contents (Elt F)),
    StableHlo.unary main_arg1 main_v136 (broadcastInDim S800000x1 ![0] bcast_S800000_S800000x1_0 : (⟨S800000, .i32⟩ : BufTy).Contents (Elt F) → (⟨S800000x1, .i32⟩ : BufTy).Contents (Elt F)),
    StableHlo.ternary main_v135 main_v136 main_v134 main_v137 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.unary main_v127 main_v138 (broadcastInDim S50000x64 ![0, 1] bcast_S50000x1_S50000x64_0_1 : (⟨S50000x1, .f32⟩ : BufTy).Contents (Elt F) → (⟨S50000x64, .f32⟩ : BufTy).Contents (Elt F)),
    StableHlo.binary main_v138 main_v137 main_v139 (mulf : (⟨S50000x64, .f32⟩ : BufTy).Contents (Elt F) → (⟨S50000x64, .f32⟩ : BufTy).Contents (Elt F) → (⟨S50000x64, .f32⟩ : BufTy).Contents (Elt F)),
    StableHlo.unary main_arg8 main_v140 (broadcastInDim S1x64 ![1] bcast_S64_S1x64_1 : (⟨S64, .f32⟩ : BufTy).Contents (Elt F) → (⟨S1x64, .f32⟩ : BufTy).Contents (Elt F)),
    StableHlo.unary main_v140 main_v141 (broadcastInDim S50000x64 ![0, 1] bcast_S1x64_S50000x64_0_1 : (⟨S1x64, .f32⟩ : BufTy).Contents (Elt F) → (⟨S50000x64, .f32⟩ : BufTy).Contents (Elt F)),
    StableHlo.binary main_v139 main_v141 main_v142 (addf : (⟨S50000x64, .f32⟩ : BufTy).Contents (Elt F) → (⟨S50000x64, .f32⟩ : BufTy).Contents (Elt F) → (⟨S50000x64, .f32⟩ : BufTy).Contents (Elt F)),
    StableHlo.nullary main_c_45 (constantI S_ 32 0#32),
    StableHlo.unary main_c_45 main_v143 (broadcastInDim S800000 ![] bcast_S_S800000 : (⟨S_, .i32⟩ : BufTy).Contents (Elt F) → (⟨S800000, .i32⟩ : BufTy).Contents (Elt F)),
    StableHlo.binary main_arg1 main_v143 main_v144 (cmpi .slt : (⟨S800000, .i32⟩ : BufTy).Contents (Elt F) → (⟨S800000, .i32⟩ : BufTy).Contents (Elt F) → (⟨S800000, .i1⟩ : BufTy).Contents (Elt F)),
    StableHlo.nullary main_c_46 (constantI S_ 32 50000#32),
    StableHlo.unary main_c_46 main_v145 (broadcastInDim S800000 ![] bcast_S_S800000 : (⟨S_, .i32⟩ : BufTy).Contents (Elt F) → (⟨S800000, .i32⟩ : BufTy).Contents (Elt F)),
    StableHlo.binary main_arg1 main_v145 main_v146 (addi : (⟨S800000, .i32⟩ : BufTy).Contents (Elt F) → (⟨S800000, .i32⟩ : BufTy).Contents (Elt F) → (⟨S800000, .i32⟩ : BufTy).Contents (Elt F)),
    StableHlo.ternary main_v144 main_v146 main_arg1 main_v147 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v147 main_v148 (broadcastInDim S800000x1 ![0] bcast_S800000_S800000x1_0 : (⟨S800000, .i32⟩ : BufTy).Contents (Elt F) → (⟨S800000x1, .i32⟩ : BufTy).Contents (Elt F)),
    StableHlo.binary main_v142 main_v148 main_v149 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_47 (constant S_ .f32 0x00000000#32),
    StableHlo.unary main_cst_47 main_v150 (broadcastInDim S10000x64 ![] bcast_S_S10000x64 : (⟨S_, .f32⟩ : BufTy).Contents (Elt F) → (⟨S10000x64, .f32⟩ : BufTy).Contents (Elt F)),
    StableHlo.unary main_arg2 main_v151 (broadcastInDim S800000x1 ![0] bcast_S800000_S800000x1_0 : (⟨S800000, .i32⟩ : BufTy).Contents (Elt F) → (⟨S800000x1, .i32⟩ : BufTy).Contents (Elt F)),
    StableHlo.ternary main_v150 main_v151 main_v149 main_v152 ((fun x i u => Host.scatterAdd scatter_S10000x64_S800000x1_S800000x64_1_0_0_1 x i u) : (⟨S10000x64, .f32⟩ : BufTy).Contents (Elt F) → (⟨S800000x1, .i32⟩ : BufTy).Contents (Elt F) → (⟨S800000x64, .f32⟩ : BufTy).Contents (Elt F) → (⟨S10000x64, .f32⟩ : BufTy).Contents (Elt F)) ]

/-- All 227 operations of @main, in order: the four windows' lists one after the other. -/
abbrev ops : List (HloOp τ sig (Elt F)) := ops0 ++ (ops1 ++ (ops2 ++ ops3))

/-- The fold over two lists in a row is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The fold over all of @main's operations, window by window. -/
theorem after_ops (V : Valuation τ sig (Elt F)) :
    after ops V = after ops3 (after ops2 (after ops1 (after ops0 V))) := by
  rw [after_app, after_app, after_app]

set_option maxRecDepth 4096 in
/-- Window 0 is the straight line of its operations: the two calls unfolded at their records, sequencing reassociated. -/
theorem part0_eq (c : Dev nD) : main_part0 (F := F) c = seq ops0 := by
  simp only [main_part0, fn_where.body, fn_where_0.body, seq, bind_assoc, pure_bind]
  rfl

set_option maxRecDepth 4096 in
/-- Window 1 is the straight line of its operations. -/
theorem part1_eq (c : Dev nD) : main_part1 (F := F) c = seq ops1 := by
  simp only [main_part1, fn_where.body, fn_where_0.body, fn_leaky_relu.body, fn_where_1.body, seq, bind_assoc, pure_bind]
  rfl

set_option maxRecDepth 4096 in
/-- Window 2 is the straight line of its operations. -/
theorem part2_eq (c : Dev nD) : main_part2 (F := F) c = seq ops2 := by
  simp only [main_part2, fn_where.body, fn_where_0.body, fn_leaky_relu.body, fn_where_1.body, seq, bind_assoc, pure_bind]
  rfl

set_option maxRecDepth 4096 in
/-- Window 3 is the straight line of its operations. -/
theorem part3_eq (c : Dev nD) : main_part3 (F := F) c = seq ops3 := by
  simp only [main_part3, seq, bind_assoc, pure_bind]

/-- @main is the straight line of all its operations: the four windows in order. -/
theorem main_eq (c : Dev nD) : main (F := F) c = seq ops := by
  show (main_part0 c >>= fun _ => main_part1 c >>= fun _ => main_part2 c >>= fun _ => main_part3 c) = _
  rw [part0_eq, part1_eq, part2_eq, part3_eq, seq_append, seq_append, seq_append]

theorem scopedRefs_eq : (Finset.univ.filter fun b : Ref sig .tc => b.isScoped) = ∅ := by decide
theorem scopedSems_eq : (Finset.univ.filter fun sm : SemLoc sig => sm.isScoped .tc) = ∅ := by decide

/-- Splits a statement over every operation of a literal list into one conjunct per operation and closes each by the
    fact of the builder at its head. -/
macro "each_bufs_sub" : tactic =>
  `(tactic| simp only [List.forall_cons, List.Forall, nullary_bufs_sub, unary_bufs_sub, binary_bufs_sub, ternary_bufs_sub, and_self])

theorem ops0_sub : (ops0 : List (HloOp τ sig (Elt F))).Forall fun op => op.bufs ⊆ tcRefs τ sig := by each_bufs_sub
theorem ops1_sub : (ops1 : List (HloOp τ sig (Elt F))).Forall fun op => op.bufs ⊆ tcRefs τ sig := by each_bufs_sub
theorem ops2_sub : (ops2 : List (HloOp τ sig (Elt F))).Forall fun op => op.bufs ⊆ tcRefs τ sig := by each_bufs_sub
theorem ops3_sub : (ops3 : List (HloOp τ sig (Elt F))).Forall fun op => op.bufs ⊆ tcRefs τ sig := by each_bufs_sub

/-- Every operation touches TensorCore references only. -/
theorem ops_sub : (ops : List (HloOp τ sig (Elt F))).Forall fun op => op.bufs ⊆ tcRefs τ sig := by
  rw [List.forall_iff_forall_mem]
  intro op h
  rcases List.mem_append.mp h with h | h
  · exact List.forall_iff_forall_mem.mp ops0_sub op h
  rcases List.mem_append.mp h with h | h
  · exact List.forall_iff_forall_mem.mp ops1_sub op h
  rcases List.mem_append.mp h with h | h
  · exact List.forall_iff_forall_mem.mp ops2_sub op h
  · exact List.forall_iff_forall_mem.mp ops3_sub op h

/-- Decides, one operation of a literal list at a time, that none allocates a buffer with contents not chosen. -/
macro "each_fresh" : tactic =>
  `(tactic| (intro _ h; (repeat (cases h with | head => rfl | tail _ h => ?_)); exact nomatch h))

theorem ops0_fresh : ∀ op ∈ (ops0 : List (HloOp τ sig (Elt F))), op.fresh = ∅ := by each_fresh
theorem ops1_fresh : ∀ op ∈ (ops1 : List (HloOp τ sig (Elt F))), op.fresh = ∅ := by each_fresh
theorem ops2_fresh : ∀ op ∈ (ops2 : List (HloOp τ sig (Elt F))), op.fresh = ∅ := by each_fresh
theorem ops3_fresh : ∀ op ∈ (ops3 : List (HloOp τ sig (Elt F))), op.fresh = ∅ := by each_fresh

/-- Every operation determines its results. -/
theorem ops_fresh : ∀ op ∈ (ops : List (HloOp τ sig (Elt F))), op.fresh = ∅ := by
  intro op h
  rcases List.mem_append.mp h with h | h
  · exact ops0_fresh op h
  rcases List.mem_append.mp h with h | h
  · exact ops1_fresh op h
  rcases List.mem_append.mp h with h | h
  · exact ops2_fresh op h
  · exact ops3_fresh op h

/-- On every device, for any float values, from any memory with zero counters: every weakly fair execution of
    @main terminates, and every final state has each TensorCore buffer at the fold of the 227 operations' results
    over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefValue

end
-- ==== Proof.RefPlain.lean ====
/-
  The reference's operation lists without the typed references' transports.

  An operation of an inlined call is stated over typed references: its function is applied to the operands' contents
  moved along each reference's type equation, and its value is moved back. At a literal reference that equation
  holds by computation, so the transport is the identity and the operation IS the plain operation at the same
  buffers with the same function. This module states, for each of the four windows, the list with the 32 operations
  of the eight calls spelled that way, and proves it equal to the window's own list; the fold over @main's 227
  operations is therefore the fold over these four lists in turn.
-/
import proofs.«108937_j41644002902694_1_alg».proof.Proof.RefOps

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F]

/-- Window 0's 64 operations with each inlined call's operations spelled by the plain builders at the same buffers. -/
abbrev ops0p : List (HloOp τ sig (Elt F)) :=
  [ StableHlo.binary main_arg0 main_arg3 main_v0 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_cst (constant S_ .f32 0x3F800000#32),
    StableHlo.unary main_cst main_v1 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v2 (broadcastInDim S50000 ![] bcast_S_S50000 : (⟨S_, .f32⟩ : BufTy).Contents (Elt F) → (⟨S50000, .f32⟩ : BufTy).Contents (Elt F)),
    StableHlo.unary main_arg1 main_v3 (broadcastInDim S800000x1 ![0] bcast_S800000_S800000x1_0 : (⟨S800000, .i32⟩ : BufTy).Contents (Elt F) → (⟨S800000x1, .i32⟩ : BufTy).Contents (Elt F)),
    StableHlo.ternary main_v2 main_v3 main_v1 main_v4 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x00000000#32),
    StableHlo.unary main_cst_1 main_v5 (broadcastInDim S50000 ![] bcast_S_S50000 : (⟨S_, .f32⟩ : BufTy).Contents (Elt F) → (⟨S50000, .f32⟩ : BufTy).Contents (Elt F)),
    StableHlo.binary main_v4 main_v5 main_v6 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v7 (broadcastInDim S50000 ![] bcast_S_S50000 : (⟨S_, .f32⟩ : BufTy).Contents (Elt F) → (⟨S50000, .f32⟩ : BufTy).Contents (Elt F)),
    StableHlo.binary main_v7 main_v4 main_v8 (Host.divf : (⟨S50000, .f32⟩ : BufTy).Contents (Elt F) → (⟨S50000, .f32⟩ : BufTy).Contents (Elt F) → (⟨S50000, .f32⟩ : BufTy).Contents (Elt F)),
    StableHlo.nullary main_cst_3 (constant S_ .f32 0x00000000#32),
    StableHlo.unary main_cst_3 main_call0_v0 (id : (⟨S_, .f32⟩ : BufTy).Contents (Elt F) → (⟨S_, .f32⟩ : BufTy).Contents (Elt F)),
    StableHlo.unary main_call0_v0 main_call0_v1 ((broadcastInDim S50000 ![] bcast_S_S50000) : (⟨S_, .f32⟩ : BufTy).Contents (Elt F) → (⟨S50000, .f32⟩ : BufTy).Contents (Elt F)),
    StableHlo.ternary main_v6 main_v8 main_call0_v1 main_v9 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    StableHlo.nullary main_cst_4 (constant S_ .f32 0x00000000#32),
    StableHlo.unary main_cst_4 main_v10 (broadcastInDim S10000 ![] bcast_S_S10000 : (⟨S_, .f32⟩ : BufTy).Contents (Elt F) → (⟨S10000, .f32⟩ : BufTy).Contents (Elt F)),
    StableHlo.unary main_arg2 main_v11 (broadcastInDim S800000x1 ![0] bcast_S800000_S800000x1_0 : (⟨S800000, .i32⟩ : BufTy).Contents (Elt F) → (⟨S800000x1, .i32⟩ : BufTy).Contents (Elt F)),
    StableHlo.ternary main_v10 main_v11 main_v1 main_v12 ((fun x i u => Host.scatterAdd scatter_S10000_S800000x1_S800000_n_0_0_1 x i u) : (⟨S10000, .f32⟩ : BufTy).Contents (Elt F) → (⟨S800000x1, .i32⟩ : BufTy).Contents (Elt F) → (⟨S800000, .f32⟩ : BufTy).Contents (Elt F) → (⟨S10000, .f32⟩ : BufTy).Contents (Elt F)),
    StableHlo.nullary main_cst_5 (constant S_ .f32 0x00000000#32),
    StableHlo.unary main_cst_5 main_v13 (broadcastInDim S10000 ![] bcast_S_S10000 : (⟨S_, .f32⟩ : BufTy).Contents (Elt F) → (⟨S10000, .f32⟩ : BufTy).Contents (Elt F)),
    StableHlo.binary main_v12 main_v13 main_v14 (cmpf .ogt : (⟨S10000, .f32⟩ : BufTy).Contents (Elt F) → (⟨S10000, .f32⟩ : BufTy).Contents (Elt F) → (⟨S10000, .i1⟩ : BufTy).Contents (Elt F)),
    StableHlo.nullary main_cst_6 (constant S_ .f32 0x3F800000#32),
    StableHlo.unary main_cst_6 main_v15 (broadcastInDim S10000 ![] bcast_S_S10000 : (⟨S_, .f32⟩ : BufTy).Contents (Elt F) → (⟨S10000, .f32⟩ : BufTy).Contents (Elt F)),
    StableHlo.binary main_v15 main_v12 main_v16 (Host.divf : (⟨S10000, .f32⟩ : BufTy).Contents (Elt F) → (⟨S10000, .f32⟩ : BufTy).Contents (Elt F) → (⟨S10000, .f32⟩ : BufTy).Contents (Elt F)),
    StableHlo.nullary main_cst_7 (constant S_ .f32 0x00000000#32),
    StableHlo.unary main_cst_7 main_call1_v0 (id : (⟨S_, .f32⟩ : BufTy).Contents (Elt F) → (⟨S_, .f32⟩ : BufTy).Contents (Elt F)),
    StableHlo.unary main_call1_v0 main_call1_v1 ((broadcastInDim S10000 ![] bcast_S_S10000) : (⟨S_, .f32⟩ : BufTy).Contents (Elt F) → (⟨S10000, .f32⟩ : BufTy).Contents (Elt F)),
    StableHlo.ternary main_v14 main_v16 main_call1_v1 main_v17 (select : (⟨S10000, .i1⟩ : BufTy).Contents (Elt F) → (⟨S10000, .f32⟩ : BufTy).Contents (Elt F) → (⟨S10000, .f32⟩ : BufTy).Contents (Elt F) → (⟨S10000, .f32⟩ : BufTy).Contents (Elt F)),
    StableHlo.unary main_v17 main_v18 (broadcastInDim S10000x1 ![0] bcast_S10000_S10000x1_0 : (⟨S10000, .f32⟩ : BufTy).Contents (Elt F) → (⟨S10000x1, .f32⟩ : BufTy).Contents (Elt F)),
    StableHlo.nullary main_c (constantI S_ 32 0#32),
    StableHlo.unary main_c main_v19 (broadcastInDim S800000 ![] bcast_S_S800000 : (⟨S_, .i32⟩ : BufTy).Contents (Elt F) → (⟨S800000, .i32⟩ : BufTy).Contents (Elt F)),
    StableHlo.binary main_arg1 main_v19 main_v20 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v21 (broadcastInDim S800000 ![] bcast_S_S800000 : (⟨S_, .i32⟩ : BufTy).Contents (Elt F) → (⟨S800000, .i32⟩ : BufTy).Contents (Elt F)),
    StableHlo.binary main_arg1 main_v21 main_v22 (addi : (⟨S800000, .i32⟩ : BufTy).Contents (Elt F) → (⟨S800000, .i32⟩ : BufTy).Contents (Elt F) → (⟨S800000, .i32⟩ : BufTy).Contents (Elt F)),
    StableHlo.ternary main_v20 main_v22 main_arg1 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v23 main_v24 (broadcastInDim S800000x1 ![0] bcast_S800000_S800000x1_0 : (⟨S800000, .i32⟩ : BufTy).Contents (Elt F) → (⟨S800000x1, .i32⟩ : BufTy).Contents (Elt F)),
    StableHlo.binary main_v0 main_v24 main_v25 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_9 (constant S_ .f32 0x00000000#32),
    StableHlo.unary main_cst_9 main_v26 (broadcastInDim S10000x64 ![] bcast_S_S10000x64 : (⟨S_, .f32⟩ : BufTy).Contents (Elt F) → (⟨S10000x64, .f32⟩ : BufTy).Contents (Elt F)),
    StableHlo.unary main_arg2 main_v27 (broadcastInDim S800000x1 ![0] bcast_S800000_S800000x1_0 : (⟨S800000, .i32⟩ : BufTy).Contents (Elt F) → (⟨S800000x1, .i32⟩ : BufTy).Contents (Elt F)),
    StableHlo.ternary main_v26 main_v27 main_v25 main_v28 ((fun x i u => Host.scatterAdd scatter_S10000x64_S800000x1_S800000x64_1_0_0_1 x i u) : (⟨S10000x64, .f32⟩ : BufTy).Contents (Elt F) → (⟨S800000x1, .i32⟩ : BufTy).Contents (Elt F) → (⟨S800000x64, .f32⟩ : BufTy).Contents (Elt F) → (⟨S10000x64, .f32⟩ : BufTy).Contents (Elt F)),
    StableHlo.unary main_v18 main_v29 (broadcastInDim S10000x64 ![0, 1] bcast_S10000x1_S10000x64_0_1 : (⟨S10000x1, .f32⟩ : BufTy).Contents (Elt F) → (⟨S10000x64, .f32⟩ : BufTy).Contents (Elt F)),
    StableHlo.binary main_v29 main_v28 main_v30 (mulf : (⟨S10000x64, .f32⟩ : BufTy).Contents (Elt F) → (⟨S10000x64, .f32⟩ : BufTy).Contents (Elt F) → (⟨S10000x64, .f32⟩ : BufTy).Contents (Elt F)),
    StableHlo.unary main_v9 main_v31 (broadcastInDim S50000x1 ![0] bcast_S50000_S50000x1_0 : (⟨S50000, .f32⟩ : BufTy).Contents (Elt F) → (⟨S50000x1, .f32⟩ : BufTy).Contents (Elt F)),
    StableHlo.nullary main_c_10 (constantI S_ 32 0#32),
    StableHlo.unary main_c_10 main_v32 (broadcastInDim S800000 ![] bcast_S_S800000 : (⟨S_, .i32⟩ : BufTy).Contents (Elt F) → (⟨S800000, .i32⟩ : BufTy).Contents (Elt F)),
    StableHlo.binary main_arg2 main_v32 main_v33 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 10000#32),
    StableHlo.unary main_c_11 main_v34 (broadcastInDim S800000 ![] bcast_S_S800000 : (⟨S_, .i32⟩ : BufTy).Contents (Elt F) → (⟨S800000, .i32⟩ : BufTy).Contents (Elt F)),
    StableHlo.binary main_arg2 main_v34 main_v35 (addi : (⟨S800000, .i32⟩ : BufTy).Contents (Elt F) → (⟨S800000, .i32⟩ : BufTy).Contents (Elt F) → (⟨S800000, .i32⟩ : BufTy).Contents (Elt F)),
    StableHlo.ternary main_v33 main_v35 main_arg2 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v36 main_v37 (broadcastInDim S800000x1 ![0] bcast_S800000_S800000x1_0 : (⟨S800000, .i32⟩ : BufTy).Contents (Elt F) → (⟨S800000x1, .i32⟩ : BufTy).Contents (Elt F)),
    StableHlo.binary main_v30 main_v37 main_v38 ((fun x i => Host.gather gather_S10000x64_S800000x1_S800000x64_1_0_n_n_0_1_164 x i) : (⟨S10000x64, .f32⟩ : BufTy).Contents (Elt F) → (⟨S800000x1, .i32⟩ : BufTy).Contents (Elt F) → (⟨S800000x64, .f32⟩ : BufTy).Contents (Elt F)),
    StableHlo.nullary main_cst_12 (constant S_ .f32 0x00000000#32),
    StableHlo.unary main_cst_12 main_v39 (broadcastInDim S50000x64 ![] bcast_S_S50000x64 : (⟨S_, .f32⟩ : BufTy).Contents (Elt F) → (⟨S50000x64, .f32⟩ : BufTy).Contents (Elt F)),
    StableHlo.unary main_arg1 main_v40 (broadcastInDim S800000x1 ![0] bcast_S800000_S800000x1_0 : (⟨S800000, .i32⟩ : BufTy).Contents (Elt F) → (⟨S800000x1, .i32⟩ : BufTy).Contents (Elt F)),
    StableHlo.ternary main_v39 main_v40 main_v38 main_v41 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.unary main_v31 main_v42 (broadcastInDim S50000x64 ![0, 1] bcast_S50000x1_S50000x64_0_1 : (⟨S50000x1, .f32⟩ : BufTy).Contents (Elt F) → (⟨S50000x64, .f32⟩ : BufTy).Contents (Elt F)),
    StableHlo.binary main_v42 main_v41 main_v43 (mulf : (⟨S50000x64, .f32⟩ : BufTy).Contents (Elt F) → (⟨S50000x64, .f32⟩ : BufTy).Contents (Elt F) → (⟨S50000x64, .f32⟩ : BufTy).Contents (Elt F)),
    StableHlo.unary main_arg4 main_v44 (broadcastInDim S1x64 ![1] bcast_S64_S1x64_1 : (⟨S64, .f32⟩ : BufTy).Contents (Elt F) → (⟨S1x64, .f32⟩ : BufTy).Contents (Elt F)) ]

/-- Window 1's 70 operations with each inlined call's operations spelled by the plain builders at the same buffers. -/
abbrev ops1p : List (HloOp τ sig (Elt F)) :=
  [ StableHlo.unary main_v44 main_v45 (broadcastInDim S50000x64 ![0, 1] bcast_S1x64_S50000x64_0_1 : (⟨S1x64, .f32⟩ : BufTy).Contents (Elt F) → (⟨S50000x64, .f32⟩ : BufTy).Contents (Elt F)),
    StableHlo.binary main_v43 main_v45 main_v46 (addf : (⟨S50000x64, .f32⟩ : BufTy).Contents (Elt F) → (⟨S50000x64, .f32⟩ : BufTy).Contents (Elt F) → (⟨S50000x64, .f32⟩ : BufTy).Contents (Elt F)),
    StableHlo.nullary main_cst_13 (constant S_ .f32 0x3C23D70A#32),
    StableHlo.nullary main_call2_cst (constant S_ .f32 0x00000000#32),
    StableHlo.unary main_call2_cst main_call2_v0 ((broadcastInDim S50000x64 ![] bcast_S_S50000x64) : (⟨S_, .f32⟩ : BufTy).Contents (Elt F) → (⟨S50000x64, .f32⟩ : BufTy).Contents (Elt F)),
    StableHlo.binary main_v46 main_call2_v0 main_call2_v1 ((cmpf .oge) : (⟨S50000x64, .f32⟩ : BufTy).Contents (Elt F) → (⟨S50000x64, .f32⟩ : BufTy).Contents (Elt F) → (⟨S50000x64, .i1⟩ : BufTy).Contents (Elt F)),
    StableHlo.unary main_cst_13 main_call2_v2 (id : (⟨S_, .f32⟩ : BufTy).Contents (Elt F) → (⟨S_, .f32⟩ : BufTy).Contents (Elt F)),
    StableHlo.unary main_call2_v2 main_call2_v3 ((broadcastInDim S50000x64 ![] bcast_S_S50000x64) : (⟨S_, .f32⟩ : BufTy).Contents (Elt F) → (⟨S50000x64, .f32⟩ : BufTy).Contents (Elt F)),
    StableHlo.binary main_call2_v3 main_v46 main_call2_v4 (mulf : (⟨S50000x64, .f32⟩ : BufTy).Contents (Elt F) → (⟨S50000x64, .f32⟩ : BufTy).Contents (Elt F) → (⟨S50000x64, .f32⟩ : BufTy).Contents (Elt F)),
    StableHlo.ternary main_call2_v1 main_v46 main_call2_v4 main_v47 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)),
    StableHlo.binary main_v47 main_arg5 main_v48 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_cst_14 (constant S_ .f32 0x3F800000#32),
    StableHlo.unary main_cst_14 main_v49 (broadcastInDim S800000 ![] bcast_S_S800000 : (⟨S_, .f32⟩ : BufTy).Contents (Elt F) → (⟨S800000, .f32⟩ : BufTy).Contents (Elt F)),
    StableHlo.nullary main_cst_15 (constant S_ .f32 0x00000000#32),
    StableHlo.unary main_cst_15 main_v50 (broadcastInDim S50000 ![] bcast_S_S50000 : (⟨S_, .f32⟩ : BufTy).Contents (Elt F) → (⟨S50000, .f32⟩ : BufTy).Contents (Elt F)),
    StableHlo.unary main_arg1 main_v51 (broadcastInDim S800000x1 ![0] bcast_S800000_S800000x1_0 : (⟨S800000, .i32⟩ : BufTy).Contents (Elt F) → (⟨S800000x1, .i32⟩ : BufTy).Contents (Elt F)),
    StableHlo.ternary main_v50 main_v51 main_v49 main_v52 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_16 (constant S_ .f32 0x00000000#32),
    StableHlo.unary main_cst_16 main_v53 (broadcastInDim S50000 ![] bcast_S_S50000 : (⟨S_, .f32⟩ : BufTy).Contents (Elt F) → (⟨S50000, .f32⟩ : BufTy).Contents (Elt F)),
    StableHlo.binary main_v52 main_v53 main_v54 (cmpf .ogt : (⟨S50000, .f32⟩ : BufTy).Contents (Elt F) → (⟨S50000, .f32⟩ : BufTy).Contents (Elt F) → (⟨S50000, .i1⟩ : BufTy).Contents (Elt F)),
    StableHlo.nullary main_cst_17 (constant S_ .f32 0x3F800000#32),
    StableHlo.unary main_cst_17 main_v55 (broadcastInDim S50000 ![] bcast_S_S50000 : (⟨S_, .f32⟩ : BufTy).Contents (Elt F) → (⟨S50000, .f32⟩ : BufTy).Contents (Elt F)),
    StableHlo.binary main_v55 main_v52 main_v56 (Host.divf : (⟨S50000, .f32⟩ : BufTy).Contents (Elt F) → (⟨S50000, .f32⟩ : BufTy).Contents (Elt F) → (⟨S50000, .f32⟩ : BufTy).Contents (Elt F)),
    StableHlo.nullary main_cst_18 (constant S_ .f32 0x00000000#32),
    StableHlo.unary main_cst_18 main_call3_v0 (id : (⟨S_, .f32⟩ : BufTy).Contents (Elt F) → (⟨S_, .f32⟩ : BufTy).Contents (Elt F)),
    StableHlo.unary main_call3_v0 main_call3_v1 ((broadcastInDim S50000 ![] bcast_S_S50000) : (⟨S_, .f32⟩ : BufTy).Contents (Elt F) → (⟨S50000, .f32⟩ : BufTy).Contents (Elt F)),
    StableHlo.ternary main_v54 main_v56 main_call3_v1 main_v57 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    StableHlo.nullary main_cst_19 (constant S_ .f32 0x00000000#32),
    StableHlo.unary main_cst_19 main_v58 (broadcastInDim S10000 ![] bcast_S_S10000 : (⟨S_, .f32⟩ : BufTy).Contents (Elt F) → (⟨S10000, .f32⟩ : BufTy).Contents (Elt F)),
    StableHlo.unary main_arg2 main_v59 (broadcastInDim S800000x1 ![0] bcast_S800000_S800000x1_0 : (⟨S800000, .i32⟩ : BufTy).Contents (Elt F) → (⟨S800000x1, .i32⟩ : BufTy).Contents (Elt F)),
    StableHlo.ternary main_v58 main_v59 main_v49 main_v60 ((fun x i u => Host.scatterAdd scatter_S10000_S800000x1_S800000_n_0_0_1 x i u) : (⟨S10000, .f32⟩ : BufTy).Contents (Elt F) → (⟨S800000x1, .i32⟩ : BufTy).Contents (Elt F) → (⟨S800000, .f32⟩ : BufTy).Contents (Elt F) → (⟨S10000, .f32⟩ : BufTy).Contents (Elt F)),
    StableHlo.nullary main_cst_20 (constant S_ .f32 0x00000000#32),
    StableHlo.unary main_cst_20 main_v61 (broadcastInDim S10000 ![] bcast_S_S10000 : (⟨S_, .f32⟩ : BufTy).Contents (Elt F) → (⟨S10000, .f32⟩ : BufTy).Contents (Elt F)),
    StableHlo.binary main_v60 main_v61 main_v62 (cmpf .ogt : (⟨S10000, .f32⟩ : BufTy).Contents (Elt F) → (⟨S10000, .f32⟩ : BufTy).Contents (Elt F) → (⟨S10000, .i1⟩ : BufTy).Contents (Elt F)),
    StableHlo.nullary main_cst_21 (constant S_ .f32 0x3F800000#32),
    StableHlo.unary main_cst_21 main_v63 (broadcastInDim S10000 ![] bcast_S_S10000 : (⟨S_, .f32⟩ : BufTy).Contents (Elt F) → (⟨S10000, .f32⟩ : BufTy).Contents (Elt F)),
    StableHlo.binary main_v63 main_v60 main_v64 (Host.divf : (⟨S10000, .f32⟩ : BufTy).Contents (Elt F) → (⟨S10000, .f32⟩ : BufTy).Contents (Elt F) → (⟨S10000, .f32⟩ : BufTy).Contents (Elt F)),
    StableHlo.nullary main_cst_22 (constant S_ .f32 0x00000000#32),
    StableHlo.unary main_cst_22 main_call4_v0 (id : (⟨S_, .f32⟩ : BufTy).Contents (Elt F) → (⟨S_, .f32⟩ : BufTy).Contents (Elt F)),
    StableHlo.unary main_call4_v0 main_call4_v1 ((broadcastInDim S10000 ![] bcast_S_S10000) : (⟨S_, .f32⟩ : BufTy).Contents (Elt F) → (⟨S10000, .f32⟩ : BufTy).Contents (Elt F)),
    StableHlo.ternary main_v62 main_v64 main_call4_v1 main_v65 (select : (⟨S10000, .i1⟩ : BufTy).Contents (Elt F) → (⟨S10000, .f32⟩ : BufTy).Contents (Elt F) → (⟨S10000, .f32⟩ : BufTy).Contents (Elt F) → (⟨S10000, .f32⟩ : BufTy).Contents (Elt F)),
    StableHlo.unary main_v65 main_v66 (broadcastInDim S10000x1 ![0] bcast_S10000_S10000x1_0 : (⟨S10000, .f32⟩ : BufTy).Contents (Elt F) → (⟨S10000x1, .f32⟩ : BufTy).Contents (Elt F)),
    StableHlo.nullary main_c_23 (constantI S_ 32 0#32),
    StableHlo.unary main_c_23 main_v67 (broadcastInDim S800000 ![] bcast_S_S800000 : (⟨S_, .i32⟩ : BufTy).Contents (Elt F) → (⟨S800000, .i32⟩ : BufTy).Contents (Elt F)),
    StableHlo.binary main_arg1 main_v67 main_v68 (cmpi .slt : (⟨S800000, .i32⟩ : BufTy).Contents (Elt F) → (⟨S800000, .i32⟩ : BufTy).Contents (Elt F) → (⟨S800000, .i1⟩ : BufTy).Contents (Elt F)),
    StableHlo.nullary main_c_24 (constantI S_ 32 50000#32),
    StableHlo.unary main_c_24 main_v69 (broadcastInDim S800000 ![] bcast_S_S800000 : (⟨S_, .i32⟩ : BufTy).Contents (Elt F) → (⟨S800000, .i32⟩ : BufTy).Contents (Elt F)),
    StableHlo.binary main_arg1 main_v69 main_v70 (addi : (⟨S800000, .i32⟩ : BufTy).Contents (Elt F) → (⟨S800000, .i32⟩ : BufTy).Contents (Elt F) → (⟨S800000, .i32⟩ : BufTy).Contents (Elt F)),
    StableHlo.ternary main_v68 main_v70 main_arg1 main_v71 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v71 main_v72 (broadcastInDim S800000x1 ![0] bcast_S800000_S800000x1_0 : (⟨S800000, .i32⟩ : BufTy).Contents (Elt F) → (⟨S800000x1, .i32⟩ : BufTy).Contents (Elt F)),
    StableHlo.binary main_v48 main_v72 main_v73 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_25 (constant S_ .f32 0x00000000#32),
    StableHlo.unary main_cst_25 main_v74 (broadcastInDim S10000x64 ![] bcast_S_S10000x64 : (⟨S_, .f32⟩ : BufTy).Contents (Elt F) → (⟨S10000x64, .f32⟩ : BufTy).Contents (Elt F)),
    StableHlo.unary main_arg2 main_v75 (broadcastInDim S800000x1 ![0] bcast_S800000_S800000x1_0 : (⟨S800000, .i32⟩ : BufTy).Contents (Elt F) → (⟨S800000x1, .i32⟩ : BufTy).Contents (Elt F)),
    StableHlo.ternary main_v74 main_v75 main_v73 main_v76 ((fun x i u => Host.scatterAdd scatter_S10000x64_S800000x1_S800000x64_1_0_0_1 x i u) : (⟨S10000x64, .f32⟩ : BufTy).Contents (Elt F) → (⟨S800000x1, .i32⟩ : BufTy).Contents (Elt F) → (⟨S800000x64, .f32⟩ : BufTy).Contents (Elt F) → (⟨S10000x64, .f32⟩ : BufTy).Contents (Elt F)),
    StableHlo.unary main_v66 main_v77 (broadcastInDim S10000x64 ![0, 1] bcast_S10000x1_S10000x64_0_1 : (⟨S10000x1, .f32⟩ : BufTy).Contents (Elt F) → (⟨S10000x64, .f32⟩ : BufTy).Contents (Elt F)),
    StableHlo.binary main_v77 main_v76 main_v78 (mulf : (⟨S10000x64, .f32⟩ : BufTy).Contents (Elt F) → (⟨S10000x64, .f32⟩ : BufTy).Contents (Elt F) → (⟨S10000x64, .f32⟩ : BufTy).Contents (Elt F)),
    StableHlo.unary main_v57 main_v79 (broadcastInDim S50000x1 ![0] bcast_S50000_S50000x1_0 : (⟨S50000, .f32⟩ : BufTy).Contents (Elt F) → (⟨S50000x1, .f32⟩ : BufTy).Contents (Elt F)),
    StableHlo.nullary main_c_26 (constantI S_ 32 0#32),
    StableHlo.unary main_c_26 main_v80 (broadcastInDim S800000 ![] bcast_S_S800000 : (⟨S_, .i32⟩ : BufTy).Contents (Elt F) → (⟨S800000, .i32⟩ : BufTy).Contents (Elt F)),
    StableHlo.binary main_arg2 main_v80 main_v81 (cmpi .slt : (⟨S800000, .i32⟩ : BufTy).Contents (Elt F) → (⟨S800000, .i32⟩ : BufTy).Contents (Elt F) → (⟨S800000, .i1⟩ : BufTy).Contents (Elt F)),
    StableHlo.nullary main_c_27 (constantI S_ 32 10000#32),
    StableHlo.unary main_c_27 main_v82 (broadcastInDim S800000 ![] bcast_S_S800000 : (⟨S_, .i32⟩ : BufTy).Contents (Elt F) → (⟨S800000, .i32⟩ : BufTy).Contents (Elt F)),
    StableHlo.binary main_arg2 main_v82 main_v83 (addi : (⟨S800000, .i32⟩ : BufTy).Contents (Elt F) → (⟨S800000, .i32⟩ : BufTy).Contents (Elt F) → (⟨S800000, .i32⟩ : BufTy).Contents (Elt F)),
    StableHlo.ternary main_v81 main_v83 main_arg2 main_v84 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v84 main_v85 (broadcastInDim S800000x1 ![0] bcast_S800000_S800000x1_0 : (⟨S800000, .i32⟩ : BufTy).Contents (Elt F) → (⟨S800000x1, .i32⟩ : BufTy).Contents (Elt F)),
    StableHlo.binary main_v78 main_v85 main_v86 ((fun x i => Host.gather gather_S10000x64_S800000x1_S800000x64_1_0_n_n_0_1_164 x i) : (⟨S10000x64, .f32⟩ : BufTy).Contents (Elt F) → (⟨S800000x1, .i32⟩ : BufTy).Contents (Elt F) → (⟨S800000x64, .f32⟩ : BufTy).Contents (Elt F)),
    StableHlo.nullary main_cst_28 (constant S_ .f32 0x00000000#32),
    StableHlo.unary main_cst_28 main_v87 (broadcastInDim S50000x64 ![] bcast_S_S50000x64 : (⟨S_, .f32⟩ : BufTy).Contents (Elt F) → (⟨S50000x64, .f32⟩ : BufTy).Contents (Elt F)),
    StableHlo.unary main_arg1 main_v88 (broadcastInDim S800000x1 ![0] bcast_S800000_S800000x1_0 : (⟨S800000, .i32⟩ : BufTy).Contents (Elt F) → (⟨S800000x1, .i32⟩ : BufTy).Contents (Elt F)) ]

/-- Window 2's 70 operations with each inlined call's operations spelled by the plain builders at the same buffers. -/
abbrev ops2p : List (HloOp τ sig (Elt F)) :=
  [ StableHlo.ternary main_v87 main_v88 main_v86 main_v89 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.unary main_v79 main_v90 (broadcastInDim S50000x64 ![0, 1] bcast_S50000x1_S50000x64_0_1 : (⟨S50000x1, .f32⟩ : BufTy).Contents (Elt F) → (⟨S50000x64, .f32⟩ : BufTy).Contents (Elt F)),
    StableHlo.binary main_v90 main_v89 main_v91 (mulf : (⟨S50000x64, .f32⟩ : BufTy).Contents (Elt F) → (⟨S50000x64, .f32⟩ : BufTy).Contents (Elt F) → (⟨S50000x64, .f32⟩ : BufTy).Contents (Elt F)),
    StableHlo.unary main_arg6 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S50000x64 ![0, 1] bcast_S1x64_S50000x64_0_1 : (⟨S1x64, .f32⟩ : BufTy).Contents (Elt F) → (⟨S50000x64, .f32⟩ : BufTy).Contents (Elt F)),
    StableHlo.binary main_v91 main_v93 main_v94 (addf : (⟨S50000x64, .f32⟩ : BufTy).Contents (Elt F) → (⟨S50000x64, .f32⟩ : BufTy).Contents (Elt F) → (⟨S50000x64, .f32⟩ : BufTy).Contents (Elt F)),
    StableHlo.nullary main_cst_29 (constant S_ .f32 0x3C23D70A#32),
    StableHlo.nullary main_call5_cst (constant S_ .f32 0x00000000#32),
    StableHlo.unary main_call5_cst main_call5_v0 ((broadcastInDim S50000x64 ![] bcast_S_S50000x64) : (⟨S_, .f32⟩ : BufTy).Contents (Elt F) → (⟨S50000x64, .f32⟩ : BufTy).Contents (Elt F)),
    StableHlo.binary main_v94 main_call5_v0 main_call5_v1 ((cmpf .oge) : (⟨S50000x64, .f32⟩ : BufTy).Contents (Elt F) → (⟨S50000x64, .f32⟩ : BufTy).Contents (Elt F) → (⟨S50000x64, .i1⟩ : BufTy).Contents (Elt F)),
    StableHlo.unary main_cst_29 main_call5_v2 (id : (⟨S_, .f32⟩ : BufTy).Contents (Elt F) → (⟨S_, .f32⟩ : BufTy).Contents (Elt F)),
    StableHlo.unary main_call5_v2 main_call5_v3 ((broadcastInDim S50000x64 ![] bcast_S_S50000x64) : (⟨S_, .f32⟩ : BufTy).Contents (Elt F) → (⟨S50000x64, .f32⟩ : BufTy).Contents (Elt F)),
    StableHlo.binary main_call5_v3 main_v94 main_call5_v4 (mulf : (⟨S50000x64, .f32⟩ : BufTy).Contents (Elt F) → (⟨S50000x64, .f32⟩ : BufTy).Contents (Elt F) → (⟨S50000x64, .f32⟩ : BufTy).Contents (Elt F)),
    StableHlo.ternary main_call5_v1 main_v94 main_call5_v4 main_v95 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)),
    StableHlo.binary main_v95 main_arg7 main_v96 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_cst_30 (constant S_ .f32 0x3F800000#32),
    StableHlo.unary main_cst_30 main_v97 (broadcastInDim S800000 ![] bcast_S_S800000 : (⟨S_, .f32⟩ : BufTy).Contents (Elt F) → (⟨S800000, .f32⟩ : BufTy).Contents (Elt F)),
    StableHlo.nullary main_cst_31 (constant S_ .f32 0x00000000#32),
    StableHlo.unary main_cst_31 main_v98 (broadcastInDim S50000 ![] bcast_S_S50000 : (⟨S_, .f32⟩ : BufTy).Contents (Elt F) → (⟨S50000, .f32⟩ : BufTy).Contents (Elt F)),
    StableHlo.unary main_arg1 main_v99 (broadcastInDim S800000x1 ![0] bcast_S800000_S800000x1_0 : (⟨S800000, .i32⟩ : BufTy).Contents (Elt F) → (⟨S800000x1, .i32⟩ : BufTy).Contents (Elt F)),
    StableHlo.ternary main_v98 main_v99 main_v97 main_v100 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_32 (constant S_ .f32 0x00000000#32),
    StableHlo.unary main_cst_32 main_v101 (broadcastInDim S50000 ![] bcast_S_S50000 : (⟨S_, .f32⟩ : BufTy).Contents (Elt F) → (⟨S50000, .f32⟩ : BufTy).Contents (Elt F)),
    StableHlo.binary main_v100 main_v101 main_v102 (cmpf .ogt : (⟨S50000, .f32⟩ : BufTy).Contents (Elt F) → (⟨S50000, .f32⟩ : BufTy).Contents (Elt F) → (⟨S50000, .i1⟩ : BufTy).Contents (Elt F)),
    StableHlo.nullary main_cst_33 (constant S_ .f32 0x3F800000#32),
    StableHlo.unary main_cst_33 main_v103 (broadcastInDim S50000 ![] bcast_S_S50000 : (⟨S_, .f32⟩ : BufTy).Contents (Elt F) → (⟨S50000, .f32⟩ : BufTy).Contents (Elt F)),
    StableHlo.binary main_v103 main_v100 main_v104 (Host.divf : (⟨S50000, .f32⟩ : BufTy).Contents (Elt F) → (⟨S50000, .f32⟩ : BufTy).Contents (Elt F) → (⟨S50000, .f32⟩ : BufTy).Contents (Elt F)),
    StableHlo.nullary main_cst_34 (constant S_ .f32 0x00000000#32),
    StableHlo.unary main_cst_34 main_call6_v0 (id : (⟨S_, .f32⟩ : BufTy).Contents (Elt F) → (⟨S_, .f32⟩ : BufTy).Contents (Elt F)),
    StableHlo.unary main_call6_v0 main_call6_v1 ((broadcastInDim S50000 ![] bcast_S_S50000) : (⟨S_, .f32⟩ : BufTy).Contents (Elt F) → (⟨S50000, .f32⟩ : BufTy).Contents (Elt F)),
    StableHlo.ternary main_v102 main_v104 main_call6_v1 main_v105 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    StableHlo.nullary main_cst_35 (constant S_ .f32 0x00000000#32),
    StableHlo.unary main_cst_35 main_v106 (broadcastInDim S10000 ![] bcast_S_S10000 : (⟨S_, .f32⟩ : BufTy).Contents (Elt F) → (⟨S10000, .f32⟩ : BufTy).Contents (Elt F)),
    StableHlo.unary main_arg2 main_v107 (broadcastInDim S800000x1 ![0] bcast_S800000_S800000x1_0 : (⟨S800000, .i32⟩ : BufTy).Contents (Elt F) → (⟨S800000x1, .i32⟩ : BufTy).Contents (Elt F)),
    StableHlo.ternary main_v106 main_v107 main_v97 main_v108 ((fun x i u => Host.scatterAdd scatter_S10000_S800000x1_S800000_n_0_0_1 x i u) : (⟨S10000, .f32⟩ : BufTy).Contents (Elt F) → (⟨S800000x1, .i32⟩ : BufTy).Contents (Elt F) → (⟨S800000, .f32⟩ : BufTy).Contents (Elt F) → (⟨S10000, .f32⟩ : BufTy).Contents (Elt F)),
    StableHlo.nullary main_cst_36 (constant S_ .f32 0x00000000#32),
    StableHlo.unary main_cst_36 main_v109 (broadcastInDim S10000 ![] bcast_S_S10000 : (⟨S_, .f32⟩ : BufTy).Contents (Elt F) → (⟨S10000, .f32⟩ : BufTy).Contents (Elt F)),
    StableHlo.binary main_v108 main_v109 main_v110 (cmpf .ogt : (⟨S10000, .f32⟩ : BufTy).Contents (Elt F) → (⟨S10000, .f32⟩ : BufTy).Contents (Elt F) → (⟨S10000, .i1⟩ : BufTy).Contents (Elt F)),
    StableHlo.nullary main_cst_37 (constant S_ .f32 0x3F800000#32),
    StableHlo.unary main_cst_37 main_v111 (broadcastInDim S10000 ![] bcast_S_S10000 : (⟨S_, .f32⟩ : BufTy).Contents (Elt F) → (⟨S10000, .f32⟩ : BufTy).Contents (Elt F)),
    StableHlo.binary main_v111 main_v108 main_v112 (Host.divf : (⟨S10000, .f32⟩ : BufTy).Contents (Elt F) → (⟨S10000, .f32⟩ : BufTy).Contents (Elt F) → (⟨S10000, .f32⟩ : BufTy).Contents (Elt F)),
    StableHlo.nullary main_cst_38 (constant S_ .f32 0x00000000#32),
    StableHlo.unary main_cst_38 main_call7_v0 (id : (⟨S_, .f32⟩ : BufTy).Contents (Elt F) → (⟨S_, .f32⟩ : BufTy).Contents (Elt F)),
    StableHlo.unary main_call7_v0 main_call7_v1 ((broadcastInDim S10000 ![] bcast_S_S10000) : (⟨S_, .f32⟩ : BufTy).Contents (Elt F) → (⟨S10000, .f32⟩ : BufTy).Contents (Elt F)),
    StableHlo.ternary main_v110 main_v112 main_call7_v1 main_v113 (select : (⟨S10000, .i1⟩ : BufTy).Contents (Elt F) → (⟨S10000, .f32⟩ : BufTy).Contents (Elt F) → (⟨S10000, .f32⟩ : BufTy).Contents (Elt F) → (⟨S10000, .f32⟩ : BufTy).Contents (Elt F)),
    StableHlo.unary main_v113 main_v114 (broadcastInDim S10000x1 ![0] bcast_S10000_S10000x1_0 : (⟨S10000, .f32⟩ : BufTy).Contents (Elt F) → (⟨S10000x1, .f32⟩ : BufTy).Contents (Elt F)),
    StableHlo.nullary main_c_39 (constantI S_ 32 0#32),
    StableHlo.unary main_c_39 main_v115 (broadcastInDim S800000 ![] bcast_S_S800000 : (⟨S_, .i32⟩ : BufTy).Contents (Elt F) → (⟨S800000, .i32⟩ : BufTy).Contents (Elt F)),
    StableHlo.binary main_arg1 main_v115 main_v116 (cmpi .slt : (⟨S800000, .i32⟩ : BufTy).Contents (Elt F) → (⟨S800000, .i32⟩ : BufTy).Contents (Elt F) → (⟨S800000, .i1⟩ : BufTy).Contents (Elt F)),
    StableHlo.nullary main_c_40 (constantI S_ 32 50000#32),
    StableHlo.unary main_c_40 main_v117 (broadcastInDim S800000 ![] bcast_S_S800000 : (⟨S_, .i32⟩ : BufTy).Contents (Elt F) → (⟨S800000, .i32⟩ : BufTy).Contents (Elt F)),
    StableHlo.binary main_arg1 main_v117 main_v118 (addi : (⟨S800000, .i32⟩ : BufTy).Contents (Elt F) → (⟨S800000, .i32⟩ : BufTy).Contents (Elt F) → (⟨S800000, .i32⟩ : BufTy).Contents (Elt F)),
    StableHlo.ternary main_v116 main_v118 main_arg1 main_v119 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v119 main_v120 (broadcastInDim S800000x1 ![0] bcast_S800000_S800000x1_0 : (⟨S800000, .i32⟩ : BufTy).Contents (Elt F) → (⟨S800000x1, .i32⟩ : BufTy).Contents (Elt F)),
    StableHlo.binary main_v96 main_v120 main_v121 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_41 (constant S_ .f32 0x00000000#32),
    StableHlo.unary main_cst_41 main_v122 (broadcastInDim S10000x64 ![] bcast_S_S10000x64 : (⟨S_, .f32⟩ : BufTy).Contents (Elt F) → (⟨S10000x64, .f32⟩ : BufTy).Contents (Elt F)),
    StableHlo.unary main_arg2 main_v123 (broadcastInDim S800000x1 ![0] bcast_S800000_S800000x1_0 : (⟨S800000, .i32⟩ : BufTy).Contents (Elt F) → (⟨S800000x1, .i32⟩ : BufTy).Contents (Elt F)),
    StableHlo.ternary main_v122 main_v123 main_v121 main_v124 ((fun x i u => Host.scatterAdd scatter_S10000x64_S800000x1_S800000x64_1_0_0_1 x i u) : (⟨S10000x64, .f32⟩ : BufTy).Contents (Elt F) → (⟨S800000x1, .i32⟩ : BufTy).Contents (Elt F) → (⟨S800000x64, .f32⟩ : BufTy).Contents (Elt F) → (⟨S10000x64, .f32⟩ : BufTy).Contents (Elt F)),
    StableHlo.unary main_v114 main_v125 (broadcastInDim S10000x64 ![0, 1] bcast_S10000x1_S10000x64_0_1 : (⟨S10000x1, .f32⟩ : BufTy).Contents (Elt F) → (⟨S10000x64, .f32⟩ : BufTy).Contents (Elt F)),
    StableHlo.binary main_v125 main_v124 main_v126 (mulf : (⟨S10000x64, .f32⟩ : BufTy).Contents (Elt F) → (⟨S10000x64, .f32⟩ : BufTy).Contents (Elt F) → (⟨S10000x64, .f32⟩ : BufTy).Contents (Elt F)),
    StableHlo.unary main_v105 main_v127 (broadcastInDim S50000x1 ![0] bcast_S50000_S50000x1_0 : (⟨S50000, .f32⟩ : BufTy).Contents (Elt F) → (⟨S50000x1, .f32⟩ : BufTy).Contents (Elt F)),
    StableHlo.nullary main_c_42 (constantI S_ 32 0#32),
    StableHlo.unary main_c_42 main_v128 (broadcastInDim S800000 ![] bcast_S_S800000 : (⟨S_, .i32⟩ : BufTy).Contents (Elt F) → (⟨S800000, .i32⟩ : BufTy).Contents (Elt F)),
    StableHlo.binary main_arg2 main_v128 main_v129 (cmpi .slt : (⟨S800000, .i32⟩ : BufTy).Contents (Elt F) → (⟨S800000, .i32⟩ : BufTy).Contents (Elt F) → (⟨S800000, .i1⟩ : BufTy).Contents (Elt F)),
    StableHlo.nullary main_c_43 (constantI S_ 32 10000#32),
    StableHlo.unary main_c_43 main_v130 (broadcastInDim S800000 ![] bcast_S_S800000 : (⟨S_, .i32⟩ : BufTy).Contents (Elt F) → (⟨S800000, .i32⟩ : BufTy).Contents (Elt F)),
    StableHlo.binary main_arg2 main_v130 main_v131 (addi : (⟨S800000, .i32⟩ : BufTy).Contents (Elt F) → (⟨S800000, .i32⟩ : BufTy).Contents (Elt F) → (⟨S800000, .i32⟩ : BufTy).Contents (Elt F)),
    StableHlo.ternary main_v129 main_v131 main_arg2 main_v132 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v132 main_v133 (broadcastInDim S800000x1 ![0] bcast_S800000_S800000x1_0 : (⟨S800000, .i32⟩ : BufTy).Contents (Elt F) → (⟨S800000x1, .i32⟩ : BufTy).Contents (Elt F)) ]

/-- Window 3's 23 operations with each inlined call's operations spelled by the plain builders at the same buffers. -/
abbrev ops3p : List (HloOp τ sig (Elt F)) :=
  [ StableHlo.binary main_v126 main_v133 main_v134 ((fun x i => Host.gather gather_S10000x64_S800000x1_S800000x64_1_0_n_n_0_1_164 x i) : (⟨S10000x64, .f32⟩ : BufTy).Contents (Elt F) → (⟨S800000x1, .i32⟩ : BufTy).Contents (Elt F) → (⟨S800000x64, .f32⟩ : BufTy).Contents (Elt F)),
    StableHlo.nullary main_cst_44 (constant S_ .f32 0x00000000#32),
    StableHlo.unary main_cst_44 main_v135 (broadcastInDim S50000x64 ![] bcast_S_S50000x64 : (⟨S_, .f32⟩ : BufTy).Contents (Elt F) → (⟨S50000x64, .f32⟩ : BufTy).Contents (Elt F)),
    StableHlo.unary main_arg1 main_v136 (broadcastInDim S800000x1 ![0] bcast_S800000_S800000x1_0 : (⟨S800000, .i32⟩ : BufTy).Contents (Elt F) → (⟨S800000x1, .i32⟩ : BufTy).Contents (Elt F)),
    StableHlo.ternary main_v135 main_v136 main_v134 main_v137 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.unary main_v127 main_v138 (broadcastInDim S50000x64 ![0, 1] bcast_S50000x1_S50000x64_0_1 : (⟨S50000x1, .f32⟩ : BufTy).Contents (Elt F) → (⟨S50000x64, .f32⟩ : BufTy).Contents (Elt F)),
    StableHlo.binary main_v138 main_v137 main_v139 (mulf : (⟨S50000x64, .f32⟩ : BufTy).Contents (Elt F) → (⟨S50000x64, .f32⟩ : BufTy).Contents (Elt F) → (⟨S50000x64, .f32⟩ : BufTy).Contents (Elt F)),
    StableHlo.unary main_arg8 main_v140 (broadcastInDim S1x64 ![1] bcast_S64_S1x64_1 : (⟨S64, .f32⟩ : BufTy).Contents (Elt F) → (⟨S1x64, .f32⟩ : BufTy).Contents (Elt F)),
    StableHlo.unary main_v140 main_v141 (broadcastInDim S50000x64 ![0, 1] bcast_S1x64_S50000x64_0_1 : (⟨S1x64, .f32⟩ : BufTy).Contents (Elt F) → (⟨S50000x64, .f32⟩ : BufTy).Contents (Elt F)),
    StableHlo.binary main_v139 main_v141 main_v142 (addf : (⟨S50000x64, .f32⟩ : BufTy).Contents (Elt F) → (⟨S50000x64, .f32⟩ : BufTy).Contents (Elt F) → (⟨S50000x64, .f32⟩ : BufTy).Contents (Elt F)),
    StableHlo.nullary main_c_45 (constantI S_ 32 0#32),
    StableHlo.unary main_c_45 main_v143 (broadcastInDim S800000 ![] bcast_S_S800000 : (⟨S_, .i32⟩ : BufTy).Contents (Elt F) → (⟨S800000, .i32⟩ : BufTy).Contents (Elt F)),
    StableHlo.binary main_arg1 main_v143 main_v144 (cmpi .slt : (⟨S800000, .i32⟩ : BufTy).Contents (Elt F) → (⟨S800000, .i32⟩ : BufTy).Contents (Elt F) → (⟨S800000, .i1⟩ : BufTy).Contents (Elt F)),
    StableHlo.nullary main_c_46 (constantI S_ 32 50000#32),
    StableHlo.unary main_c_46 main_v145 (broadcastInDim S800000 ![] bcast_S_S800000 : (⟨S_, .i32⟩ : BufTy).Contents (Elt F) → (⟨S800000, .i32⟩ : BufTy).Contents (Elt F)),
    StableHlo.binary main_arg1 main_v145 main_v146 (addi : (⟨S800000, .i32⟩ : BufTy).Contents (Elt F) → (⟨S800000, .i32⟩ : BufTy).Contents (Elt F) → (⟨S800000, .i32⟩ : BufTy).Contents (Elt F)),
    StableHlo.ternary main_v144 main_v146 main_arg1 main_v147 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v147 main_v148 (broadcastInDim S800000x1 ![0] bcast_S800000_S800000x1_0 : (⟨S800000, .i32⟩ : BufTy).Contents (Elt F) → (⟨S800000x1, .i32⟩ : BufTy).Contents (Elt F)),
    StableHlo.binary main_v142 main_v148 main_v149 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_47 (constant S_ .f32 0x00000000#32),
    StableHlo.unary main_cst_47 main_v150 (broadcastInDim S10000x64 ![] bcast_S_S10000x64 : (⟨S_, .f32⟩ : BufTy).Contents (Elt F) → (⟨S10000x64, .f32⟩ : BufTy).Contents (Elt F)),
    StableHlo.unary main_arg2 main_v151 (broadcastInDim S800000x1 ![0] bcast_S800000_S800000x1_0 : (⟨S800000, .i32⟩ : BufTy).Contents (Elt F) → (⟨S800000x1, .i32⟩ : BufTy).Contents (Elt F)),
    StableHlo.ternary main_v150 main_v151 main_v149 main_v152 ((fun x i u => Host.scatterAdd scatter_S10000x64_S800000x1_S800000x64_1_0_0_1 x i u) : (⟨S10000x64, .f32⟩ : BufTy).Contents (Elt F) → (⟨S800000x1, .i32⟩ : BufTy).Contents (Elt F) → (⟨S800000x64, .f32⟩ : BufTy).Contents (Elt F) → (⟨S10000x64, .f32⟩ : BufTy).Contents (Elt F)) ]

/-- Window 0's list is its cast-free spelling: each transport at a literal reference is the identity. -/
theorem ops0_eq : (ops0 : List (HloOp τ sig (Elt F))) = ops0p := rfl
/-- Window 1's list is its cast-free spelling. -/
theorem ops1_eq : (ops1 : List (HloOp τ sig (Elt F))) = ops1p := rfl
/-- Window 2's list is its cast-free spelling. -/
theorem ops2_eq : (ops2 : List (HloOp τ sig (Elt F))) = ops2p := rfl
/-- Window 3 calls no function: the two lists are the same text. -/
theorem ops3_eq : (ops3 : List (HloOp τ sig (Elt F))) = ops3p := rfl

/-- The fold over all of @main's operations is the fold over the four cast-free lists in turn. -/
theorem after_ops_plain (V : Valuation τ sig (Elt F)) :
    after ops V = after ops3p (after ops2p (after ops1p (after ops0p V))) := by
  rw [after_ops, ops0_eq, ops1_eq, ops2_eq, ops3_eq]

end Cert.ReferenceIdeal.RefValue

end
-- ==== Proof.RefValue.lean ====
/-
  What the reference program computes, read off the fold of its operations.

  The fold over @main's 227 operations is taken one window at a time, over the cast-free lists. For each window,
  and for ANY contents V of the buffers before it, the few buffers a later window still reads are stated as the
  specification's functions of V at the window's live inputs: after window 0 the first layer's aggregate and its bias
  row; after window 1 the second layer's pooled, scaled and re-gathered rows together with the zero block, the
  index column and the node scale still to be combined; after window 2 the third layer's pooled and scaled rows,
  the wrapped hyperedge indices and the node scale; window 3 finishes the third convolution and pools it. Every window
  leaves the nine arguments as they were. Chaining the four gives the result buffer as the specification's function
  of the arguments' launch contents, in every weakly fair execution.
-/
import proofs.«108937_j41644002902694_1_alg».proof.Proof.Spec
import proofs.«108937_j41644002902694_1_alg».proof.Proof.RefPlain

noncomputable section

namespace Cert.ReferenceIdeal.RefValue

open Cert.ReferenceIdeal Cert.ReferenceIdeal.Facts₀ Idealize.ShloMosaic Idealize.ShloMosaic.TcCoe Idealize.SL.Sem Idealize.ShloMosaic.StableHlo Cert.HyperConv

/-- The contents of every buffer of one device, on the extended reals. -/
abbrev Vals := Valuation τ sig (Elt Ideal)

/-- The nine arguments of @main. -/
abbrev argRefs : List (Ref sig .tc) := [main_arg0, main_arg1, main_arg2, main_arg3, main_arg4, main_arg5, main_arg6, main_arg7, main_arg8]

/-- A column of node scales made constant along each row. -/
abbrev rowsN (v : CF S50000x1) : CF S50000x64 := broadcastInDim S50000x64 ![0, 1] bcast_S50000x1_S50000x64_0_1 v
/-- A node scale as a column. -/
abbrev colN (v : CF S50000) : CF S50000x1 := broadcastInDim S50000x1 ![0] bcast_S50000_S50000x1_0 v
/-- The zero block that hyperedge rows are summed into, node by node. -/
abbrev zerosN : CF S50000x64 := broadcastInDim S50000x64 ![] bcast_S_S50000x64 (constant (F := Ideal) S_ .f32 0x00000000#32)

/-- The two-step aggregation with its parts written out: the node scale as a column made constant along rows, times
    the scatter-add, into the zero block along the node indices, of the scaled pooled rows gathered along the wrapped
    hyperedge indices. -/
theorem aggregate_of_parts (dv : CF S50000) (bv : CF S10000) (a1 a2 : CI S800000) (xw : CF S50000x64) :
    mulf (rowsN (colN dv)) (Host.scatterAdd scatter_S50000x64_S800000x1_S800000x64_1_0_0_1 zerosN (col a1) (Host.gather gather_S10000x64_S800000x1_S800000x64_1_0_n_n_0_1_164 (mulf (scaleE bv) (pool a1 a2 xw)) (wrapE a2)))
      = aggregate dv bv a1 a2 xw := rfl

section Windows
variable (V : Vals)

local notation "⟪x⟫" => V (main_arg0 : DevRef τ sig)
local notation "⟪a1⟫" => V (main_arg1 : DevRef τ sig)
local notation "⟪a2⟫" => V (main_arg2 : DevRef τ sig)
local notation "⟪W0⟫" => V (main_arg3 : DevRef τ sig)
local notation "⟪b0⟫" => V (main_arg4 : DevRef τ sig)
local notation "⟪W1⟫" => V (main_arg5 : DevRef τ sig)
local notation "⟪b1⟫" => V (main_arg6 : DevRef τ sig)
local notation "⟪W2⟫" => V (main_arg7 : DevRef τ sig)
local notation "⟪b2⟫" => V (main_arg8 : DevRef τ sig)

/-! ## Window 0: the degrees, the first projection, its aggregate and the first bias row -/

attribute [local irreducible] Host.scatterAdd Host.gather in
/-- After window 0 the first layer's aggregate: the projected input pooled into hyperedges, scaled by the reciprocal
    hyperedge degrees, spread back to the nodes and scaled by the reciprocal node degrees. -/
theorem w0_v43 : after ops0p V (main_v43 : DevRef τ sig) = aggregate (dinv ⟪a1⟫) (binv ⟪a2⟫) ⟪a1⟫ ⟪a2⟫ (proj ⟪x⟫ ⟪W0⟫) := by
  after_results_simp
  rfl

/-- After window 0 the first bias as one row. -/
theorem w0_v44 : after ops0p V (main_v44 : DevRef τ sig) = asRow ⟪b0⟫ := by
  after_results_simp
  rfl

-- nine passes over the window's operations in one declaration: nine times one pass's budget
set_option maxHeartbeats 2000000 in
/-- Window 0 writes none of the nine arguments. -/
theorem w0_frame (r : Ref sig .tc) (h : r ∈ argRefs) : after ops0p V (Proc.devRef .tc r) = V (Proc.devRef .tc r) := by
  simp only [argRefs, List.mem_cons, List.not_mem_nil, or_false] at h
  rcases h with rfl | rfl | rfl | rfl | rfl | rfl | rfl | rfl | rfl <;> after_results_simp

/-! ## Window 1: the first rectifier, the second projection, and the second aggregate up to its last gather -/

attribute [local irreducible] Host.scatterAdd Host.gather in
/-- After window 1: the rectified first layer projected by the second weights, pooled, scaled by the reciprocal
    hyperedge degrees (recomputed in this window) and gathered back along the wrapped hyperedge indices. -/
theorem w1_v86 : after ops1p V (main_v86 : DevRef τ sig)
    = Host.gather gather_S10000x64_S800000x1_S800000x64_1_0_n_n_0_1_164
        (mulf (scaleE (binv ⟪a2⟫)) (pool ⟪a1⟫ ⟪a2⟫
          (proj (leaky (addRow (V (main_v43 : DevRef τ sig)) (V (main_v44 : DevRef τ sig)))) ⟪W1⟫)))
        (wrapE ⟪a2⟫) := by
  after_results_simp
  rfl

/-- After window 1 the zero block the gathered rows will be summed into. -/
theorem w1_v87 : after ops1p V (main_v87 : DevRef τ sig) = zerosN := by
  after_results_simp

/-- After window 1 the node indices as a column. -/
theorem w1_v88 : after ops1p V (main_v88 : DevRef τ sig) = col ⟪a1⟫ := by
  after_results_simp
  rfl

attribute [local irreducible] Host.scatterAdd Host.gather in
/-- After window 1 the reciprocal node degrees (recomputed in this window) as a column. -/
theorem w1_v79 : after ops1p V (main_v79 : DevRef τ sig) = colN (dinv ⟪a1⟫) := by
  after_results_simp
  rfl

-- nine passes over the window's operations in one declaration: nine times one pass's budget
set_option maxHeartbeats 2000000 in
/-- Window 1 writes none of the nine arguments. -/
theorem w1_frame (r : Ref sig .tc) (h : r ∈ argRefs) : after ops1p V (Proc.devRef .tc r) = V (Proc.devRef .tc r) := by
  simp only [argRefs, List.mem_cons, List.not_mem_nil, or_false] at h
  rcases h with rfl | rfl | rfl | rfl | rfl | rfl | rfl | rfl | rfl <;> after_results_simp

/-! ## Window 2: the second aggregate finished, the second rectifier, the third projection pooled and scaled -/

attribute [local irreducible] Host.scatterAdd Host.gather in
/-- After window 2: the second layer finished from what window 1 left (spread, node scale, bias row, rectifier),
    projected by the third weights, pooled and scaled by the reciprocal hyperedge degrees (recomputed again). -/
theorem w2_v126 : after ops2p V (main_v126 : DevRef τ sig)
    = mulf (scaleE (binv ⟪a2⟫)) (pool ⟪a1⟫ ⟪a2⟫
        (proj (leaky (addRow
          (mulf (rowsN (V (main_v79 : DevRef τ sig)))
            (Host.scatterAdd scatter_S50000x64_S800000x1_S800000x64_1_0_0_1 (V (main_v87 : DevRef τ sig)) (V (main_v88 : DevRef τ sig)) (V (main_v86 : DevRef τ sig))))
          (asRow ⟪b1⟫))) ⟪W2⟫)) := by
  after_results_simp
  rfl

/-- After window 2 the hyperedge indices, negative ones wrapped, as a column. -/
theorem w2_v133 : after ops2p V (main_v133 : DevRef τ sig) = wrapE ⟪a2⟫ := by
  after_results_simp
  rfl

attribute [local irreducible] Host.scatterAdd Host.gather in
/-- After window 2 the reciprocal node degrees (recomputed in this window) as a column. -/
theorem w2_v127 : after ops2p V (main_v127 : DevRef τ sig) = colN (dinv ⟪a1⟫) := by
  after_results_simp
  rfl

-- nine passes over the window's operations in one declaration: nine times one pass's budget
set_option maxHeartbeats 2000000 in
/-- Window 2 writes none of the nine arguments. -/
theorem w2_frame (r : Ref sig .tc) (h : r ∈ argRefs) : after ops2p V (Proc.devRef .tc r) = V (Proc.devRef .tc r) := by
  simp only [argRefs, List.mem_cons, List.not_mem_nil, or_false] at h
  rcases h with rfl | rfl | rfl | rfl | rfl | rfl | rfl | rfl | rfl <;> after_results_simp

/-! ## Window 3: the third aggregate finished, its bias row, and the final pooling -/

attribute [local irreducible] Host.scatterAdd Host.gather in
/-- After window 3 the result: the third layer finished from what window 2 left (gather, spread, node scale, bias row)
    and pooled into hyperedges. -/
theorem w3_v152 : after ops3p V (main_v152 : DevRef τ sig)
    = pool ⟪a1⟫ ⟪a2⟫ (addRow
        (mulf (rowsN (V (main_v127 : DevRef τ sig)))
          (Host.scatterAdd scatter_S50000x64_S800000x1_S800000x64_1_0_0_1 zerosN (col ⟪a1⟫)
            (Host.gather gather_S10000x64_S800000x1_S800000x64_1_0_n_n_0_1_164 (V (main_v126 : DevRef τ sig)) (V (main_v133 : DevRef τ sig)))))
        (asRow ⟪b2⟫)) := by
  after_results_simp
  rfl

-- nine passes over the window's operations in one declaration: nine times one pass's budget
set_option maxHeartbeats 2000000 in
/-- Window 3 writes none of the nine arguments. -/
theorem w3_frame (r : Ref sig .tc) (h : r ∈ argRefs) : after ops3p V (Proc.devRef .tc r) = V (Proc.devRef .tc r) := by
  simp only [argRefs, List.mem_cons, List.not_mem_nil, or_false] at h
  rcases h with rfl | rfl | rfl | rfl | rfl | rfl | rfl | rfl | rfl <;> after_results_simp

/-! ## The four windows chained -/

/-- @main writes none of its nine arguments. -/
theorem args_frame (r : Ref sig .tc) (h : r ∈ argRefs) : after ops V (Proc.devRef .tc r) = V (Proc.devRef .tc r) := by
  rw [after_ops_plain, w3_frame _ r h, w2_frame _ r h, w1_frame _ r h, w0_frame _ r h]

/-- The result buffer after all 227 operations is the specification's function of the nine arguments: three
    convolutions, the first two rectified, then the pooling — each window's live buffers substituted into the next
    window's reading, the arguments carried through unchanged. -/
theorem value : after ops V (main_v152 : DevRef τ sig) = out ⟪x⟫ ⟪a1⟫ ⟪a2⟫ ⟪W0⟫ ⟪b0⟫ ⟪W1⟫ ⟪b1⟫ ⟪W2⟫ ⟪b2⟫ := by
  rw [after_ops_plain, w3_v152,
    w2_v126, w2_v133, w2_v127,
    w2_frame _ main_arg1 (by decide), w2_frame _ main_arg2 (by decide), w2_frame _ main_arg8 (by decide),
    w1_v86, w1_v87, w1_v88, w1_v79,
    w1_frame _ main_arg1 (by decide), w1_frame _ main_arg2 (by decide), w1_frame _ main_arg6 (by decide),
    w1_frame _ main_arg7 (by decide), w1_frame _ main_arg8 (by decide),
    w0_v43, w0_v44,
    w0_frame _ main_arg1 (by decide), w0_frame _ main_arg2 (by decide), w0_frame _ main_arg5 (by decide),
    w0_frame _ main_arg6 (by decide), w0_frame _ main_arg7 (by decide), w0_frame _ main_arg8 (by decide),
    aggregate_of_parts, aggregate_of_parts]
  rfl

end Windows

/-- On every device, from any memory with zero counters: every weakly fair execution of the reference's @main
    terminates with the result buffer at the specification's function of the nine arguments' launch contents, and
    with the nine arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v152) = out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨(h c main_v152).trans (value (launchContents m c)),
      (h c main_arg0).trans (args_frame (launchContents m c) main_arg0 (by decide)),
      (h c main_arg1).trans (args_frame (launchContents m c) main_arg1 (by decide)),
      (h c main_arg2).trans (args_frame (launchContents m c) main_arg2 (by decide)),
      (h c main_arg3).trans (args_frame (launchContents m c) main_arg3 (by decide)),
      (h c main_arg4).trans (args_frame (launchContents m c) main_arg4 (by decide)),
      (h c main_arg5).trans (args_frame (launchContents m c) main_arg5 (by decide)),
      (h c main_arg6).trans (args_frame (launchContents m c) main_arg6 (by decide)),
      (h c main_arg7).trans (args_frame (launchContents m c) main_arg7 (by decide)),
      (h c main_arg8).trans (args_frame (launchContents m c) main_arg8 (by decide))⟩)
    (run_after (F := Ideal) m ρ)

end Cert.ReferenceIdeal.RefValue

end
-- ==== Proof.lean ====
/-
  The certificate of a three-layer hypergraph convolution with pooling: a Pallas kernel program (three bf16 matrix
  products and three bias / leaky-rectifier kernels, tiled over the 50000 nodes in ten blocks of 5000 rows, with
  the gather and scatter-add aggregation on the host between them) against its jnp reference.

  On the extended reals both programs compute one function of the nine arguments (Proof/Spec.lean, `out`):
    h ↦ D⁻¹ · spread (B⁻¹ · pool (h · W)) + b  three times, the leaky rectifier after the first two, then pool.
  The kernel program computes the degree reciprocals once and the reference once per layer, from the same index
  vectors by the same operations; a change of float format is the identity, a matrix product into the zero
  accumulator is the host's product (the same sum over the contracted axis, entry by entry), a block of 5000 rows of
  an entrywise or row-wise operation is the operation on the whole array restricted to those rows, and the kernel's
  y · 0.01 is the reference's 0.01 · y. Every gather and scatter-add is the same host operation applied to equal
  operands on both sides and is never opened. No finiteness of the inputs is used.

  The modules: Spec (the function), KernelRun (the kernel program's run with its result named), MatmulPayload /
  MatmulRegion0,2,4 and BiasPayload / BiasRegion1,3,5 (what each kernel region leaves in its output array),
  KernelHost (the host stretches between the regions), KernelChain (the walk from the launch to the return),
  RefOps / RefPlain / RefValue (the reference's run), and the claims below.
-/
import proofs.«108937_j41644002902694_1_alg».proof.Defs
import proofs.«108937_j41644002902694_1_alg».proof.Proof.Gen.Kernel
import proofs.«108937_j41644002902694_1_alg».proof.Proof.Gen.Kernel.Frame
import proofs.«108937_j41644002902694_1_alg».proof.Proof.Gen.KernelIdeal
import proofs.«108937_j41644002902694_1_alg».proof.Proof.Gen.KernelIdeal.Frame
import proofs.«108937_j41644002902694_1_alg».proof.Proof.Gen.ReferenceIdeal
import proofs.«108937_j41644002902694_1_alg».proof.Proof.Gen.Pre_finite_inputs
import proofs.«108937_j41644002902694_1_alg».proof.Proof.Spec
import proofs.«108937_j41644002902694_1_alg».proof.Proof.KernelRun
import proofs.«108937_j41644002902694_1_alg».proof.Proof.KernelChain
import proofs.«108937_j41644002902694_1_alg».proof.Proof.RefValue

noncomputable section

namespace Cert.Proof

open Idealize.ShloMosaic Idealize.SL.Sem Cert.HyperConv

/-- The word-level kernel program terminates, nothing faulting, with its arguments unchanged. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- On the extended reals both programs end with the specification's function of the nine arguments in their result
    buffers: the kernel program by the walk through its segment boundaries, the reference by its run; the arguments
    agree, so the results are equal entry by entry. No finiteness of the inputs is used. -/
theorem algebraic : Cert.algebraic_KernelIdeal_ReferenceIdeal := by
  intro m ρ m' ρ' _ hagree
  refine ⟨fun c => out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.ChainValue.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.RefValue.run m' ρ')
    obtain ⟨e0, e1, e2, e3, e4, e5, e6, e7, e8⟩ := hagree c
    rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
